-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v294)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v294) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v326) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S3x400000 : Shape := ⟨2, ![3, 400000]⟩
abbrev S100000 : Shape := ⟨1, ![100000]⟩
abbrev S3x256x256 : Shape := ⟨3, ![3, 256, 256]⟩
abbrev S3x256 : Shape := ⟨2, ![3, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part1 {F : FTy → Type} [FloatOps F] (main_arg7 : FVec F S3x256 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg7
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  main_v23

def fn {F : FTy → Type} [FloatOps F] (main_arg0 : FVec F S100000x256 .f32) (main_arg1 : IVec S3x400000 32) (main_arg2 : IVec S3x400000 32) (main_arg3 : IVec S100000 32) (main_arg4 : FVec F S3x256x256 .f32) (main_arg5 : FVec F S3x256 .f32) (main_arg6 : FVec F S3x256x256 .f32) (main_arg7 : FVec F S3x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3x256x256 .f32 := Host.absf main_arg4
  let main_cst_0 : FVec F S_ .f32 := constant S_ .f32 0x7F800000#32
  let main_v5 : FVec F S3x256x256 .f32 := broadcastInDim S3x256x256 ![] bcast_S_S3x256x256 main_cst_0
  let main_v6 : IVec S3x256x256 1 := cmpf .olt main_v4 main_v5
  let main_c_1 : IVec S_ 1 := constantI S_ 1 1#1
  let main_v7 : IVec S_ 1 := (fun x v => Host.reduce IntOp.andi x v reducesTo_S3x256x256_S_d0_1_2 h_S_) main_v6 main_c_1
  let main_v8 : IVec S_ 1 := andi main_v3 main_v7
  let main_v9 : FVec F S3x256 .f32 := Host.absf main_arg5
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S3x256x256 .f32 := Host.absf main_arg6
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg7 main_v13 main_v16
-- ==== Kernel.lean ====
abbrev S100000x256 : Shape := ⟨2, ![100000, 256]⟩
abbrev S3x400000 : Shape := ⟨2, ![3, 400000]⟩
abbrev S100000 : Shape := ⟨1, ![100000]⟩
abbrev S3x256x256 : Shape := ⟨3, ![3, 256, 256]⟩
abbrev S3x256 : Shape := ⟨2, ![3, 256]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x256 : Shape := ⟨2, ![400000, 256]⟩
abbrev S100000x1 : Shape := ⟨2, ![100000, 1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S4000x256 : Shape := ⟨2, ![4000, 256]⟩
abbrev S128x256 : Shape := ⟨2, ![128, 256]⟩
abbrev S128 : Shape := ⟨1, ![128]⟩
abbrev S128x1 : Shape := ⟨2, ![128, 1]⟩

abbrev nBuf : Space → Nat
  | .hbm => 382
  | .vmem => 28
  | .smem => 0
  | _ => 0

abbrev hbmTy0_0 (i : Nat) : BufTy := match i % 128 with
  | 0 => ⟨S100000x256, .f32⟩
  | 1 => ⟨S3x400000, .i32⟩
  | 2 => ⟨S3x400000, .i32⟩
  | 3 => ⟨S100000, .i32⟩
  | 4 => ⟨S3x256x256, .f32⟩
  | 5 => ⟨S3x256, .f32⟩
  | 6 => ⟨S3x256x256, .f32⟩
  | 7 => ⟨S3x256, .f32⟩
  | 8 => ⟨S1x400000, .i32⟩
  | 9 => ⟨S400000, .i32⟩
  | 10 => ⟨S1x400000, .i32⟩
  | 11 => ⟨S400000, .i32⟩
  | 12 => ⟨S_, .f32⟩
  | 13 => ⟨S400000, .f32⟩
  | 14 => ⟨S_, .f32⟩
  | 15 => ⟨S100000, .f32⟩
  | 16 => ⟨S400000x1, .i32⟩
  | 17 => ⟨S100000, .f32⟩
  | 18 => ⟨S_, .f32⟩
  | 19 => ⟨S100000, .f32⟩
  | 20 => ⟨S400000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .i1⟩
  | 39 => ⟨S_, .f32⟩
  | 40 => ⟨S100000, .f32⟩
  | 41 => ⟨S100000, .f32⟩
  | 42 => ⟨S100000, .f32⟩
  | 43 => ⟨S_, .f32⟩
  | 44 => ⟨S100000, .f32⟩
  | 45 => ⟨S100000, .f32⟩
  | 46 => ⟨S_, .f32⟩
  | 47 => ⟨S_, .f32⟩
  | 48 => ⟨S100000, .f32⟩
  | 49 => ⟨S100000, .f32⟩
  | 50 => ⟨S1x400000, .i32⟩
  | 51 => ⟨S400000, .i32⟩
  | 52 => ⟨S1x400000, .i32⟩
  | 53 => ⟨S400000, .i32⟩
  | 54 => ⟨S_, .f32⟩
  | 55 => ⟨S400000, .f32⟩
  | 56 => ⟨S_, .f32⟩
  | 57 => ⟨S100000, .f32⟩
  | 58 => ⟨S400000x1, .i32⟩
  | 59 => ⟨S100000, .f32⟩
  | 60 => ⟨S_, .f32⟩
  | 61 => ⟨S100000, .f32⟩
  | 62 => ⟨S400000x1, .i32⟩
  | 63 => ⟨S100000, .f32⟩
  | 64 => ⟨S_, .f32⟩
  | 65 => ⟨S100000, .f32⟩
  | 66 => ⟨S100000, .i1⟩
  | 67 => ⟨S_, .f32⟩
  | 68 => ⟨S100000, .f32⟩
  | 69 => ⟨S100000, .f32⟩
  | 70 => ⟨S100000, .f32⟩
  | 71 => ⟨S_, .f32⟩
  | 72 => ⟨S100000, .f32⟩
  | 73 => ⟨S100000, .f32⟩
  | 74 => ⟨S_, .f32⟩
  | 75 => ⟨S_, .f32⟩
  | 76 => ⟨S100000, .f32⟩
  | 77 => ⟨S100000, .f32⟩
  | 78 => ⟨S_, .f32⟩
  | 79 => ⟨S100000, .f32⟩
  | 80 => ⟨S100000, .i1⟩
  | 81 => ⟨S_, .f32⟩
  | 82 => ⟨S100000, .f32⟩
  | 83 => ⟨S100000, .f32⟩
  | 84 => ⟨S100000, .f32⟩
  | 85 => ⟨S_, .f32⟩
  | 86 => ⟨S100000, .f32⟩
  | 87 => ⟨S100000, .f32⟩
  | 88 => ⟨S_, .f32⟩
  | 89 => ⟨S_, .f32⟩
  | 90 => ⟨S100000, .f32⟩
  | 91 => ⟨S100000, .f32⟩
  | 92 => ⟨S1x400000, .i32⟩
  | 93 => ⟨S400000, .i32⟩
  | 94 => ⟨S1x400000, .i32⟩
  | 95 => ⟨S400000, .i32⟩
  | 96 => ⟨S_, .f32⟩
  | 97 => ⟨S400000, .f32⟩
  | 98 => ⟨S_, .f32⟩
  | 99 => ⟨S100000, .f32⟩
  | 100 => ⟨S400000x1, .i32⟩
  | 101 => ⟨S100000, .f32⟩
  | 102 => ⟨S_, .f32⟩
  | 103 => ⟨S100000, .f32⟩
  | 104 => ⟨S400000x1, .i32⟩
  | 105 => ⟨S100000, .f32⟩
  | 106 => ⟨S_, .f32⟩
  | 107 => ⟨S100000, .f32⟩
  | 108 => ⟨S100000, .i1⟩
  | 109 => ⟨S_, .f32⟩
  | 110 => ⟨S100000, .f32⟩
  | 111 => ⟨S100000, .f32⟩
  | 112 => ⟨S100000, .f32⟩
  | 113 => ⟨S_, .f32⟩
  | 114 => ⟨S100000, .f32⟩
  | 115 => ⟨S100000, .f32⟩
  | 116 => ⟨S_, .f32⟩
  | 117 => ⟨S_, .f32⟩
  | 118 => ⟨S100000, .f32⟩
  | 119 => ⟨S100000, .f32⟩
  | 120 => ⟨S_, .f32⟩
  | 121 => ⟨S100000, .f32⟩
  | 122 => ⟨S100000, .i1⟩
  | 123 => ⟨S_, .f32⟩
  | 124 => ⟨S100000, .f32⟩
  | 125 => ⟨S100000, .f32⟩
  | 126 => ⟨S100000, .f32⟩
  | 127 => ⟨S_, .f32⟩
  | _ => ⟨S100000x256, .f32⟩

abbrev hbmTy0_1 (i : Nat) : BufTy := match i % 128 with
  | 0 => ⟨S100000, .f32⟩
  | 1 => ⟨S100000, .f32⟩
  | 2 => ⟨S_, .f32⟩
  | 3 => ⟨S_, .f32⟩
  | 4 => ⟨S100000, .f32⟩
  | 5 => ⟨S100000, .f32⟩
  | 6 => ⟨S3x256x256, .bf16⟩
  | 7 => ⟨S3x256x256, .bf16⟩
  | 8 => ⟨S1x400000, .i32⟩
  | 9 => ⟨S400000, .i32⟩
  | 10 => ⟨S1x400000, .i32⟩
  | 11 => ⟨S400000, .i32⟩
  | 12 => ⟨S_, .i32⟩
  | 13 => ⟨S400000, .i32⟩
  | 14 => ⟨S400000, .i1⟩
  | 15 => ⟨S_, .i32⟩
  | 16 => ⟨S400000, .i32⟩
  | 17 => ⟨S400000, .i32⟩
  | 18 => ⟨S400000, .i32⟩
  | 19 => ⟨S400000x1, .i32⟩
  | 20 => ⟨S400000x256, .f32⟩
  | 21 => ⟨S_, .i32⟩
  | 22 => ⟨S400000, .i32⟩
  | 23 => ⟨S400000, .i1⟩
  | 24 => ⟨S_, .i32⟩
  | 25 => ⟨S400000, .i32⟩
  | 26 => ⟨S400000, .i32⟩
  | 27 => ⟨S400000, .i32⟩
  | 28 => ⟨S400000x1, .i32⟩
  | 29 => ⟨S400000, .f32⟩
  | 30 => ⟨S400000x1, .f32⟩
  | 31 => ⟨S400000x256, .f32⟩
  | 32 => ⟨S400000x256, .f32⟩
  | 33 => ⟨S_, .f32⟩
  | 34 => ⟨S100000x256, .f32⟩
  | 35 => ⟨S400000x1, .i32⟩
  | 36 => ⟨S100000x256, .f32⟩
  | 37 => ⟨S100000x1, .f32⟩
  | 38 => ⟨S100000x256, .f32⟩
  | 39 => ⟨S100000x256, .f32⟩
  | 40 => ⟨S100000x256, .bf16⟩
  | 41 => ⟨S1x400000, .i32⟩
  | 42 => ⟨S400000, .i32⟩
  | 43 => ⟨S1x400000, .i32⟩
  | 44 => ⟨S400000, .i32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000x256, .f32⟩
  | 54 => ⟨S_, .i32⟩
  | 55 => ⟨S400000, .i32⟩
  | 56 => ⟨S400000, .i1⟩
  | 57 => ⟨S_, .i32⟩
  | 58 => ⟨S400000, .i32⟩
  | 59 => ⟨S400000, .i32⟩
  | 60 => ⟨S400000, .i32⟩
  | 61 => ⟨S400000x1, .i32⟩
  | 62 => ⟨S400000, .f32⟩
  | 63 => ⟨S400000x1, .f32⟩
  | 64 => ⟨S400000x256, .f32⟩
  | 65 => ⟨S400000x256, .f32⟩
  | 66 => ⟨S_, .f32⟩
  | 67 => ⟨S100000x256, .f32⟩
  | 68 => ⟨S400000x1, .i32⟩
  | 69 => ⟨S100000x256, .f32⟩
  | 70 => ⟨S100000x1, .f32⟩
  | 71 => ⟨S100000x256, .f32⟩
  | 72 => ⟨S100000x256, .f32⟩
  | 73 => ⟨S100000x256, .bf16⟩
  | 74 => ⟨S1x400000, .i32⟩
  | 75 => ⟨S400000, .i32⟩
  | 76 => ⟨S1x400000, .i32⟩
  | 77 => ⟨S400000, .i32⟩
  | 78 => ⟨S_, .i32⟩
  | 79 => ⟨S400000, .i32⟩
  | 80 => ⟨S400000, .i1⟩
  | 81 => ⟨S_, .i32⟩
  | 82 => ⟨S400000, .i32⟩
  | 83 => ⟨S400000, .i32⟩
  | 84 => ⟨S400000, .i32⟩
  | 85 => ⟨S400000x1, .i32⟩
  | 86 => ⟨S400000x256, .f32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S400000, .f32⟩
  | 96 => ⟨S400000x1, .f32⟩
  | 97 => ⟨S400000x256, .f32⟩
  | 98 => ⟨S400000x256, .f32⟩
  | 99 => ⟨S_, .f32⟩
  | 100 => ⟨S100000x256, .f32⟩
  | 101 => ⟨S400000x1, .i32⟩
  | 102 => ⟨S100000x256, .f32⟩
  | 103 => ⟨S100000x1, .f32⟩
  | 104 => ⟨S100000x256, .f32⟩
  | 105 => ⟨S100000x256, .f32⟩
  | 106 => ⟨S100000x256, .bf16⟩
  | 107 => ⟨S1x256x256, .bf16⟩
  | 108 => ⟨S256x256, .bf16⟩
  | 109 => ⟨S1x256x256, .bf16⟩
  | 110 => ⟨S256x256, .bf16⟩
  | 111 => ⟨S1x256x256, .bf16⟩
  | 112 => ⟨S256x256, .bf16⟩
  | 113 => ⟨S1x256, .f32⟩
  | 114 => ⟨S256, .f32⟩
  | 115 => ⟨S1x256, .f32⟩
  | 116 => ⟨S1x256, .f32⟩
  | 117 => ⟨S256, .f32⟩
  | 118 => ⟨S1x256, .f32⟩
  | 119 => ⟨S1x256, .f32⟩
  | 120 => ⟨S256, .f32⟩
  | 121 => ⟨S1x256, .f32⟩
  | 122 => ⟨S100000x256, .f32⟩
  | 123 => ⟨S1x400000, .i32⟩
  | 124 => ⟨S400000, .i32⟩
  | 125 => ⟨S1x400000, .i32⟩
  | 126 => ⟨S400000, .i32⟩
  | 127 => ⟨S_, .i32⟩
  | _ => ⟨S100000x256, .f32⟩

abbrev hbmTy0_2 (i : Nat) : BufTy := match i % 128 with
  | 0 => ⟨S400000, .i32⟩
  | 1 => ⟨S400000, .i1⟩
  | 2 => ⟨S_, .i32⟩
  | 3 => ⟨S400000, .i32⟩
  | 4 => ⟨S400000, .i32⟩
  | 5 => ⟨S400000, .i32⟩
  | 6 => ⟨S400000x1, .i32⟩
  | 7 => ⟨S400000x256, .f32⟩
  | 8 => ⟨S_, .i32⟩
  | 9 => ⟨S400000, .i32⟩
  | 10 => ⟨S400000, .i1⟩
  | 11 => ⟨S_, .i32⟩
  | 12 => ⟨S400000, .i32⟩
  | 13 => ⟨S400000, .i32⟩
  | 14 => ⟨S400000, .i32⟩
  | 15 => ⟨S400000x1, .i32⟩
  | 16 => ⟨S400000, .f32⟩
  | 17 => ⟨S400000x1, .f32⟩
  | 18 => ⟨S400000x256, .f32⟩
  | 19 => ⟨S400000x256, .f32⟩
  | 20 => ⟨S_, .f32⟩
  | 21 => ⟨S100000x256, .f32⟩
  | 22 => ⟨S400000x1, .i32⟩
  | 23 => ⟨S100000x256, .f32⟩
  | 24 => ⟨S100000x1, .f32⟩
  | 25 => ⟨S100000x256, .f32⟩
  | 26 => ⟨S100000x256, .f32⟩
  | 27 => ⟨S100000x256, .bf16⟩
  | 28 => ⟨S1x400000, .i32⟩
  | 29 => ⟨S400000, .i32⟩
  | 30 => ⟨S1x400000, .i32⟩
  | 31 => ⟨S400000, .i32⟩
  | 32 => ⟨S_, .i32⟩
  | 33 => ⟨S400000, .i32⟩
  | 34 => ⟨S400000, .i1⟩
  | 35 => ⟨S_, .i32⟩
  | 36 => ⟨S400000, .i32⟩
  | 37 => ⟨S400000, .i32⟩
  | 38 => ⟨S400000, .i32⟩
  | 39 => ⟨S400000x1, .i32⟩
  | 40 => ⟨S400000x256, .f32⟩
  | 41 => ⟨S_, .i32⟩
  | 42 => ⟨S400000, .i32⟩
  | 43 => ⟨S400000, .i1⟩
  | 44 => ⟨S_, .i32⟩
  | 45 => ⟨S400000, .i32⟩
  | 46 => ⟨S400000, .i32⟩
  | 47 => ⟨S400000, .i32⟩
  | 48 => ⟨S400000x1, .i32⟩
  | 49 => ⟨S400000, .f32⟩
  | 50 => ⟨S400000x1, .f32⟩
  | 51 => ⟨S400000x256, .f32⟩
  | 52 => ⟨S400000x256, .f32⟩
  | 53 => ⟨S_, .f32⟩
  | 54 => ⟨S100000x256, .f32⟩
  | 55 => ⟨S400000x1, .i32⟩
  | 56 => ⟨S100000x256, .f32⟩
  | 57 => ⟨S100000x1, .f32⟩
  | 58 => ⟨S100000x256, .f32⟩
  | 59 => ⟨S100000x256, .f32⟩
  | 60 => ⟨S100000x256, .bf16⟩
  | 61 => ⟨S1x400000, .i32⟩
  | 62 => ⟨S400000, .i32⟩
  | 63 => ⟨S1x400000, .i32⟩
  | 64 => ⟨S400000, .i32⟩
  | 65 => ⟨S_, .i32⟩
  | 66 => ⟨S400000, .i32⟩
  | 67 => ⟨S400000, .i1⟩
  | 68 => ⟨S_, .i32⟩
  | 69 => ⟨S400000, .i32⟩
  | 70 => ⟨S400000, .i32⟩
  | 71 => ⟨S400000, .i32⟩
  | 72 => ⟨S400000x1, .i32⟩
  | 73 => ⟨S400000x256, .f32⟩
  | 74 => ⟨S_, .i32⟩
  | 75 => ⟨S400000, .i32⟩
  | 76 => ⟨S400000, .i1⟩
  | 77 => ⟨S_, .i32⟩
  | 78 => ⟨S400000, .i32⟩
  | 79 => ⟨S400000, .i32⟩
  | 80 => ⟨S400000, .i32⟩
  | 81 => ⟨S400000x1, .i32⟩
  | 82 => ⟨S400000, .f32⟩
  | 83 => ⟨S400000x1, .f32⟩
  | 84 => ⟨S400000x256, .f32⟩
  | 85 => ⟨S400000x256, .f32⟩
  | 86 => ⟨S_, .f32⟩
  | 87 => ⟨S100000x256, .f32⟩
  | 88 => ⟨S400000x1, .i32⟩
  | 89 => ⟨S100000x256, .f32⟩
  | 90 => ⟨S100000x1, .f32⟩
  | 91 => ⟨S100000x256, .f32⟩
  | 92 => ⟨S100000x256, .f32⟩
  | 93 => ⟨S100000x256, .bf16⟩
  | 94 => ⟨S1x256x256, .bf16⟩
  | 95 => ⟨S256x256, .bf16⟩
  | 96 => ⟨S1x256x256, .bf16⟩
  | 97 => ⟨S256x256, .bf16⟩
  | 98 => ⟨S1x256x256, .bf16⟩
  | 99 => ⟨S256x256, .bf16⟩
  | 100 => ⟨S1x256, .f32⟩
  | 101 => ⟨S256, .f32⟩
  | 102 => ⟨S1x256, .f32⟩
  | 103 => ⟨S1x256, .f32⟩
  | 104 => ⟨S256, .f32⟩
  | 105 => ⟨S1x256, .f32⟩
  | 106 => ⟨S1x256, .f32⟩
  | 107 => ⟨S256, .f32⟩
  | 108 => ⟨S1x256, .f32⟩
  | 109 => ⟨S100000x256, .f32⟩
  | 110 => ⟨S_, .f32⟩
  | 111 => ⟨S128x256, .f32⟩
  | 112 => ⟨S100000x1, .i32⟩
  | 113 => ⟨S128x256, .f32⟩
  | 114 => ⟨S_, .f32⟩
  | 115 => ⟨S100000, .f32⟩
  | 116 => ⟨S_, .f32⟩
  | 117 => ⟨S128, .f32⟩
  | 118 => ⟨S100000x1, .i32⟩
  | 119 => ⟨S128, .f32⟩
  | 120 => ⟨S_, .f32⟩
  | 121 => ⟨S128, .f32⟩
  | 122 => ⟨S128, .f32⟩
  | 123 => ⟨S128x1, .f32⟩
  | 124 => ⟨S128x256, .f32⟩
  | 125 => ⟨S128x256, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | .local _ .vmem, ⟨0, _⟩ => ⟨S4000x256, .bf16⟩
  | .local _ .vmem, ⟨1, _⟩ => ⟨S4000x256, .bf16⟩
  | .local _ .vmem, ⟨2, _⟩ => ⟨S4000x256, .bf16⟩
  | .local _ .vmem, ⟨3, _⟩ => ⟨S4000x256, .bf16⟩
  | .local _ .vmem, ⟨4, _⟩ => ⟨S4000x256, .bf16⟩
  | .local _ .vmem, ⟨5, _⟩ => ⟨S4000x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S4000x256, .f32⟩
  | .local _ .vmem, ⟨13, _⟩ => ⟨S4000x256, .f32⟩
  | .local _ .vmem, ⟨14, _⟩ => ⟨S4000x256, .bf16⟩
  | .local _ .vmem, ⟨15, _⟩ => ⟨S4000x256, .bf16⟩
  | .local _ .vmem, ⟨16, _⟩ => ⟨S4000x256, .bf16⟩
  | .local _ .vmem, ⟨17, _⟩ => ⟨S4000x256, .bf16⟩
  | .local _ .vmem, ⟨18, _⟩ => ⟨S4000x256, .bf16⟩
  | .local _ .vmem, ⟨19, _⟩ => ⟨S4000x256, .bf16⟩
  | .local _ .vmem, ⟨20, _⟩ => ⟨S256x256, .bf16⟩
  | .local _ .vmem, ⟨21, _⟩ => ⟨S256x256, .bf16⟩
  | .local _ .vmem, ⟨22, _⟩ => ⟨S256x256, .bf16⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S4000x256, .f32⟩
  | .local _ .vmem, ⟨27, _⟩ => ⟨S4000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_cst_7 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_8 : Ref sig .tc := ⟨.hbm, 43, rfl⟩
abbrev main_v24 : Ref sig .tc := ⟨.hbm, 44, rfl⟩
abbrev main_v25 : Ref sig .tc := ⟨.hbm, 45, rfl⟩
abbrev main_cst_9 : Ref sig .tc := ⟨.hbm, 46, rfl⟩
abbrev main_call1_v0 : Ref sig .tc := ⟨.hbm, 47, rfl⟩
abbrev main_call1_v1 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_10 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_13 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_cst_16 : Ref sig .tc := ⟨.hbm, 74, rfl⟩
abbrev main_call2_v0 : Ref sig .tc := ⟨.hbm, 75, rfl⟩
abbrev main_call2_v1 : Ref sig .tc := ⟨.hbm, 76, rfl⟩
abbrev main_v45 : Ref sig .tc := ⟨.hbm, 77, rfl⟩
abbrev main_cst_17 : Ref sig .tc := ⟨.hbm, 78, rfl⟩
abbrev main_v46 : Ref sig .tc := ⟨.hbm, 79, rfl⟩
abbrev main_v47 : Ref sig .tc := ⟨.hbm, 80, rfl⟩
abbrev main_cst_18 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_19 : Ref sig .tc := ⟨.hbm, 85, rfl⟩
abbrev main_v51 : Ref sig .tc := ⟨.hbm, 86, rfl⟩
abbrev main_v52 : Ref sig .tc := ⟨.hbm, 87, rfl⟩
abbrev main_cst_20 : Ref sig .tc := ⟨.hbm, 88, rfl⟩
abbrev main_call3_v0 : Ref sig .tc := ⟨.hbm, 89, rfl⟩
abbrev main_call3_v1 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_21 : Ref sig .tc := ⟨.hbm, 96, rfl⟩
abbrev main_v58 : Ref sig .tc := ⟨.hbm, 97, rfl⟩
abbrev main_cst_22 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_23 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_24 : Ref sig .tc := ⟨.hbm, 106, rfl⟩
abbrev main_v65 : Ref sig .tc := ⟨.hbm, 107, rfl⟩
abbrev main_v66 : Ref sig .tc := ⟨.hbm, 108, rfl⟩
abbrev main_cst_25 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_26 : Ref sig .tc := ⟨.hbm, 113, rfl⟩
abbrev main_v70 : Ref sig .tc := ⟨.hbm, 114, rfl⟩
abbrev main_v71 : Ref sig .tc := ⟨.hbm, 115, rfl⟩
abbrev main_cst_27 : Ref sig .tc := ⟨.hbm, 116, rfl⟩
abbrev main_call4_v0 : Ref sig .tc := ⟨.hbm, 117, rfl⟩
abbrev main_call4_v1 : Ref sig .tc := ⟨.hbm, 118, rfl⟩
abbrev main_v72 : Ref sig .tc := ⟨.hbm, 119, rfl⟩
abbrev main_cst_28 : Ref sig .tc := ⟨.hbm, 120, rfl⟩
abbrev main_v73 : Ref sig .tc := ⟨.hbm, 121, rfl⟩
abbrev main_v74 : Ref sig .tc := ⟨.hbm, 122, rfl⟩
abbrev main_cst_29 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_30 : Ref sig .tc := ⟨.hbm, 127, rfl⟩
abbrev main_v78 : Ref sig .tc := ⟨.hbm, 128, rfl⟩
abbrev main_v79 : Ref sig .tc := ⟨.hbm, 129, rfl⟩
abbrev main_cst_31 : Ref sig .tc := ⟨.hbm, 130, rfl⟩
abbrev main_call5_v0 : Ref sig .tc := ⟨.hbm, 131, rfl⟩
abbrev main_call5_v1 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_c : Ref sig .tc := ⟨.hbm, 140, rfl⟩
abbrev main_v87 : Ref sig .tc := ⟨.hbm, 141, rfl⟩
abbrev main_v88 : Ref sig .tc := ⟨.hbm, 142, rfl⟩
abbrev main_c_32 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_c_33 : Ref sig .tc := ⟨.hbm, 149, rfl⟩
abbrev main_v94 : Ref sig .tc := ⟨.hbm, 150, rfl⟩
abbrev main_v95 : Ref sig .tc := ⟨.hbm, 151, rfl⟩
abbrev main_c_34 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_cst_35 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_c_36 : Ref sig .tc := ⟨.hbm, 173, rfl⟩
abbrev main_v115 : Ref sig .tc := ⟨.hbm, 174, rfl⟩
abbrev main_v116 : Ref sig .tc := ⟨.hbm, 175, rfl⟩
abbrev main_c_37 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_c_38 : Ref sig .tc := ⟨.hbm, 182, rfl⟩
abbrev main_v122 : Ref sig .tc := ⟨.hbm, 183, rfl⟩
abbrev main_v123 : Ref sig .tc := ⟨.hbm, 184, rfl⟩
abbrev main_c_39 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_cst_40 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_c_41 : Ref sig .tc := ⟨.hbm, 206, rfl⟩
abbrev main_v143 : Ref sig .tc := ⟨.hbm, 207, rfl⟩
abbrev main_v144 : Ref sig .tc := ⟨.hbm, 208, rfl⟩
abbrev main_c_42 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_c_43 : Ref sig .tc := ⟨.hbm, 215, rfl⟩
abbrev main_v150 : Ref sig .tc := ⟨.hbm, 216, rfl⟩
abbrev main_v151 : Ref sig .tc := ⟨.hbm, 217, rfl⟩
abbrev main_c_44 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_cst_45 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_c_46 : Ref sig .tc := ⟨.hbm, 255, rfl⟩
abbrev main_v187 : Ref sig .tc := ⟨.hbm, 256, rfl⟩
abbrev main_v188 : Ref sig .tc := ⟨.hbm, 257, rfl⟩
abbrev main_c_47 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_c_48 : Ref sig .tc := ⟨.hbm, 264, rfl⟩
abbrev main_v194 : Ref sig .tc := ⟨.hbm, 265, rfl⟩
abbrev main_v195 : Ref sig .tc := ⟨.hbm, 266, rfl⟩
abbrev main_c_49 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_cst_50 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_c_51 : Ref sig .tc := ⟨.hbm, 288, rfl⟩
abbrev main_v215 : Ref sig .tc := ⟨.hbm, 289, rfl⟩
abbrev main_v216 : Ref sig .tc := ⟨.hbm, 290, rfl⟩
abbrev main_c_52 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_c_53 : Ref sig .tc := ⟨.hbm, 297, rfl⟩
abbrev main_v222 : Ref sig .tc := ⟨.hbm, 298, rfl⟩
abbrev main_v223 : Ref sig .tc := ⟨.hbm, 299, rfl⟩
abbrev main_c_54 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_cst_55 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_c_56 : Ref sig .tc := ⟨.hbm, 321, rfl⟩
abbrev main_v243 : Ref sig .tc := ⟨.hbm, 322, rfl⟩
abbrev main_v244 : Ref sig .tc := ⟨.hbm, 323, rfl⟩
abbrev main_c_57 : Ref sig .tc := ⟨.hbm, 324, rfl⟩
abbrev main_v245 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_c_58 : Ref sig .tc := ⟨.hbm, 330, rfl⟩
abbrev main_v250 : Ref sig .tc := ⟨.hbm, 331, rfl⟩
abbrev main_v251 : Ref sig .tc := ⟨.hbm, 332, rfl⟩
abbrev main_c_59 : Ref sig .tc := ⟨.hbm, 333, rfl⟩
abbrev main_v252 : Ref sig .tc := ⟨.hbm, 334, rfl⟩
abbrev main_v253 : Ref sig .tc := ⟨.hbm, 335, rfl⟩
abbrev main_v254 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩
abbrev main_v258 : Ref sig .tc := ⟨.hbm, 340, rfl⟩
abbrev main_v259 : Ref sig .tc := ⟨.hbm, 341, rfl⟩
abbrev main_cst_60 : Ref sig .tc := ⟨.hbm, 342, rfl⟩
abbrev main_v260 : Ref sig .tc := ⟨.hbm, 343, rfl⟩
abbrev main_v261 : Ref sig .tc := ⟨.hbm, 344, rfl⟩
abbrev main_v262 : Ref sig .tc := ⟨.hbm, 345, rfl⟩
abbrev main_v263 : Ref sig .tc := ⟨.hbm, 346, rfl⟩
abbrev main_v264 : Ref sig .tc := ⟨.hbm, 347, rfl⟩
abbrev main_v265 : Ref sig .tc := ⟨.hbm, 348, rfl⟩
abbrev main_v266 : Ref sig .tc := ⟨.hbm, 349, rfl⟩
abbrev main_v267 : Ref sig .tc := ⟨.hbm, 350, rfl⟩
abbrev main_v268 : Ref sig .tc := ⟨.hbm, 351, rfl⟩
abbrev main_v269 : Ref sig .tc := ⟨.hbm, 352, rfl⟩
abbrev main_v270 : Ref sig .tc := ⟨.hbm, 353, rfl⟩
abbrev main_v271 : Ref sig .tc := ⟨.hbm, 354, rfl⟩
abbrev main_v272 : Ref sig .tc := ⟨.hbm, 355, rfl⟩
abbrev main_v273 : Ref sig .tc := ⟨.hbm, 356, rfl⟩
abbrev main_v274 : Ref sig .tc := ⟨.hbm, 357, rfl⟩
abbrev main_v275 : Ref sig .tc := ⟨.hbm, 358, rfl⟩
abbrev main_v276 : Ref sig .tc := ⟨.hbm, 359, rfl⟩
abbrev main_v277 : Ref sig .tc := ⟨.hbm, 360, rfl⟩
abbrev main_v278 : Ref sig .tc := ⟨.hbm, 361, rfl⟩
abbrev main_v279 : Ref sig .tc := ⟨.hbm, 362, rfl⟩
abbrev main_v280 : Ref sig .tc := ⟨.hbm, 363, rfl⟩
abbrev main_v281 : Ref sig .tc := ⟨.hbm, 364, rfl⟩
abbrev main_v282 : Ref sig .tc := ⟨.hbm, 365, rfl⟩
abbrev main_cst_61 : Ref sig .tc := ⟨.hbm, 366, rfl⟩
abbrev main_v283 : Ref sig .tc := ⟨.hbm, 367, rfl⟩
abbrev main_v284 : Ref sig .tc := ⟨.hbm, 368, rfl⟩
abbrev main_v285 : Ref sig .tc := ⟨.hbm, 369, rfl⟩
abbrev main_cst_62 : Ref sig .tc := ⟨.hbm, 370, rfl⟩
abbrev main_v286 : Ref sig .tc := ⟨.hbm, 371, rfl⟩
abbrev main_cst_63 : Ref sig .tc := ⟨.hbm, 372, rfl⟩
abbrev main_v287 : Ref sig .tc := ⟨.hbm, 373, rfl⟩
abbrev main_v288 : Ref sig .tc := ⟨.hbm, 374, rfl⟩
abbrev main_v289 : Ref sig .tc := ⟨.hbm, 375, rfl⟩
abbrev main_cst_64 : Ref sig .tc := ⟨.hbm, 376, rfl⟩
abbrev main_v290 : Ref sig .tc := ⟨.hbm, 377, rfl⟩
abbrev main_v291 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S3x400000_S1x400000_0_0 : S3x400000.Slices ![0, 0] S1x400000
  shapeCasts_S1x400000_S400000 : S1x400000.ShapeCasts S400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  slices_S3x400000_S1x400000_1_0 : S3x400000.Slices ![1, 0] S1x400000
  slices_S3x400000_S1x400000_2_0 : S3x400000.Slices ![2, 0] S1x400000
  bitsLt_bf16_f32 : FTy.bits .bf16 < FTy.bits .f32
  bcast_S400000x1_S400000x256_0_1 : S400000x1.BroadcastsInDim S400000x256 (![0, 1] : Fin 2 → Fin S400000x256.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  slices_S3x256x256_S1x256x256_0_0_0 : S3x256x256.Slices ![0, 0, 0] S1x256x256
  shapeCasts_S1x256x256_S256x256 : S1x256x256.ShapeCasts S256x256
  slices_S3x256x256_S1x256x256_1_0_0 : S3x256x256.Slices ![1, 0, 0] S1x256x256
  slices_S3x256x256_S1x256x256_2_0_0 : S3x256x256.Slices ![2, 0, 0] S1x256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  slices_S3x256_S1x256_1_0 : S3x256.Slices ![1, 0] S1x256
  slices_S3x256_S1x256_2_0 : S3x256.Slices ![2, 0] S1x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  bcast_S_S128x256 : S_.BroadcastsInDim S128x256 (![] : Fin 0 → Fin S128x256.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  scatter_S100000_S400000x1_S400000_n_0_0_1_wf : ScatterDims.WF S100000 S400000x1 S400000 [] [0] [0] 1
  gather_S100000x256_S400000x1_S400000x256_1_0_n_n_0_1_1256_wf : GatherDims.WF S100000x256 S400000x1 S400000x256 [1] [0] [] [0] [] 1 ![1, 256]
  gather_S100000_S400000x1_S400000_n_0_n_n_0_1_1_wf : GatherDims.WF S100000 S400000x1 S400000 [] [0] [] [0] [] 1 ![1]
  scatter_S100000x256_S400000x1_S400000x256_1_0_0_1_wf : ScatterDims.WF S100000x256 S400000x1 S400000x256 [1] [0] [0] 1
  dot_S4000x256_S256x256_S4000x256_1_0_0_1_n_n_wf : DotDims.WF S4000x256 S256x256 S4000x256 [1] [0] [0] [1] [] []
  scatter_S128x256_S100000x1_S100000x256_1_0_0_1_wf : ScatterDims.WF S128x256 S100000x1 S100000x256 [1] [0] [0] 1
  scatter_S128_S100000x1_S100000_n_0_0_1_wf : ScatterDims.WF S128 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .bf16 = 32 ∨ (Rect.block (s := S100000x256) S4000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S100000x256.size a
  hwx0_1 : ∀ i : grid0.Coords, EltTy.bits .bf16 = 32 ∨ (Rect.block (s := S100000x256) S4000x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S100000x256.size a
  hwx0_2 : ∀ i : grid0.Coords, EltTy.bits .bf16 = 32 ∨ (Rect.block (s := S100000x256) S4000x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x256.size a ≤ S100000x256.size a
  hwx0_9 : ∀ i : grid0.Coords, EltTy.bits .f32 = 32 ∨ (Rect.block (s := S100000x256) S4000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .bf16 = 32 ∨ (Rect.block (s := S100000x256) S4000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S100000x256.size a
  hwx1_1 : ∀ i : grid1.Coords, EltTy.bits .bf16 = 32 ∨ (Rect.block (s := S100000x256) S4000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S100000x256.size a
  hwx1_2 : ∀ i : grid1.Coords, EltTy.bits .bf16 = 32 ∨ (Rect.block (s := S100000x256) S4000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x256.size a ≤ S100000x256.size a
  hwx1_9 : ∀ i : grid1.Coords, EltTy.bits .f32 = 32 ∨ (Rect.block (s := S100000x256) S4000x256.size (cc1_transform_9 i) (hinb1_9 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S128x256_S100000x1_S100000x256_1_0_0_1 : ScatterDims S128x256 S100000x1 S100000x256 where
  updateWindowDims := [1]
  insertedWindowDims := [0]
  scatterDimsToOperandDims := [0]
  indexVectorDim := 1
  wf := scatter_S128x256_S100000x1_S100000x256_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

abbrev win0_0 : Pipeline.Window sig grid0 :=
  Pipeline.Window.ofSpec (Memref.whole main_v110) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v138) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v166) S4000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v168) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v170) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v172) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v175) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v178) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v181) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v182) S4000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v210) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v238) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v266) S4000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v268) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v270) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v272) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v275) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v278) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v281) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v282) S4000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x256 : Shape := ⟨2, ![100000, 256]⟩
abbrev S3x400000 : Shape := ⟨2, ![3, 400000]⟩
abbrev S100000 : Shape := ⟨1, ![100000]⟩
abbrev S3x256x256 : Shape := ⟨3, ![3, 256, 256]⟩
abbrev S3x256 : Shape := ⟨2, ![3, 256]⟩
abbrev S_ : Shape := ⟨0, ![]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x400000 : Shape := ⟨2, ![1, 400000]⟩
abbrev S400000 : Shape := ⟨1, ![400000]⟩
abbrev S400000x1 : Shape := ⟨2, ![400000, 1]⟩
abbrev S100000x1 : Shape := ⟨2, ![100000, 1]⟩
abbrev S400000x256 : Shape := ⟨2, ![400000, 256]⟩
abbrev S128x256 : Shape := ⟨2, ![128, 256]⟩
abbrev S128 : Shape := ⟨1, ![128]⟩
abbrev S128x1 : Shape := ⟨2, ![128, 1]⟩

abbrev nBuf : Space → Nat
  | .hbm => 451
  | .vmem => 0
  | .smem => 0
  | _ => 0

abbrev hbmTy0_0 (i : Nat) : BufTy := match i % 128 with
  | 0 => ⟨S100000x256, .f32⟩
  | 1 => ⟨S3x400000, .i32⟩
  | 2 => ⟨S3x400000, .i32⟩
  | 3 => ⟨S100000, .i32⟩
  | 4 => ⟨S3x256x256, .f32⟩
  | 5 => ⟨S3x256, .f32⟩
  | 6 => ⟨S3x256x256, .f32⟩
  | 7 => ⟨S3x256, .f32⟩
  | 8 => ⟨S_, .f32⟩
  | 9 => ⟨S100000x256, .f32⟩
  | 10 => ⟨S1x256x256, .f32⟩
  | 11 => ⟨S256x256, .f32⟩
  | 12 => ⟨S1x256, .f32⟩
  | 13 => ⟨S256, .f32⟩
  | 14 => ⟨S1x400000, .i32⟩
  | 15 => ⟨S400000, .i32⟩
  | 16 => ⟨S1x400000, .i32⟩
  | 17 => ⟨S400000, .i32⟩
  | 18 => ⟨S_, .f32⟩
  | 19 => ⟨S400000, .f32⟩
  | 20 => ⟨S_, .f32⟩
  | 21 => ⟨S100000, .f32⟩
  | 22 => ⟨S400000x1, .i32⟩
  | 23 => ⟨S100000, .f32⟩
  | 24 => ⟨S_, .f32⟩
  | 25 => ⟨S100000, .f32⟩
  | 26 => ⟨S400000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S100000, .f32⟩
  | 35 => ⟨S_, .f32⟩
  | 36 => ⟨S100000, .f32⟩
  | 37 => ⟨S100000, .f32⟩
  | 38 => ⟨S_, .f32⟩
  | 39 => ⟨S_, .f32⟩
  | 40 => ⟨S100000, .f32⟩
  | 41 => ⟨S100000, .f32⟩
  | 42 => ⟨S_, .f32⟩
  | 43 => ⟨S100000, .f32⟩
  | 44 => ⟨S100000, .i1⟩
  | 45 => ⟨S_, .f32⟩
  | 46 => ⟨S100000, .f32⟩
  | 47 => ⟨S100000, .f32⟩
  | 48 => ⟨S100000, .f32⟩
  | 49 => ⟨S_, .f32⟩
  | 50 => ⟨S100000, .f32⟩
  | 51 => ⟨S100000, .f32⟩
  | 52 => ⟨S_, .f32⟩
  | 53 => ⟨S_, .f32⟩
  | 54 => ⟨S100000, .f32⟩
  | 55 => ⟨S100000, .f32⟩
  | 56 => ⟨S100000x1, .f32⟩
  | 57 => ⟨S100000x256, .f32⟩
  | 58 => ⟨S100000x256, .f32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S400000x256, .f32⟩
  | 68 => ⟨S_, .f32⟩
  | 69 => ⟨S100000x256, .f32⟩
  | 70 => ⟨S400000x1, .i32⟩
  | 71 => ⟨S100000x256, .f32⟩
  | 72 => ⟨S100000x256, .f32⟩
  | 73 => ⟨S100000x1, .f32⟩
  | 74 => ⟨S100000x256, .f32⟩
  | 75 => ⟨S100000x256, .f32⟩
  | 76 => ⟨S1x256, .f32⟩
  | 77 => ⟨S100000x256, .f32⟩
  | 78 => ⟨S100000x256, .f32⟩
  | 79 => ⟨S100000x256, .f32⟩
  | 80 => ⟨S1x256x256, .f32⟩
  | 81 => ⟨S256x256, .f32⟩
  | 82 => ⟨S1x256, .f32⟩
  | 83 => ⟨S256, .f32⟩
  | 84 => ⟨S1x400000, .i32⟩
  | 85 => ⟨S400000, .i32⟩
  | 86 => ⟨S1x400000, .i32⟩
  | 87 => ⟨S400000, .i32⟩
  | 88 => ⟨S_, .f32⟩
  | 89 => ⟨S400000, .f32⟩
  | 90 => ⟨S_, .f32⟩
  | 91 => ⟨S100000, .f32⟩
  | 92 => ⟨S400000x1, .i32⟩
  | 93 => ⟨S100000, .f32⟩
  | 94 => ⟨S_, .f32⟩
  | 95 => ⟨S100000, .f32⟩
  | 96 => ⟨S400000x1, .i32⟩
  | 97 => ⟨S100000, .f32⟩
  | 98 => ⟨S_, .f32⟩
  | 99 => ⟨S100000, .f32⟩
  | 100 => ⟨S100000, .i1⟩
  | 101 => ⟨S_, .f32⟩
  | 102 => ⟨S100000, .f32⟩
  | 103 => ⟨S100000, .f32⟩
  | 104 => ⟨S100000, .f32⟩
  | 105 => ⟨S_, .f32⟩
  | 106 => ⟨S100000, .f32⟩
  | 107 => ⟨S100000, .f32⟩
  | 108 => ⟨S_, .f32⟩
  | 109 => ⟨S_, .f32⟩
  | 110 => ⟨S100000, .f32⟩
  | 111 => ⟨S100000, .f32⟩
  | 112 => ⟨S_, .f32⟩
  | 113 => ⟨S100000, .f32⟩
  | 114 => ⟨S100000, .i1⟩
  | 115 => ⟨S_, .f32⟩
  | 116 => ⟨S100000, .f32⟩
  | 117 => ⟨S100000, .f32⟩
  | 118 => ⟨S100000, .f32⟩
  | 119 => ⟨S_, .f32⟩
  | 120 => ⟨S100000, .f32⟩
  | 121 => ⟨S100000, .f32⟩
  | 122 => ⟨S_, .f32⟩
  | 123 => ⟨S_, .f32⟩
  | 124 => ⟨S100000, .f32⟩
  | 125 => ⟨S100000, .f32⟩
  | 126 => ⟨S100000x1, .f32⟩
  | 127 => ⟨S100000x256, .f32⟩
  | _ => ⟨S100000x256, .f32⟩

abbrev hbmTy0_1 (i : Nat) : BufTy := match i % 128 with
  | 0 => ⟨S100000x256, .f32⟩
  | 1 => ⟨S_, .i32⟩
  | 2 => ⟨S400000, .i32⟩
  | 3 => ⟨S400000, .i1⟩
  | 4 => ⟨S_, .i32⟩
  | 5 => ⟨S400000, .i32⟩
  | 6 => ⟨S400000, .i32⟩
  | 7 => ⟨S400000, .i32⟩
  | 8 => ⟨S400000x1, .i32⟩
  | 9 => ⟨S400000x256, .f32⟩
  | 10 => ⟨S_, .f32⟩
  | 11 => ⟨S100000x256, .f32⟩
  | 12 => ⟨S400000x1, .i32⟩
  | 13 => ⟨S100000x256, .f32⟩
  | 14 => ⟨S100000x256, .f32⟩
  | 15 => ⟨S100000x1, .f32⟩
  | 16 => ⟨S100000x256, .f32⟩
  | 17 => ⟨S100000x256, .f32⟩
  | 18 => ⟨S1x256, .f32⟩
  | 19 => ⟨S100000x256, .f32⟩
  | 20 => ⟨S100000x256, .f32⟩
  | 21 => ⟨S100000x256, .f32⟩
  | 22 => ⟨S1x256x256, .f32⟩
  | 23 => ⟨S256x256, .f32⟩
  | 24 => ⟨S1x256, .f32⟩
  | 25 => ⟨S256, .f32⟩
  | 26 => ⟨S1x400000, .i32⟩
  | 27 => ⟨S400000, .i32⟩
  | 28 => ⟨S1x400000, .i32⟩
  | 29 => ⟨S400000, .i32⟩
  | 30 => ⟨S_, .f32⟩
  | 31 => ⟨S400000, .f32⟩
  | 32 => ⟨S_, .f32⟩
  | 33 => ⟨S100000, .f32⟩
  | 34 => ⟨S400000x1, .i32⟩
  | 35 => ⟨S100000, .f32⟩
  | 36 => ⟨S_, .f32⟩
  | 37 => ⟨S100000, .f32⟩
  | 38 => ⟨S400000x1, .i32⟩
  | 39 => ⟨S100000, .f32⟩
  | 40 => ⟨S_, .f32⟩
  | 41 => ⟨S100000, .f32⟩
  | 42 => ⟨S100000, .i1⟩
  | 43 => ⟨S_, .f32⟩
  | 44 => ⟨S100000, .f32⟩
  | 45 => ⟨S100000, .f32⟩
  | 46 => ⟨S100000, .f32⟩
  | 47 => ⟨S_, .f32⟩
  | 48 => ⟨S100000, .f32⟩
  | 49 => ⟨S100000, .f32⟩
  | 50 => ⟨S_, .f32⟩
  | 51 => ⟨S_, .f32⟩
  | 52 => ⟨S100000, .f32⟩
  | 53 => ⟨S100000, .f32⟩
  | 54 => ⟨S_, .f32⟩
  | 55 => ⟨S100000, .f32⟩
  | 56 => ⟨S100000, .i1⟩
  | 57 => ⟨S_, .f32⟩
  | 58 => ⟨S100000, .f32⟩
  | 59 => ⟨S100000, .f32⟩
  | 60 => ⟨S100000, .f32⟩
  | 61 => ⟨S_, .f32⟩
  | 62 => ⟨S100000, .f32⟩
  | 63 => ⟨S100000, .f32⟩
  | 64 => ⟨S_, .f32⟩
  | 65 => ⟨S_, .f32⟩
  | 66 => ⟨S100000, .f32⟩
  | 67 => ⟨S100000, .f32⟩
  | 68 => ⟨S100000x1, .f32⟩
  | 69 => ⟨S100000x256, .f32⟩
  | 70 => ⟨S100000x256, .f32⟩
  | 71 => ⟨S_, .i32⟩
  | 72 => ⟨S400000, .i32⟩
  | 73 => ⟨S400000, .i1⟩
  | 74 => ⟨S_, .i32⟩
  | 75 => ⟨S400000, .i32⟩
  | 76 => ⟨S400000, .i32⟩
  | 77 => ⟨S400000, .i32⟩
  | 78 => ⟨S400000x1, .i32⟩
  | 79 => ⟨S400000x256, .f32⟩
  | 80 => ⟨S_, .f32⟩
  | 81 => ⟨S100000x256, .f32⟩
  | 82 => ⟨S400000x1, .i32⟩
  | 83 => ⟨S100000x256, .f32⟩
  | 84 => ⟨S100000x256, .f32⟩
  | 85 => ⟨S100000x1, .f32⟩
  | 86 => ⟨S100000x256, .f32⟩
  | 87 => ⟨S100000x256, .f32⟩
  | 88 => ⟨S1x256, .f32⟩
  | 89 => ⟨S100000x256, .f32⟩
  | 90 => ⟨S100000x256, .f32⟩
  | 91 => ⟨S100000x256, .f32⟩
  | 92 => ⟨S_, .f32⟩
  | 93 => ⟨S100000x256, .f32⟩
  | 94 => ⟨S100000x256, .f32⟩
  | 95 => ⟨S_, .f32⟩
  | 96 => ⟨S100000x256, .f32⟩
  | 97 => ⟨S1x256x256, .f32⟩
  | 98 => ⟨S256x256, .f32⟩
  | 99 => ⟨S1x256, .f32⟩
  | 100 => ⟨S256, .f32⟩
  | 101 => ⟨S1x400000, .i32⟩
  | 102 => ⟨S400000, .i32⟩
  | 103 => ⟨S1x400000, .i32⟩
  | 104 => ⟨S400000, .i32⟩
  | 105 => ⟨S_, .f32⟩
  | 106 => ⟨S400000, .f32⟩
  | 107 => ⟨S_, .f32⟩
  | 108 => ⟨S100000, .f32⟩
  | 109 => ⟨S400000x1, .i32⟩
  | 110 => ⟨S100000, .f32⟩
  | 111 => ⟨S_, .f32⟩
  | 112 => ⟨S100000, .f32⟩
  | 113 => ⟨S400000x1, .i32⟩
  | 114 => ⟨S100000, .f32⟩
  | 115 => ⟨S_, .f32⟩
  | 116 => ⟨S100000, .f32⟩
  | 117 => ⟨S100000, .i1⟩
  | 118 => ⟨S_, .f32⟩
  | 119 => ⟨S100000, .f32⟩
  | 120 => ⟨S100000, .f32⟩
  | 121 => ⟨S100000, .f32⟩
  | 122 => ⟨S_, .f32⟩
  | 123 => ⟨S100000, .f32⟩
  | 124 => ⟨S100000, .f32⟩
  | 125 => ⟨S_, .f32⟩
  | 126 => ⟨S_, .f32⟩
  | 127 => ⟨S100000, .f32⟩
  | _ => ⟨S100000x256, .f32⟩

abbrev hbmTy0_2 (i : Nat) : BufTy := match i % 128 with
  | 0 => ⟨S100000, .f32⟩
  | 1 => ⟨S_, .f32⟩
  | 2 => ⟨S100000, .f32⟩
  | 3 => ⟨S100000, .i1⟩
  | 4 => ⟨S_, .f32⟩
  | 5 => ⟨S100000, .f32⟩
  | 6 => ⟨S100000, .f32⟩
  | 7 => ⟨S100000, .f32⟩
  | 8 => ⟨S_, .f32⟩
  | 9 => ⟨S100000, .f32⟩
  | 10 => ⟨S100000, .f32⟩
  | 11 => ⟨S_, .f32⟩
  | 12 => ⟨S_, .f32⟩
  | 13 => ⟨S100000, .f32⟩
  | 14 => ⟨S100000, .f32⟩
  | 15 => ⟨S100000x1, .f32⟩
  | 16 => ⟨S100000x256, .f32⟩
  | 17 => ⟨S100000x256, .f32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S400000x256, .f32⟩
  | 27 => ⟨S_, .f32⟩
  | 28 => ⟨S100000x256, .f32⟩
  | 29 => ⟨S400000x1, .i32⟩
  | 30 => ⟨S100000x256, .f32⟩
  | 31 => ⟨S100000x256, .f32⟩
  | 32 => ⟨S100000x1, .f32⟩
  | 33 => ⟨S100000x256, .f32⟩
  | 34 => ⟨S100000x256, .f32⟩
  | 35 => ⟨S1x256, .f32⟩
  | 36 => ⟨S100000x256, .f32⟩
  | 37 => ⟨S100000x256, .f32⟩
  | 38 => ⟨S100000x256, .f32⟩
  | 39 => ⟨S1x256x256, .f32⟩
  | 40 => ⟨S256x256, .f32⟩
  | 41 => ⟨S1x256, .f32⟩
  | 42 => ⟨S256, .f32⟩
  | 43 => ⟨S1x400000, .i32⟩
  | 44 => ⟨S400000, .i32⟩
  | 45 => ⟨S1x400000, .i32⟩
  | 46 => ⟨S400000, .i32⟩
  | 47 => ⟨S_, .f32⟩
  | 48 => ⟨S400000, .f32⟩
  | 49 => ⟨S_, .f32⟩
  | 50 => ⟨S100000, .f32⟩
  | 51 => ⟨S400000x1, .i32⟩
  | 52 => ⟨S100000, .f32⟩
  | 53 => ⟨S_, .f32⟩
  | 54 => ⟨S100000, .f32⟩
  | 55 => ⟨S400000x1, .i32⟩
  | 56 => ⟨S100000, .f32⟩
  | 57 => ⟨S_, .f32⟩
  | 58 => ⟨S100000, .f32⟩
  | 59 => ⟨S100000, .i1⟩
  | 60 => ⟨S_, .f32⟩
  | 61 => ⟨S100000, .f32⟩
  | 62 => ⟨S100000, .f32⟩
  | 63 => ⟨S100000, .f32⟩
  | 64 => ⟨S_, .f32⟩
  | 65 => ⟨S100000, .f32⟩
  | 66 => ⟨S100000, .f32⟩
  | 67 => ⟨S_, .f32⟩
  | 68 => ⟨S_, .f32⟩
  | 69 => ⟨S100000, .f32⟩
  | 70 => ⟨S100000, .f32⟩
  | 71 => ⟨S_, .f32⟩
  | 72 => ⟨S100000, .f32⟩
  | 73 => ⟨S100000, .i1⟩
  | 74 => ⟨S_, .f32⟩
  | 75 => ⟨S100000, .f32⟩
  | 76 => ⟨S100000, .f32⟩
  | 77 => ⟨S100000, .f32⟩
  | 78 => ⟨S_, .f32⟩
  | 79 => ⟨S100000, .f32⟩
  | 80 => ⟨S100000, .f32⟩
  | 81 => ⟨S_, .f32⟩
  | 82 => ⟨S_, .f32⟩
  | 83 => ⟨S100000, .f32⟩
  | 84 => ⟨S100000, .f32⟩
  | 85 => ⟨S100000x1, .f32⟩
  | 86 => ⟨S100000x256, .f32⟩
  | 87 => ⟨S100000x256, .f32⟩
  | 88 => ⟨S_, .i32⟩
  | 89 => ⟨S400000, .i32⟩
  | 90 => ⟨S400000, .i1⟩
  | 91 => ⟨S_, .i32⟩
  | 92 => ⟨S400000, .i32⟩
  | 93 => ⟨S400000, .i32⟩
  | 94 => ⟨S400000, .i32⟩
  | 95 => ⟨S400000x1, .i32⟩
  | 96 => ⟨S400000x256, .f32⟩
  | 97 => ⟨S_, .f32⟩
  | 98 => ⟨S100000x256, .f32⟩
  | 99 => ⟨S400000x1, .i32⟩
  | 100 => ⟨S100000x256, .f32⟩
  | 101 => ⟨S100000x256, .f32⟩
  | 102 => ⟨S100000x1, .f32⟩
  | 103 => ⟨S100000x256, .f32⟩
  | 104 => ⟨S100000x256, .f32⟩
  | 105 => ⟨S1x256, .f32⟩
  | 106 => ⟨S100000x256, .f32⟩
  | 107 => ⟨S100000x256, .f32⟩
  | 108 => ⟨S100000x256, .f32⟩
  | 109 => ⟨S1x256x256, .f32⟩
  | 110 => ⟨S256x256, .f32⟩
  | 111 => ⟨S1x256, .f32⟩
  | 112 => ⟨S256, .f32⟩
  | 113 => ⟨S1x400000, .i32⟩
  | 114 => ⟨S400000, .i32⟩
  | 115 => ⟨S1x400000, .i32⟩
  | 116 => ⟨S400000, .i32⟩
  | 117 => ⟨S_, .f32⟩
  | 118 => ⟨S400000, .f32⟩
  | 119 => ⟨S_, .f32⟩
  | 120 => ⟨S100000, .f32⟩
  | 121 => ⟨S400000x1, .i32⟩
  | 122 => ⟨S100000, .f32⟩
  | 123 => ⟨S_, .f32⟩
  | 124 => ⟨S100000, .f32⟩
  | 125 => ⟨S400000x1, .i32⟩
  | 126 => ⟨S100000, .f32⟩
  | 127 => ⟨S_, .f32⟩
  | _ => ⟨S100000x256, .f32⟩

abbrev hbmTy0_3 (i : Nat) : BufTy := match i % 128 with
  | 0 => ⟨S100000, .f32⟩
  | 1 => ⟨S100000, .i1⟩
  | 2 => ⟨S_, .f32⟩
  | 3 => ⟨S100000, .f32⟩
  | 4 => ⟨S100000, .f32⟩
  | 5 => ⟨S100000, .f32⟩
  | 6 => ⟨S_, .f32⟩
  | 7 => ⟨S100000, .f32⟩
  | 8 => ⟨S100000, .f32⟩
  | 9 => ⟨S_, .f32⟩
  | 10 => ⟨S_, .f32⟩
  | 11 => ⟨S100000, .f32⟩
  | 12 => ⟨S100000, .f32⟩
  | 13 => ⟨S_, .f32⟩
  | 14 => ⟨S100000, .f32⟩
  | 15 => ⟨S100000, .i1⟩
  | 16 => ⟨S_, .f32⟩
  | 17 => ⟨S100000, .f32⟩
  | 18 => ⟨S100000, .f32⟩
  | 19 => ⟨S100000, .f32⟩
  | 20 => ⟨S_, .f32⟩
  | 21 => ⟨S100000, .f32⟩
  | 22 => ⟨S100000, .f32⟩
  | 23 => ⟨S_, .f32⟩
  | 24 => ⟨S_, .f32⟩
  | 25 => ⟨S100000, .f32⟩
  | 26 => ⟨S100000, .f32⟩
  | 27 => ⟨S100000x1, .f32⟩
  | 28 => ⟨S100000x256, .f32⟩
  | 29 => ⟨S100000x256, .f32⟩
  | 30 => ⟨S_, .i32⟩
  | 31 => ⟨S400000, .i32⟩
  | 32 => ⟨S400000, .i1⟩
  | 33 => ⟨S_, .i32⟩
  | 34 => ⟨S400000, .i32⟩
  | 35 => ⟨S400000, .i32⟩
  | 36 => ⟨S400000, .i32⟩
  | 37 => ⟨S400000x1, .i32⟩
  | 38 => ⟨S400000x256, .f32⟩
  | 39 => ⟨S_, .f32⟩
  | 40 => ⟨S100000x256, .f32⟩
  | 41 => ⟨S400000x1, .i32⟩
  | 42 => ⟨S100000x256, .f32⟩
  | 43 => ⟨S100000x256, .f32⟩
  | 44 => ⟨S100000x1, .f32⟩
  | 45 => ⟨S100000x256, .f32⟩
  | 46 => ⟨S100000x256, .f32⟩
  | 47 => ⟨S1x256, .f32⟩
  | 48 => ⟨S100000x256, .f32⟩
  | 49 => ⟨S100000x256, .f32⟩
  | 50 => ⟨S100000x256, .f32⟩
  | 51 => ⟨S_, .f32⟩
  | 52 => ⟨S128x256, .f32⟩
  | 53 => ⟨S100000x1, .i32⟩
  | 54 => ⟨S128x256, .f32⟩
  | 55 => ⟨S_, .f32⟩
  | 56 => ⟨S100000, .f32⟩
  | 57 => ⟨S_, .f32⟩
  | 58 => ⟨S128, .f32⟩
  | 59 => ⟨S100000x1, .i32⟩
  | 60 => ⟨S128, .f32⟩
  | 61 => ⟨S_, .f32⟩
  | 62 => ⟨S128, .f32⟩
  | 63 => ⟨S128, .f32⟩
  | 64 => ⟨S128x1, .f32⟩
  | 65 => ⟨S128x256, .f32⟩
  | 66 => ⟨S128x256, .f32⟩
  | _ => ⟨S100000x256, .f32⟩

abbrev hbmTy (i : Nat) : BufTy := match i / 128 with
  | 0 => hbmTy0_0 i
  | 1 => hbmTy0_1 i
  | 2 => hbmTy0_2 i
  | 3 => hbmTy0_3 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_call0_v0 : Ref sig .tc := ⟨.hbm, 39, rfl⟩
abbrev main_call0_v1 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_cst_10 : Ref sig .tc := ⟨.hbm, 52, rfl⟩
abbrev main_call1_v0 : Ref sig .tc := ⟨.hbm, 53, rfl⟩
abbrev main_call1_v1 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c : Ref sig .tc := ⟨.hbm, 59, rfl⟩
abbrev main_v35 : Ref sig .tc := ⟨.hbm, 60, rfl⟩
abbrev main_v36 : Ref sig .tc := ⟨.hbm, 61, rfl⟩
abbrev main_c_11 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_12 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_cst_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_15 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_16 : Ref sig .tc := ⟨.hbm, 98, rfl⟩
abbrev main_v68 : Ref sig .tc := ⟨.hbm, 99, rfl⟩
abbrev main_v69 : Ref sig .tc := ⟨.hbm, 100, rfl⟩
abbrev main_cst_17 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_18 : Ref sig .tc := ⟨.hbm, 105, rfl⟩
abbrev main_v73 : Ref sig .tc := ⟨.hbm, 106, rfl⟩
abbrev main_v74 : Ref sig .tc := ⟨.hbm, 107, rfl⟩
abbrev main_cst_19 : Ref sig .tc := ⟨.hbm, 108, rfl⟩
abbrev main_call2_v0 : Ref sig .tc := ⟨.hbm, 109, rfl⟩
abbrev main_call2_v1 : Ref sig .tc := ⟨.hbm, 110, rfl⟩
abbrev main_v75 : Ref sig .tc := ⟨.hbm, 111, rfl⟩
abbrev main_cst_20 : Ref sig .tc := ⟨.hbm, 112, rfl⟩
abbrev main_v76 : Ref sig .tc := ⟨.hbm, 113, rfl⟩
abbrev main_v77 : Ref sig .tc := ⟨.hbm, 114, rfl⟩
abbrev main_cst_21 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_22 : Ref sig .tc := ⟨.hbm, 119, rfl⟩
abbrev main_v81 : Ref sig .tc := ⟨.hbm, 120, rfl⟩
abbrev main_v82 : Ref sig .tc := ⟨.hbm, 121, rfl⟩
abbrev main_cst_23 : Ref sig .tc := ⟨.hbm, 122, rfl⟩
abbrev main_call3_v0 : Ref sig .tc := ⟨.hbm, 123, rfl⟩
abbrev main_call3_v1 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_c_24 : Ref sig .tc := ⟨.hbm, 129, rfl⟩
abbrev main_v87 : Ref sig .tc := ⟨.hbm, 130, rfl⟩
abbrev main_v88 : Ref sig .tc := ⟨.hbm, 131, rfl⟩
abbrev main_c_25 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_26 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_27 : Ref sig .tc := ⟨.hbm, 158, rfl⟩
abbrev main_v113 : Ref sig .tc := ⟨.hbm, 159, rfl⟩
abbrev main_cst_28 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_29 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_30 : Ref sig .tc := ⟨.hbm, 168, rfl⟩
abbrev main_v120 : Ref sig .tc := ⟨.hbm, 169, rfl⟩
abbrev main_v121 : Ref sig .tc := ⟨.hbm, 170, rfl⟩
abbrev main_cst_31 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_32 : Ref sig .tc := ⟨.hbm, 175, rfl⟩
abbrev main_v125 : Ref sig .tc := ⟨.hbm, 176, rfl⟩
abbrev main_v126 : Ref sig .tc := ⟨.hbm, 177, rfl⟩
abbrev main_cst_33 : Ref sig .tc := ⟨.hbm, 178, rfl⟩
abbrev main_call4_v0 : Ref sig .tc := ⟨.hbm, 179, rfl⟩
abbrev main_call4_v1 : Ref sig .tc := ⟨.hbm, 180, rfl⟩
abbrev main_v127 : Ref sig .tc := ⟨.hbm, 181, rfl⟩
abbrev main_cst_34 : Ref sig .tc := ⟨.hbm, 182, rfl⟩
abbrev main_v128 : Ref sig .tc := ⟨.hbm, 183, rfl⟩
abbrev main_v129 : Ref sig .tc := ⟨.hbm, 184, rfl⟩
abbrev main_cst_35 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_36 : Ref sig .tc := ⟨.hbm, 189, rfl⟩
abbrev main_v133 : Ref sig .tc := ⟨.hbm, 190, rfl⟩
abbrev main_v134 : Ref sig .tc := ⟨.hbm, 191, rfl⟩
abbrev main_cst_37 : Ref sig .tc := ⟨.hbm, 192, rfl⟩
abbrev main_call5_v0 : Ref sig .tc := ⟨.hbm, 193, rfl⟩
abbrev main_call5_v1 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_c_38 : Ref sig .tc := ⟨.hbm, 199, rfl⟩
abbrev main_v139 : Ref sig .tc := ⟨.hbm, 200, rfl⟩
abbrev main_v140 : Ref sig .tc := ⟨.hbm, 201, rfl⟩
abbrev main_c_39 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_cst_40 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_call6_cst : Ref sig .tc := ⟨.hbm, 220, rfl⟩
abbrev main_call6_v0 : Ref sig .tc := ⟨.hbm, 221, rfl⟩
abbrev main_v157 : Ref sig .tc := ⟨.hbm, 222, rfl⟩
abbrev main_cst_41 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_cst_42 : Ref sig .tc := ⟨.hbm, 233, rfl⟩
abbrev main_v167 : Ref sig .tc := ⟨.hbm, 234, rfl⟩
abbrev main_cst_43 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_cst_44 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_cst_45 : Ref sig .tc := ⟨.hbm, 243, rfl⟩
abbrev main_v174 : Ref sig .tc := ⟨.hbm, 244, rfl⟩
abbrev main_v175 : Ref sig .tc := ⟨.hbm, 245, rfl⟩
abbrev main_cst_46 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_cst_47 : Ref sig .tc := ⟨.hbm, 250, rfl⟩
abbrev main_v179 : Ref sig .tc := ⟨.hbm, 251, rfl⟩
abbrev main_v180 : Ref sig .tc := ⟨.hbm, 252, rfl⟩
abbrev main_cst_48 : Ref sig .tc := ⟨.hbm, 253, rfl⟩
abbrev main_call7_v0 : Ref sig .tc := ⟨.hbm, 254, rfl⟩
abbrev main_call7_v1 : Ref sig .tc := ⟨.hbm, 255, rfl⟩
abbrev main_v181 : Ref sig .tc := ⟨.hbm, 256, rfl⟩
abbrev main_cst_49 : Ref sig .tc := ⟨.hbm, 257, rfl⟩
abbrev main_v182 : Ref sig .tc := ⟨.hbm, 258, rfl⟩
abbrev main_v183 : Ref sig .tc := ⟨.hbm, 259, rfl⟩
abbrev main_cst_50 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_cst_51 : Ref sig .tc := ⟨.hbm, 264, rfl⟩
abbrev main_v187 : Ref sig .tc := ⟨.hbm, 265, rfl⟩
abbrev main_v188 : Ref sig .tc := ⟨.hbm, 266, rfl⟩
abbrev main_cst_52 : Ref sig .tc := ⟨.hbm, 267, rfl⟩
abbrev main_call8_v0 : Ref sig .tc := ⟨.hbm, 268, rfl⟩
abbrev main_call8_v1 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_c_53 : Ref sig .tc := ⟨.hbm, 274, rfl⟩
abbrev main_v193 : Ref sig .tc := ⟨.hbm, 275, rfl⟩
abbrev main_v194 : Ref sig .tc := ⟨.hbm, 276, rfl⟩
abbrev main_c_54 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_cst_55 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_v203 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_cst_56 : Ref sig .tc := ⟨.hbm, 303, rfl⟩
abbrev main_v219 : Ref sig .tc := ⟨.hbm, 304, rfl⟩
abbrev main_cst_57 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_cst_58 : Ref sig .tc := ⟨.hbm, 309, rfl⟩
abbrev main_v223 : Ref sig .tc := ⟨.hbm, 310, rfl⟩
abbrev main_v224 : Ref sig .tc := ⟨.hbm, 311, rfl⟩
abbrev main_v225 : Ref sig .tc := ⟨.hbm, 312, rfl⟩
abbrev main_cst_59 : Ref sig .tc := ⟨.hbm, 313, rfl⟩
abbrev main_v226 : Ref sig .tc := ⟨.hbm, 314, rfl⟩
abbrev main_v227 : Ref sig .tc := ⟨.hbm, 315, rfl⟩
abbrev main_cst_60 : Ref sig .tc := ⟨.hbm, 316, rfl⟩
abbrev main_v228 : Ref sig .tc := ⟨.hbm, 317, rfl⟩
abbrev main_v229 : Ref sig .tc := ⟨.hbm, 318, rfl⟩
abbrev main_v230 : Ref sig .tc := ⟨.hbm, 319, rfl⟩
abbrev main_cst_61 : Ref sig .tc := ⟨.hbm, 320, rfl⟩
abbrev main_v231 : Ref sig .tc := ⟨.hbm, 321, rfl⟩
abbrev main_v232 : Ref sig .tc := ⟨.hbm, 322, rfl⟩
abbrev main_cst_62 : Ref sig .tc := ⟨.hbm, 323, rfl⟩
abbrev main_call9_v0 : Ref sig .tc := ⟨.hbm, 324, rfl⟩
abbrev main_call9_v1 : Ref sig .tc := ⟨.hbm, 325, rfl⟩
abbrev main_v233 : Ref sig .tc := ⟨.hbm, 326, rfl⟩
abbrev main_cst_63 : Ref sig .tc := ⟨.hbm, 327, rfl⟩
abbrev main_v234 : Ref sig .tc := ⟨.hbm, 328, rfl⟩
abbrev main_v235 : Ref sig .tc := ⟨.hbm, 329, rfl⟩
abbrev main_cst_64 : Ref sig .tc := ⟨.hbm, 330, rfl⟩
abbrev main_v236 : Ref sig .tc := ⟨.hbm, 331, rfl⟩
abbrev main_v237 : Ref sig .tc := ⟨.hbm, 332, rfl⟩
abbrev main_v238 : Ref sig .tc := ⟨.hbm, 333, rfl⟩
abbrev main_cst_65 : Ref sig .tc := ⟨.hbm, 334, rfl⟩
abbrev main_v239 : Ref sig .tc := ⟨.hbm, 335, rfl⟩
abbrev main_v240 : Ref sig .tc := ⟨.hbm, 336, rfl⟩
abbrev main_cst_66 : Ref sig .tc := ⟨.hbm, 337, rfl⟩
abbrev main_call10_v0 : Ref sig .tc := ⟨.hbm, 338, rfl⟩
abbrev main_call10_v1 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_v244 : Ref sig .tc := ⟨.hbm, 343, rfl⟩
abbrev main_c_67 : Ref sig .tc := ⟨.hbm, 344, rfl⟩
abbrev main_v245 : Ref sig .tc := ⟨.hbm, 345, rfl⟩
abbrev main_v246 : Ref sig .tc := ⟨.hbm, 346, rfl⟩
abbrev main_c_68 : Ref sig .tc := ⟨.hbm, 347, rfl⟩
abbrev main_v247 : Ref sig .tc := ⟨.hbm, 348, rfl⟩
abbrev main_v248 : Ref sig .tc := ⟨.hbm, 349, rfl⟩
abbrev main_v249 : Ref sig .tc := ⟨.hbm, 350, rfl⟩
abbrev main_v250 : Ref sig .tc := ⟨.hbm, 351, rfl⟩
abbrev main_v251 : Ref sig .tc := ⟨.hbm, 352, rfl⟩
abbrev main_cst_69 : Ref sig .tc := ⟨.hbm, 353, rfl⟩
abbrev main_v252 : Ref sig .tc := ⟨.hbm, 354, rfl⟩
abbrev main_v253 : Ref sig .tc := ⟨.hbm, 355, rfl⟩
abbrev main_v254 : Ref sig .tc := ⟨.hbm, 356, rfl⟩
abbrev main_v255 : Ref sig .tc := ⟨.hbm, 357, rfl⟩
abbrev main_v256 : Ref sig .tc := ⟨.hbm, 358, rfl⟩
abbrev main_v257 : Ref sig .tc := ⟨.hbm, 359, rfl⟩
abbrev main_v258 : Ref sig .tc := ⟨.hbm, 360, rfl⟩
abbrev main_v259 : Ref sig .tc := ⟨.hbm, 361, rfl⟩
abbrev main_v260 : Ref sig .tc := ⟨.hbm, 362, rfl⟩
abbrev main_v261 : Ref sig .tc := ⟨.hbm, 363, rfl⟩
abbrev main_v262 : Ref sig .tc := ⟨.hbm, 364, rfl⟩
abbrev main_v263 : Ref sig .tc := ⟨.hbm, 365, rfl⟩
abbrev main_v264 : Ref sig .tc := ⟨.hbm, 366, rfl⟩
abbrev main_v265 : Ref sig .tc := ⟨.hbm, 367, rfl⟩
abbrev main_v266 : Ref sig .tc := ⟨.hbm, 368, rfl⟩
abbrev main_v267 : Ref sig .tc := ⟨.hbm, 369, rfl⟩
abbrev main_v268 : Ref sig .tc := ⟨.hbm, 370, rfl⟩
abbrev main_v269 : Ref sig .tc := ⟨.hbm, 371, rfl⟩
abbrev main_v270 : Ref sig .tc := ⟨.hbm, 372, rfl⟩
abbrev main_cst_70 : Ref sig .tc := ⟨.hbm, 373, rfl⟩
abbrev main_v271 : Ref sig .tc := ⟨.hbm, 374, rfl⟩
abbrev main_cst_71 : Ref sig .tc := ⟨.hbm, 375, rfl⟩
abbrev main_v272 : Ref sig .tc := ⟨.hbm, 376, rfl⟩
abbrev main_v273 : Ref sig .tc := ⟨.hbm, 377, rfl⟩
abbrev main_v274 : Ref sig .tc := ⟨.hbm, 378, rfl⟩
abbrev main_cst_72 : Ref sig .tc := ⟨.hbm, 379, rfl⟩
abbrev main_v275 : Ref sig .tc := ⟨.hbm, 380, rfl⟩
abbrev main_v276 : Ref sig .tc := ⟨.hbm, 381, rfl⟩
abbrev main_v277 : Ref sig .tc := ⟨.hbm, 382, rfl⟩
abbrev main_cst_73 : Ref sig .tc := ⟨.hbm, 383, rfl⟩
abbrev main_v278 : Ref sig .tc := ⟨.hbm, 384, rfl⟩
abbrev main_v279 : Ref sig .tc := ⟨.hbm, 385, rfl⟩
abbrev main_cst_74 : Ref sig .tc := ⟨.hbm, 386, rfl⟩
abbrev main_v280 : Ref sig .tc := ⟨.hbm, 387, rfl⟩
abbrev main_v281 : Ref sig .tc := ⟨.hbm, 388, rfl⟩
abbrev main_v282 : Ref sig .tc := ⟨.hbm, 389, rfl⟩
abbrev main_cst_75 : Ref sig .tc := ⟨.hbm, 390, rfl⟩
abbrev main_v283 : Ref sig .tc := ⟨.hbm, 391, rfl⟩
abbrev main_v284 : Ref sig .tc := ⟨.hbm, 392, rfl⟩
abbrev main_cst_76 : Ref sig .tc := ⟨.hbm, 393, rfl⟩
abbrev main_call11_v0 : Ref sig .tc := ⟨.hbm, 394, rfl⟩
abbrev main_call11_v1 : Ref sig .tc := ⟨.hbm, 395, rfl⟩
abbrev main_v285 : Ref sig .tc := ⟨.hbm, 396, rfl⟩
abbrev main_cst_77 : Ref sig .tc := ⟨.hbm, 397, rfl⟩
abbrev main_v286 : Ref sig .tc := ⟨.hbm, 398, rfl⟩
abbrev main_v287 : Ref sig .tc := ⟨.hbm, 399, rfl⟩
abbrev main_cst_78 : Ref sig .tc := ⟨.hbm, 400, rfl⟩
abbrev main_v288 : Ref sig .tc := ⟨.hbm, 401, rfl⟩
abbrev main_v289 : Ref sig .tc := ⟨.hbm, 402, rfl⟩
abbrev main_v290 : Ref sig .tc := ⟨.hbm, 403, rfl⟩
abbrev main_cst_79 : Ref sig .tc := ⟨.hbm, 404, rfl⟩
abbrev main_v291 : Ref sig .tc := ⟨.hbm, 405, rfl⟩
abbrev main_v292 : Ref sig .tc := ⟨.hbm, 406, rfl⟩
abbrev main_cst_80 : Ref sig .tc := ⟨.hbm, 407, rfl⟩
abbrev main_call12_v0 : Ref sig .tc := ⟨.hbm, 408, rfl⟩
abbrev main_call12_v1 : Ref sig .tc := ⟨.hbm, 409, rfl⟩
abbrev main_v293 : Ref sig .tc := ⟨.hbm, 410, rfl⟩
abbrev main_v294 : Ref sig .tc := ⟨.hbm, 411, rfl⟩
abbrev main_v295 : Ref sig .tc := ⟨.hbm, 412, rfl⟩
abbrev main_v296 : Ref sig .tc := ⟨.hbm, 413, rfl⟩
abbrev main_c_81 : Ref sig .tc := ⟨.hbm, 414, rfl⟩
abbrev main_v297 : Ref sig .tc := ⟨.hbm, 415, rfl⟩
abbrev main_v298 : Ref sig .tc := ⟨.hbm, 416, rfl⟩
abbrev main_c_82 : Ref sig .tc := ⟨.hbm, 417, rfl⟩
abbrev main_v299 : Ref sig .tc := ⟨.hbm, 418, rfl⟩
abbrev main_v300 : Ref sig .tc := ⟨.hbm, 419, rfl⟩
abbrev main_v301 : Ref sig .tc := ⟨.hbm, 420, rfl⟩
abbrev main_v302 : Ref sig .tc := ⟨.hbm, 421, rfl⟩
abbrev main_v303 : Ref sig .tc := ⟨.hbm, 422, rfl⟩
abbrev main_cst_83 : Ref sig .tc := ⟨.hbm, 423, rfl⟩
abbrev main_v304 : Ref sig .tc := ⟨.hbm, 424, rfl⟩
abbrev main_v305 : Ref sig .tc := ⟨.hbm, 425, rfl⟩
abbrev main_v306 : Ref sig .tc := ⟨.hbm, 426, rfl⟩
abbrev main_v307 : Ref sig .tc := ⟨.hbm, 427, rfl⟩
abbrev main_v308 : Ref sig .tc := ⟨.hbm, 428, rfl⟩
abbrev main_v309 : Ref sig .tc := ⟨.hbm, 429, rfl⟩
abbrev main_v310 : Ref sig .tc := ⟨.hbm, 430, rfl⟩
abbrev main_v311 : Ref sig .tc := ⟨.hbm, 431, rfl⟩
abbrev main_v312 : Ref sig .tc := ⟨.hbm, 432, rfl⟩
abbrev main_v313 : Ref sig .tc := ⟨.hbm, 433, rfl⟩
abbrev main_v314 : Ref sig .tc := ⟨.hbm, 434, rfl⟩
abbrev main_cst_84 : Ref sig .tc := ⟨.hbm, 435, rfl⟩
abbrev main_v315 : Ref sig .tc := ⟨.hbm, 436, rfl⟩
abbrev main_v316 : Ref sig .tc := ⟨.hbm, 437, rfl⟩
abbrev main_v317 : Ref sig .tc := ⟨.hbm, 438, rfl⟩
abbrev main_cst_85 : Ref sig .tc := ⟨.hbm, 439, rfl⟩
abbrev main_v318 : Ref sig .tc := ⟨.hbm, 440, rfl⟩
abbrev main_cst_86 : Ref sig .tc := ⟨.hbm, 441, rfl⟩
abbrev main_v319 : Ref sig .tc := ⟨.hbm, 442, rfl⟩
abbrev main_v320 : Ref sig .tc := ⟨.hbm, 443, rfl⟩
abbrev main_v321 : Ref sig .tc := ⟨.hbm, 444, rfl⟩
abbrev main_cst_87 : Ref sig .tc := ⟨.hbm, 445, rfl⟩
abbrev main_v322 : Ref sig .tc := ⟨.hbm, 446, rfl⟩
abbrev main_v323 : Ref sig .tc := ⟨.hbm, 447, rfl⟩
abbrev main_v324 : Ref sig .tc := ⟨.hbm, 448, rfl⟩
abbrev main_v325 : Ref sig .tc := ⟨.hbm, 449, rfl⟩
abbrev main_v326 : Ref sig .tc := ⟨.hbm, 450, rfl⟩

abbrev nD : Nat := 1
abbrev τ : Topo := Topo.v7x

variable {F : FTy → Type} [FloatOps F]

class Facts₀ : Prop where
  bcast_S_S100000x256 : S_.BroadcastsInDim S100000x256 (![] : Fin 0 → Fin S100000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  slices_S3x400000_S1x400000_0_0 : S3x400000.Slices ![0, 0] S1x400000
  shapeCasts_S1x400000_S400000 : S1x400000.ShapeCasts S400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S3x256x256_S1x256x256_1_0_0 : S3x256x256.Slices ![1, 0, 0] S1x256x256
  slices_S3x256_S1x256_1_0 : S3x256.Slices ![1, 0] S1x256
  slices_S3x400000_S1x400000_1_0 : S3x400000.Slices ![1, 0] S1x400000
  slices_S3x256x256_S1x256x256_2_0_0 : S3x256x256.Slices ![2, 0, 0] S1x256x256
  slices_S3x256_S1x256_2_0 : S3x256.Slices ![2, 0] S1x256
  slices_S3x400000_S1x400000_2_0 : S3x400000.Slices ![2, 0] S1x400000
  bcast_S_S128x256 : S_.BroadcastsInDim S128x256 (![] : Fin 0 → Fin S128x256.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  scatter_S100000_S400000x1_S400000_n_0_0_1_wf : ScatterDims.WF S100000 S400000x1 S400000 [] [0] [0] 1
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S100000x256_S256x256_S100000x256_1_0_0_1_n_n_wf : DotDims.WF S100000x256 S256x256 S100000x256 [1] [0] [0] [1] [] []
  scatter_S128x256_S100000x1_S100000x256_1_0_0_1_wf : ScatterDims.WF S128x256 S100000x1 S100000x256 [1] [0] [0] 1
  scatter_S128_S100000x1_S100000_n_0_0_1_wf : ScatterDims.WF S128 S100000x1 S100000 [] [0] [0] 1

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S128x256_S100000x1_S100000x256_1_0_0_1 : ScatterDims S128x256 S100000x1 S100000x256 where
  updateWindowDims := [1]
  insertedWindowDims := [0]
  scatterDimsToOperandDims := [0]
  indexVectorDim := 1
  wf := scatter_S128x256_S100000x1_S100000x256_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

class Facts : Prop extends Facts₀ where

variable [Facts]
-- ==== Proof.Spec.lean ====
/-
  One heterogeneous graph-convolution layer, the degree norms, the clamp between the layers and the mean pooling at the
  end, as whole-array terms over the extended reals.

  A relation `r` has an edge list: row `r` of the source table `s` and of the destination table `d`, each of 400000
  node indices.  Its degree norm at a node is `1 / sqrt (max deg 1)` when the node's degree (the number of edges naming
  it) is positive and `0` otherwise.  The relation's convolution of node features `X : [100000, 256]` is
    `((Σ over edges e landing on node n of (X · ns) (row named by source e)) · W) · nd n + b`,
  and a layer adds the three relations' convolutions to a zero matrix.  The network is two layers with a clamp below by
  zero between them, then the per-graph mean of the node rows: the rows added up by graph, divided by the graph's node
  count clamped below by one.
-/
import proofs.«123699_j87308095193388_2_alg».proof.ReferenceIdeal
import Idealize.ShloMosaic.PureOps.Ideal

noncomputable section

namespace Cert.HeteroSpec

open Idealize.ShloMosaic Cert.ReferenceIdeal

variable [Cert.ReferenceIdeal.Facts]
open Cert.ReferenceIdeal.Facts₀ Cert.ReferenceIdeal.Facts

/-- Row `off 0` of an edge table, as a vector of node indices. -/
def edgeRow (off : Fin S3x400000.rank → Nat) (h : S3x400000.Slices off S1x400000) (a : IVec S3x400000 32) : IVec S400000 32 :=
  shapeCast S400000 (extractStridedSlice S1x400000 off a h) shapeCasts_S1x400000_S400000

/-- Weight matrix `off 0` of a stack of three. -/
def wMat (off : Fin S3x256x256.rank → Nat) (h : S3x256x256.Slices off S1x256x256) (W : FVec Ideal S3x256x256 .f32) :
    FVec Ideal S256x256 .f32 :=
  shapeCast S256x256 (extractStridedSlice S1x256x256 off W h) shapeCasts_S1x256x256_S256x256

/-- Bias vector `off 0` of a stack of three. -/
def bVec (off : Fin S3x256.rank → Nat) (h : S3x256.Slices off S1x256) (b : FVec Ideal S3x256 .f32) : FVec Ideal S256 .f32 :=
  shapeCast S256 (extractStridedSlice S1x256 off b h) shapeCasts_S1x256_S256

/-- A bias vector as a one-row matrix. -/
def bRow (v : FVec Ideal S256 .f32) : FVec Ideal S1x256 .f32 := broadcastInDim S1x256 ![1] bcast_S256_S1x256_1 v

def zeroScalar : FVec Ideal S_ .f32 := constant S_ .f32 0x00000000#32
def oneScalar : FVec Ideal S_ .f32 := constant S_ .f32 0x3F800000#32
def zerosN : FVec Ideal S100000 .f32 := broadcastInDim S100000 ![] bcast_S_S100000 zeroScalar
def onesN : FVec Ideal S100000 .f32 := broadcastInDim S100000 ![] bcast_S_S100000 oneScalar
def onesE : FVec Ideal S400000 .f32 := broadcastInDim S400000 ![] bcast_S_S400000 oneScalar
def zerosNF : FVec Ideal S100000x256 .f32 := broadcastInDim S100000x256 ![] bcast_S_S100000x256 zeroScalar

/-- A vector of edge indices as an index column. -/
def col (i : IVec S400000 32) : IVec S400000x1 32 := broadcastInDim S400000x1 ![0] bcast_S400000_S400000x1_0 i

/-- The degree of every node under an index vector: ones added up at the named nodes. -/
def deg (i : IVec S400000 32) : FVec Ideal S100000 .f32 :=
  Host.scatterAdd scatter_S100000_S400000x1_S400000_n_0_0_1 zerosN (col i) onesE

/-- The degree norm: `1 / sqrt (max deg 1)` where the degree is positive, `0` elsewhere. -/
def nrm (i : IVec S400000 32) : FVec Ideal S100000 .f32 :=
  select (cmpf .ogt (deg i) zerosN) (Host.divf onesN (Host.sqrt (maximumf (deg i) onesN)))
    (broadcastInDim S100000 ![] bcast_S_S100000 zeroScalar)

/-- A negative index counts from the end: `i + 100000` where `i < 0`. -/
def fixIdx (s : IVec S400000 32) : IVec S400000 32 :=
  select (cmpi .slt s (broadcastInDim S400000 ![] bcast_S_S400000 (constantI S_ 32 0#32)))
    (addi s (broadcastInDim S400000 ![] bcast_S_S400000 (constantI S_ 32 100000#32))) s

/-- A per-node factor spread over the node's row. -/
def rowScale (v : FVec Ideal S100000 .f32) : FVec Ideal S100000x256 .f32 :=
  broadcastInDim S100000x256 ![0, 1] bcast_S100000x1_S100000x256_0_1 (broadcastInDim S100000x1 ![0] bcast_S100000_S100000x1_0 v)

/-- The source-scaled features gathered along the edges and added up at the destinations. -/
def aggR (X : FVec Ideal S100000x256 .f32) (ns : FVec Ideal S100000 .f32) (s d : IVec S400000 32) : FVec Ideal S100000x256 .f32 :=
  Host.scatterAdd scatter_S100000x256_S400000x1_S400000x256_1_0_0_1 zerosNF (col d)
    (Host.gather gather_S100000x256_S400000x1_S400000x256_1_0_n_n_0_1_1256 (mulf X (rowScale ns)) (col (fixIdx s)))

/-- One relation's convolution. -/
def convR (X : FVec Ideal S100000x256 .f32) (ns nd : FVec Ideal S100000 .f32) (s d : IVec S400000 32)
    (W : FVec Ideal S256x256 .f32) (b : FVec Ideal S256 .f32) : FVec Ideal S100000x256 .f32 :=
  addf (mulf (Host.dotGeneral dot_S100000x256_S256x256_S100000x256_1_0_0_1_n_n none (aggR X ns s d) W) (rowScale nd))
    (broadcastInDim S100000x256 ![0, 1] bcast_S1x256_S100000x256_0_1 (bRow b))

/-- A layer: the three relations' convolutions added to a zero matrix, in order. -/
def layerR (X : FVec Ideal S100000x256 .f32)
    (ns0 nd0 : FVec Ideal S100000 .f32) (s0 d0 : IVec S400000 32) (W0 : FVec Ideal S256x256 .f32) (b0 : FVec Ideal S256 .f32)
    (ns1 nd1 : FVec Ideal S100000 .f32) (s1 d1 : IVec S400000 32) (W1 : FVec Ideal S256x256 .f32) (b1 : FVec Ideal S256 .f32)
    (ns2 nd2 : FVec Ideal S100000 .f32) (s2 d2 : IVec S400000 32) (W2 : FVec Ideal S256x256 .f32) (b2 : FVec Ideal S256 .f32) :
    FVec Ideal S100000x256 .f32 :=
  addf (addf (addf zerosNF (convR X ns0 nd0 s0 d0 W0 b0)) (convR X ns1 nd1 s1 d1 W1 b1)) (convR X ns2 nd2 s2 d2 W2 b2)

/-- The clamp below by zero between the layers. -/
def reluR (X : FVec Ideal S100000x256 .f32) : FVec Ideal S100000x256 .f32 :=
  maximumf X (broadcastInDim S100000x256 ![] bcast_S_S100000x256 zeroScalar)

/-- The per-graph mean of the node rows. -/
def poolR (H : FVec Ideal S100000x256 .f32) (g : IVec S100000 32) : FVec Ideal S128x256 .f32 :=
  Host.divf
    (Host.scatterAdd scatter_S128x256_S100000x1_S100000x256_1_0_0_1 (broadcastInDim S128x256 ![] bcast_S_S128x256 zeroScalar)
      (broadcastInDim S100000x1 ![0] bcast_S100000_S100000x1_0 g) H)
    (broadcastInDim S128x256 ![0, 1] bcast_S128x1_S128x256_0_1 (broadcastInDim S128x1 ![0] bcast_S128_S128x1_0
      (maximumf (Host.scatterAdd scatter_S128_S100000x1_S100000_n_0_0_1 (broadcastInDim S128 ![] bcast_S_S128 zeroScalar)
        (broadcastInDim S100000x1 ![0] bcast_S100000_S100000x1_0 g) onesN) (broadcastInDim S128 ![] bcast_S_S128 oneScalar))))

/-- One layer from the raw tables: relation `r` uses row `r` of each table. -/
def layerOf (X : FVec Ideal S100000x256 .f32) (a1 a2 : IVec S3x400000 32) (W : FVec Ideal S3x256x256 .f32) (b : FVec Ideal S3x256 .f32) :
    FVec Ideal S100000x256 .f32 :=
  layerR X
    (nrm (edgeRow ![0, 0] slices_S3x400000_S1x400000_0_0 a1)) (nrm (edgeRow ![0, 0] slices_S3x400000_S1x400000_0_0 a2))
    (edgeRow ![0, 0] slices_S3x400000_S1x400000_0_0 a1) (edgeRow ![0, 0] slices_S3x400000_S1x400000_0_0 a2)
    (wMat ![0, 0, 0] slices_S3x256x256_S1x256x256_0_0_0 W) (bVec ![0, 0] slices_S3x256_S1x256_0_0 b)
    (nrm (edgeRow ![1, 0] slices_S3x400000_S1x400000_1_0 a1)) (nrm (edgeRow ![1, 0] slices_S3x400000_S1x400000_1_0 a2))
    (edgeRow ![1, 0] slices_S3x400000_S1x400000_1_0 a1) (edgeRow ![1, 0] slices_S3x400000_S1x400000_1_0 a2)
    (wMat ![1, 0, 0] slices_S3x256x256_S1x256x256_1_0_0 W) (bVec ![1, 0] slices_S3x256_S1x256_1_0 b)
    (nrm (edgeRow ![2, 0] slices_S3x400000_S1x400000_2_0 a1)) (nrm (edgeRow ![2, 0] slices_S3x400000_S1x400000_2_0 a2))
    (edgeRow ![2, 0] slices_S3x400000_S1x400000_2_0 a1) (edgeRow ![2, 0] slices_S3x400000_S1x400000_2_0 a2)
    (wMat ![2, 0, 0] slices_S3x256x256_S1x256x256_2_0_0 W) (bVec ![2, 0] slices_S3x256_S1x256_2_0 b)

/-- The whole network. -/
def net (X : FVec Ideal S100000x256 .f32) (a1 a2 : IVec S3x400000 32) (g : IVec S100000 32)
    (W1 : FVec Ideal S3x256x256 .f32) (b1 : FVec Ideal S3x256 .f32) (W2 : FVec Ideal S3x256x256 .f32) (b2 : FVec Ideal S3x256 .f32) :
    FVec Ideal S128x256 .f32 :=
  poolR (layerOf (reluR (layerOf X a1 a2 W1 b1)) a1 a2 W2 b2) g

end Cert.HeteroSpec

end
-- ==== Proof.RefValue.lean ====
/-
  The reference program computes the network of the specification.

  The reference's run ends with its result buffer at the composed term of its 443 host operations over the argument
  arrays.  Read relation by relation and layer by layer that term is the specification's network: per relation the
  degree norms of the relation's source and destination rows, the source-scaled features gathered along the edges and
  added up at the destinations, the dense product scaled by the destination norm plus the bias; three relations added
  to a zero matrix; a clamp below by zero between the two layers; the per-graph mean at the end.
-/
import proofs.«123699_j87308095193388_2_alg».proof.Proof.RefRunPatched
import proofs.«123699_j87308095193388_2_alg».proof.Proof.Spec

set_option maxRecDepth 16384

noncomputable section

namespace Cert.ReferenceIdeal.RefValue

open Cert.ReferenceIdeal Cert.ReferenceIdeal.Gen Cert.HeteroSpec
open Idealize.ShloMosaic Idealize.ShloMosaic.TcCoe Idealize.SL.Sem

/-- The network of the reference's argument arrays on device `c`. -/
def netOf (m : (ℓ : Loc nD τ sig) → Buf (Elt Ideal) ℓ) (c : Dev nD) : FVec Ideal S128x256 .f32 :=
  net (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

set_option maxHeartbeats 4000000 in
/-- The run's result term is the network. -/
theorem res_eq_net (m : (ℓ : Loc nD τ sig) → Buf (Elt Ideal) ℓ) (c : Dev nD) :
    Cert.ReferenceIdeal.ValueP.res_main_v326 (F := Ideal) m c = netOf m c := by
  unfold Cert.ReferenceIdeal.ValueP.res_main_v326 netOf net poolR layerOf reluR layerR convR aggR
  rfl

end Cert.ReferenceIdeal.RefValue

end
-- ==== Proof.KernelRun.lean ====
/-
  The idealized kernel's run with its result named.

  Every weakly fair execution of the kernel program from a memory with zero counters terminates without a fault; at the
  end the result buffer holds what the last stretch of host operations leaves there — the fold of the program's
  segments (host stretches and the two pipelined regions) over the launch memory, read at the result — and the eight
  argument arrays are as launched.
-/
import proofs.«123699_j87308095193388_2_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's segments, the last thread state read against the final state, the result
    buffer at the last boundary's contents and each argument walked back to the launch memory. -/
theorem run_named : θ_run defs (onTc (τ := τ) (main (F := F))) ⟨m, fun _ => 0, ρ⟩ (fun r => ∀ c : Dev nD,
      r.2.mem ((c.tc : Thread nD τ).loc main_v294) = W17 m ρ c (Proc.devRef .tc main_v294)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v294 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c)⟩)

end Cert.KernelIdeal.NamedRun

end
-- ==== Proof.SpecK.lean ====
/-
  The kernel's arrangement of one relation's aggregate: the features are gathered along the edges first and each
  gathered row is scaled by the source node's gathered norm, the rows are added up at the destinations, and the sum is
  scaled by the destination node's norm BEFORE the dense product (and stored in a narrower float format, which changes
  nothing over the extended reals).
-/
import proofs.«123699_j87308095193388_2_alg».proof.KernelIdeal
import proofs.«123699_j87308095193388_2_alg».proof.Proof.Spec

noncomputable section

namespace Cert.HeteroSpecK

open Idealize.ShloMosaic Cert.HeteroSpec

variable [Cert.KernelIdeal.Facts] [Cert.ReferenceIdeal.Facts]
open Cert.KernelIdeal.Facts₀ Cert.KernelIdeal.Facts

/-- The gathered rows, each scaled by its source node's gathered norm. -/
def edgeRows (X : FVec Ideal Cert.KernelIdeal.S100000x256 .f32) (ns : FVec Ideal Cert.KernelIdeal.S100000 .f32)
    (s : IVec Cert.KernelIdeal.S400000 32) : FVec Ideal Cert.KernelIdeal.S400000x256 .f32 :=
  mulf (Host.gather Cert.KernelIdeal.gather_S100000x256_S400000x1_S400000x256_1_0_n_n_0_1_1256 X (col (fixIdx s)))
    (broadcastInDim Cert.KernelIdeal.S400000x256 ![0, 1] bcast_S400000x1_S400000x256_0_1
      (broadcastInDim Cert.KernelIdeal.S400000x1 ![0] bcast_S400000_S400000x1_0
        (Host.gather Cert.KernelIdeal.gather_S100000_S400000x1_S400000_n_0_n_n_0_1_1 ns (col (fixIdx s)))))

/-- One relation's aggregate as the kernel's host code leaves it for the dense stage. -/
def aggK (X : FVec Ideal Cert.KernelIdeal.S100000x256 .f32) (ns nd : FVec Ideal Cert.KernelIdeal.S100000 .f32)
    (s d : IVec Cert.KernelIdeal.S400000 32) : FVec Ideal Cert.KernelIdeal.S100000x256 .bf16 :=
  truncf .bf16
    (mulf (Host.scatterAdd Cert.KernelIdeal.scatter_S100000x256_S400000x1_S400000x256_1_0_0_1 zerosNF (col d) (edgeRows X ns s))
      (rowScale nd)) bitsLt_bf16_f32

end Cert.HeteroSpecK

end
-- ==== Proof.DenseSpec.lean ====
/-
  The dense stage of one heterogeneous graph-convolution layer, as one function of whole arrays over the extended reals.

  Three relations each contribute a matrix product of the node rows `A r : [100000, 256]` with a weight matrix
  `W r : [256, 256]`, and a bias row `b r : [1, 256]`.  At node `n` and output column `o` the stage is
  `((((A0·W0 + b0) + A1·W1) + b1) + A2·W2) + b2`, each product the sum over the shared axis, and the first layer
  clamps the total below by zero.  Entry `(n, o)` depends on row `n` of each `A r`, column `o` of each `W r`, and entry
  `o` of each bias row only.
-/
import Idealize.ShloMosaic.PureOps.Ideal
import Idealize.ShloMosaic.Lib.ValueIdx

noncomputable section

namespace Cert.HeteroLayer

open Idealize.ShloMosaic Idealize.ShloMosaic.ValueIdx

/-- Row `n` of `A` times column `o` of `W`: the sum over the shared axis. -/
def rowDot (A : (⟨2, ![100000, 256]⟩ : Shape).Idx → EReal) (W : (⟨2, ![256, 256]⟩ : Shape).Idx → EReal)
    (n : Fin 100000) (o : Fin 256) : EReal :=
  ∑ k : Fin 256, A (ix2 n k) * W (ix2 k o)

/-- The three relations' products and bias rows added up in the order the stage adds them, at `(n, o)`. -/
def denseAt (A0 A1 A2 : (⟨2, ![100000, 256]⟩ : Shape).Idx → EReal) (W0 W1 W2 : (⟨2, ![256, 256]⟩ : Shape).Idx → EReal)
    (b0 b1 b2 : (⟨2, ![1, 256]⟩ : Shape).Idx → EReal) (n : Fin 100000) (o : Fin 256) : EReal :=
  ((((rowDot A0 W0 n o + b0 (ix2 (0 : Fin 1) o)) + rowDot A1 W1 n o) + b1 (ix2 (0 : Fin 1) o)) + rowDot A2 W2 n o)
    + b2 (ix2 (0 : Fin 1) o)

/-- The dense stage as a whole array: `denseAt` at every entry, clamped below by zero when `relu` is set. -/
def dense (relu : Bool) (A0 A1 A2 : (⟨2, ![100000, 256]⟩ : Shape).Idx → EReal)
    (W0 W1 W2 : (⟨2, ![256, 256]⟩ : Shape).Idx → EReal) (b0 b1 b2 : (⟨2, ![1, 256]⟩ : Shape).Idx → EReal) :
    (⟨2, ![100000, 256]⟩ : Shape).Idx → EReal :=
  fun i => if relu then max (denseAt A0 A1 A2 W0 W1 W2 b0 b1 b2 (i 0) (i 1)) 0
    else denseAt A0 A1 A2 W0 W1 W2 b0 b1 b2 (i 0) (i 1)

theorem dense_apply (relu : Bool) (A0 A1 A2 : (⟨2, ![100000, 256]⟩ : Shape).Idx → EReal)
    (W0 W1 W2 : (⟨2, ![256, 256]⟩ : Shape).Idx → EReal) (b0 b1 b2 : (⟨2, ![1, 256]⟩ : Shape).Idx → EReal)
    (n : Fin 100000) (o : Fin 256) :
    dense relu A0 A1 A2 W0 W1 W2 b0 b1 b2 (ix2 n o)
      = if relu then max (denseAt A0 A1 A2 W0 W1 W2 b0 b1 b2 n o) 0 else denseAt A0 A1 A2 W0 W1 W2 b0 b1 b2 n o := rfl

end Cert.HeteroLayer

end
-- ==== Proof.LibGcnLayer.lean ====
/-
  The algebra of one graph-convolution layer with symmetric normalisation, over the extended reals.

  With `D` the per-node factor (the inverse square root of the degree), `h` the node features after the dense product,
  and an edge list (source row `s e`, destination row `t e`), the reference sums `h (s e) · (D (s e) · D (t e))` over the
  edges that land on node `i` and adds the self loop `h i · (D i · D i)`.  The kernel scales the features once,
  `hs = h · D`, sums `hs (s e)` over the same edges, adds `hs i`, and multiplies the total by `D i`.  The two agree because
  every edge in the sum has `D (t e) = D i`, multiplication distributes over a finite sum of REAL numbers, and products
  of reals commute; on the extended reals distributivity can fail at the infinities, so every quantity is first shown
  to be a real number.
-/
import Idealize.ShloMosaic.PureOps.Ideal

noncomputable section

namespace Cert.GcnAlgebra

open Idealize.ShloMosaic

/-- An extended real that is a real number. -/
def IsFin (x : EReal) : Prop := ∃ r : ℝ, x = (r : EReal)

theorem IsFin.coe (r : ℝ) : IsFin (r : EReal) := ⟨r, rfl⟩
theorem IsFin.zero : IsFin 0 := ⟨0, rfl⟩
theorem IsFin.one : IsFin 1 := ⟨1, rfl⟩
theorem IsFin.add {x y : EReal} (hx : IsFin x) (hy : IsFin y) : IsFin (x + y) := by
  obtain ⟨a, rfl⟩ := hx; obtain ⟨b, rfl⟩ := hy; exact ⟨a + b, (EReal.coe_add a b).symm⟩
theorem IsFin.mul {x y : EReal} (hx : IsFin x) (hy : IsFin y) : IsFin (x * y) := by
  obtain ⟨a, rfl⟩ := hx; obtain ⟨b, rfl⟩ := hy; exact ⟨a * b, (EReal.coe_mul a b).symm⟩
theorem IsFin.max {x y : EReal} (hx : IsFin x) (hy : IsFin y) : IsFin (max x y) := by
  rcases max_choice x y with h | h <;> rw [h] <;> assumption

/-- A finite sum of coerced reals is the coerced sum. -/
theorem coe_sum {ι : Type} (s : Finset ι) (f : ι → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

theorem IsFin.sum {ι : Type} (s : Finset ι) (f : ι → EReal) (h : ∀ j, IsFin (f j)) : IsFin (∑ j ∈ s, f j) := by
  choose g hg using h
  exact ⟨∑ j ∈ s, g j, by rw [← coe_sum]; exact Finset.sum_congr rfl fun j _ => hg j⟩

/-- The inverse square root of a positive real is a real. -/
theorem IsFin.rsqrt_of_pos {r : ℝ} (hr : 0 < r) : IsFin (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- THE LAYER IDENTITY on one output entry.  `S` is the set of (edge, column) slots landing on the entry; `a j` the
    feature the slot gathers, `p j` the source node's factor, `q j` the destination node's factor as the reference
    gathers it, which on `S` is the entry's own factor `D`; `H` the entry's own feature. -/
theorem fold_scale {T : Type} (S : Finset T) (a p q : T → EReal) (H D : EReal)
    (ha : ∀ j, IsFin (a j)) (hp : ∀ j, IsFin (p j)) (hH : IsFin H) (hD : IsFin D)
    (hq : ∀ j ∈ S, q j = D) :
    D * ((0 + ∑ j ∈ S, a j * p j) + H * D) = (0 + ∑ j ∈ S, a j * (p j * q j)) + H * (D * D) := by
  obtain ⟨d, rfl⟩ := hD
  obtain ⟨h, rfl⟩ := hH
  choose a' ha' using ha
  choose p' hp' using hp
  have e1 : ∑ j ∈ S, a j * (p j * q j) = ∑ j ∈ S, ((a' j * (p' j * d) : ℝ) : EReal) :=
    Finset.sum_congr rfl fun j hj => by rw [hq j hj, ha', hp', EReal.coe_mul, EReal.coe_mul]
  have e2 : ∑ j ∈ S, a j * p j = ∑ j ∈ S, ((a' j * p' j : ℝ) : EReal) :=
    Finset.sum_congr rfl fun j _ => by rw [ha', hp', EReal.coe_mul]
  rw [e1, e2, coe_sum, coe_sum, zero_add, zero_add, ← EReal.coe_mul, ← EReal.coe_add, ← EReal.coe_mul,
    ← EReal.coe_mul, ← EReal.coe_mul, ← EReal.coe_add]
  refine congrArg _ ?_
  rw [mul_add, Finset.mul_sum]
  congr 1
  · exact Finset.sum_congr rfl fun j _ => by ring
  · ring

end Cert.GcnAlgebra

end
-- ==== Proof.LibScaledRowDot.lean ====
/-
  A scaled row product over the extended reals (general: any finite index type, no program imported).

  A node's aggregated row `a` is scaled by the node's factor `c` before the product with a weight column `w` on one
  side, and the product is scaled afterwards on the other: `Σ k, (a k · c) · w k = (Σ k, a k · w k) · c`.  On the extended
  reals a factor moves across a sum only when nothing is infinite, so every quantity is a real number here.  The two
  sides also group the three relations' terms differently; addition of extended reals is associative and `0` is its
  unit, which is all the regrouping uses.
-/
import proofs.«123699_j87308095193388_2_alg».proof.Proof.LibGcnLayer

noncomputable section

namespace Cert.HeteroAlgebra

open Cert.GcnAlgebra

/-- A real factor moves out of a finite sum of real products. -/
theorem scaled_rowDot {K : Type} [Fintype K] (a w : K → EReal) (c : EReal)
    (ha : ∀ k, IsFin (a k)) (hw : ∀ k, IsFin (w k)) (hc : IsFin c) :
    ∑ k, (a k * c) * w k = (∑ k, a k * w k) * c := by
  obtain ⟨c', rfl⟩ := hc
  choose a' ha' using ha
  choose w' hw' using hw
  have e1 : ∑ k, (a k * (c' : EReal)) * w k = ∑ k ∈ Finset.univ, ((a' k * c' * w' k : ℝ) : EReal) :=
    Finset.sum_congr rfl fun k _ => by rw [ha', hw', EReal.coe_mul, EReal.coe_mul]
  have e2 : ∑ k, a k * w k = ∑ k ∈ Finset.univ, ((a' k * w' k : ℝ) : EReal) :=
    Finset.sum_congr rfl fun k _ => by rw [ha', hw', EReal.coe_mul]
  rw [e1, e2, coe_sum, coe_sum, ← EReal.coe_mul]
  refine congrArg _ ?_
  rw [Finset.sum_mul]
  exact Finset.sum_congr rfl fun k _ => by ring

/-- A finite sum of products of reals is a real. -/
theorem isFin_rowDot {K : Type} [Fintype K] (a w : K → EReal) (ha : ∀ k, IsFin (a k)) (hw : ∀ k, IsFin (w k)) :
    IsFin (∑ k, a k * w k) :=
  IsFin.sum _ _ fun k => (ha k).mul (hw k)

/-- The six terms of a dense stage added in a chain are the three pairs added to zero. -/
theorem regroup (x0 y0 x1 y1 x2 y2 : EReal) :
    ((((x0 + y0) + x1) + y1) + x2) + y2 = ((0 + (x0 + y0)) + (x1 + y1)) + (x2 + y2) := by
  simp only [zero_add, add_assoc]

end Cert.HeteroAlgebra

end
-- ==== Proof.LibRowGather.lean ====
/-
  Row gathers and row scatters read at an index.

  `x[idx]` of a matrix `x : [N, F]` (or a vector `x : [N]`) at a column of integers `idx : [E, 1]` is a gather whose
  result row `e` is row `clamp (idx e)` of the operand: the start index is read signed, a negative one becomes `0`, and
  it is cut at `N - 1`. The matrix form and the vector form clamp in the same way, so the row a matrix gather reads is the
  entry a vector gather with the same indices reads.  A scatter of rows `u : [E, F]` into `[N, F]` at such a column
  sends update `(e, f)` to `(idx e, f)` when `0 ≤ idx e < N`, and drops it otherwise: nothing is clamped there.
-/
import Idealize.ShloMosaic.PureOps.ShapeOps
import Idealize.ShloMosaic.Lib.ValueIdx

noncomputable section

namespace Cert.RowIndexing

open Idealize.ShloMosaic Idealize.ShloMosaic.ValueIdx

/-- The dimension numbers of `x[idx]` for a matrix `x : [N, F]` and a column of indices `[E, 1]`. -/
abbrev rowGatherDims (N E F : Nat)
    (wf : GatherDims.WF (⟨2, ![N, F]⟩ : Shape) ⟨2, ![E, 1]⟩ ⟨2, ![E, F]⟩ [1] [0] [] [0] [] 1 ![1, F]) :
    GatherDims (⟨2, ![N, F]⟩ : Shape) ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x[idx]` for a vector `x : [N]` and a column of indices `[E, 1]`. -/
abbrev vecGatherDims (N E : Nat)
    (wf : GatherDims.WF (⟨1, ![N]⟩ : Shape) ⟨2, ![E, 1]⟩ ⟨1, ![E]⟩ [] [0] [] [0] [] 1 ![1]) :
    GatherDims (⟨1, ![N]⟩ : Shape) ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The row an index column selects at position `e`: the entry read signed, cut to `[0, N - 1]`. -/
def clampRow {N E w : Nat} (hN : 0 < N) (idx : IVec (⟨2, ![E, 1]⟩ : Shape) w) (e : Fin E) : Fin N :=
  ⟨min (idx (ix2 e (0 : Fin 1))).toInt.toNat (N - 1), by omega⟩

/-- The operand index a matrix gather reads at `(e, f)`: row `clampRow idx e`, column `f`. -/
theorem rowGather_operandIdx {N E F w : Nat} (hN : 0 < N) (wf)
    (idx : IVec (⟨2, ![E, 1]⟩ : Shape) w) (e : Fin E) (f : Fin F) :
    (rowGatherDims N E F wf).operandIdx (ix2 e f) idx = ix2 (clampRow hN idx e) f := by
  funext a
  refine Fin.ext ?_
  have hsi : ∀ c, (rowGatherDims N E F wf).siIdx (ix2 e f) c = ix2 e (0 : Fin 1) := by
    intro c
    funext b; refine Fin.ext ?_
    match b with
    | ⟨0, _⟩ => rfl
    | ⟨1, _⟩ => show c.val = 0; have := c.isLt; exact Nat.lt_one_iff.mp this
  match a with
  | ⟨0, h0⟩ =>
    show (rowGatherDims N E F wf).start (ix2 e f) idx ⟨0, h0⟩ + (rowGatherDims N E F wf).batchCoord (ix2 e f) ⟨0, h0⟩
      + (rowGatherDims N E F wf).offCoord (ix2 e f) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGatherDims N E F wf).startIndexMap from List.mem_singleton.mpr rfl)]
    rw [hsi]
    rfl
  | ⟨1, h1⟩ =>
    show (rowGatherDims N E F wf).start (ix2 e f) idx ⟨1, h1⟩ + (rowGatherDims N E F wf).batchCoord (ix2 e f) ⟨1, h1⟩
      + (rowGatherDims N E F wf).offCoord (ix2 e f) ⟨1, h1⟩ = _
    rw [GatherDims.batchCoord_eq_zero _ _ _ List.not_mem_nil]
    unfold GatherDims.start
    rw [dif_neg (show ¬ (⟨1, h1⟩ : Fin 2) ∈ (rowGatherDims N E F wf).startIndexMap from
      fun h => absurd (congrArg Fin.val (List.mem_singleton.mp h)) Nat.one_ne_zero)]
    simp only [Nat.add_zero, Nat.zero_add]
    rfl

/-- A matrix gather at `(e, f)` reads row `clampRow idx e`, column `f`. -/
theorem rowGather_apply {N E F w : Nat} {α : Type} (hN : 0 < N) (wf)
    (x : (⟨2, ![N, F]⟩ : Shape).Idx → α) (idx : IVec (⟨2, ![E, 1]⟩ : Shape) w) (e : Fin E) (f : Fin F) :
    Host.gather (rowGatherDims N E F wf) x idx (ix2 e f) = x (ix2 (clampRow hN idx e) f) :=
  congrArg x (rowGather_operandIdx hN wf idx e f)

/-- The operand index a vector gather reads at `e`: entry `clampRow idx e`. -/
theorem vecGather_operandIdx {N E w : Nat} (hN : 0 < N) (wf)
    (idx : IVec (⟨2, ![E, 1]⟩ : Shape) w) (e : Fin E) :
    (vecGatherDims N E wf).operandIdx (ix1 e) idx = ix1 (clampRow hN idx e) := by
  funext a
  obtain rfl : a = 0 := Subsingleton.elim _ _
  refine Fin.ext ?_
  have hsi : ∀ c, (vecGatherDims N E wf).siIdx (ix1 e) c = ix2 e (0 : Fin 1) := by
    intro c
    funext b; refine Fin.ext ?_
    match b with
    | ⟨0, _⟩ => rfl
    | ⟨1, _⟩ => show c.val = 0; have := c.isLt; exact Nat.lt_one_iff.mp this
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  rw [hsi]
  rfl

/-- A vector gather at `e` reads entry `clampRow idx e`. -/
theorem vecGather_apply {N E w : Nat} {α : Type} (hN : 0 < N) (wf)
    (x : (⟨1, ![N]⟩ : Shape).Idx → α) (idx : IVec (⟨2, ![E, 1]⟩ : Shape) w) (e : Fin E) :
    Host.gather (vecGatherDims N E wf) x idx (ix1 e) = x (ix1 (clampRow hN idx e)) :=
  congrArg x (vecGather_operandIdx hN wf idx e)

/-- The dimension numbers of a scatter of rows `[E, F]` into `[N, F]` at a column of indices `[E, 1]`. -/
abbrev rowScatterDims (N E F : Nat)
    (wf : ScatterDims.WF (⟨2, ![N, F]⟩ : Shape) ⟨2, ![E, 1]⟩ ⟨2, ![E, F]⟩ [1] [0] [0] 1) :
    ScatterDims (⟨2, ![N, F]⟩ : Shape) ⟨2, ![E, 1]⟩ ⟨2, ![E, F]⟩ where
  updateWindowDims := [1]
  insertedWindowDims := [0]
  scatterDimsToOperandDims := [0]
  indexVectorDim := 1
  wf := wf

/-- Where update row `e` lands, when it lands: the row its index names, read signed and NOT clamped. -/
theorem rowScatter_row {N E F w : Nat} (wf) (idx : IVec (⟨2, ![E, 1]⟩ : Shape) w) (j : (⟨2, ![E, F]⟩ : Shape).Idx)
    (i : (⟨2, ![N, F]⟩ : Shape).Idx) (h : (rowScatterDims N E F wf).resultIdx? j idx = some i) :
    (idx (ix2 (j 0) (0 : Fin 1))).toInt = ((i 0).val : Int) := by
  unfold ScatterDims.resultIdx? at h
  split at h
  · rename_i hall
    have hi := Option.some.inj h
    have h0 := congrArg (fun k : (⟨2, ![N, F]⟩ : Shape).Idx => (k 0).val) hi
    simp only at h0
    have hw : (rowScatterDims N E F wf).window j 0 = 0 := by
      unfold ScatterDims.window
      rw [dif_neg (fun hk => by
        have hk' : (0 : Fin 2) ∈ (List.finRange 2).filter (fun a : Fin 2 => a ∉ [(0 : Fin 2)]) := hk
        revert hk'; decide)]
    have hs : (rowScatterDims N E F wf).start j idx 0 = (idx (ix2 (j 0) (0 : Fin 1))).toInt := by
      unfold ScatterDims.start
      rw [dif_pos (show (0 : Fin 2) ∈ (rowScatterDims N E F wf).scatterDimsToOperandDims from List.mem_singleton.mpr rfl)]
      congr 2
      funext b; refine Fin.ext ?_
      match b with
      | ⟨0, _⟩ => rfl
      | ⟨1, _⟩ => rfl
    have hr := hall 0
    rw [hw, hs] at hr
    rw [hw, hs] at h0
    omega
  · exact absurd h (by simp)

end Cert.RowIndexing

end
-- ==== Proof.LibRowScatterSum.lean ====
/-
  A scatter-add of rows read at an entry, over the extended reals.

  A scatter of update rows `u : [E, F]` into `[N, F]` at a column of integers `idx : [E, 1]` sends update `(e, c)` to
  `(idx e, c)` when `0 ≤ idx e < N` and drops it otherwise.  So the update entries that land on `(n, f)` are exactly
  the entries `(e, f)` of the rows `e` whose index, read signed, is `n`; the set of those rows does not depend on the
  column `f`, nor on the width `F`.  With the host's accumulating scatter this makes the result at `(n, f)` the operand
  there plus the sum of `u (e, f)` over those rows.
-/
import proofs.«123699_j87308095193388_2_alg».proof.Proof.LibRowGather
import Idealize.ShloMosaic.PureOps.Ideal

noncomputable section

namespace Cert.RowIndexing

open Idealize.ShloMosaic Idealize.ShloMosaic.ValueIdx

/-- The rows of an index column that name node `n`: the index read signed equals `n`. -/
def rowsAt {N E w : Nat} (idx : IVec (⟨2, ![E, 1]⟩ : Shape) w) (n : Fin N) : Finset (Fin E) :=
  Finset.univ.filter fun e => (idx (ix2 e (0 : Fin 1))).toInt = ((n.val : Nat) : Int)

/-- Update `(e, c)` lands on `(n, f)` exactly when row `e` names `n` and the column is kept. -/
theorem rowScatter_lands_iff {N E F w : Nat} (wf) (idx : IVec (⟨2, ![E, 1]⟩ : Shape) w)
    (e : Fin E) (c : Fin F) (n : Fin N) (f : Fin F) :
    (rowScatterDims N E F wf).resultIdx? (ix2 e c) idx = some (ix2 n f)
      ↔ (idx (ix2 e (0 : Fin 1))).toInt = ((n.val : Nat) : Int) ∧ c = f := by
  have hw0 : (rowScatterDims N E F wf).window (ix2 e c) 0 = 0 := by
    unfold ScatterDims.window
    rw [dif_neg (fun hk => by
      have hk' : (0 : Fin 2) ∈ (List.finRange 2).filter (fun a : Fin 2 => a ∉ [(0 : Fin 2)]) := hk
      revert hk'; decide)]
  have hs0 : (rowScatterDims N E F wf).start (ix2 e c) idx 0 = (idx (ix2 e (0 : Fin 1))).toInt := by
    unfold ScatterDims.start
    rw [dif_pos (show (0 : Fin 2) ∈ (rowScatterDims N E F wf).scatterDimsToOperandDims from List.mem_singleton.mpr rfl)]
    congr 2
    funext b; refine Fin.ext ?_
    match b with
    | ⟨0, _⟩ => rfl
    | ⟨1, _⟩ => rfl
  have hs1 : (rowScatterDims N E F wf).start (ix2 e c) idx 1 = 0 := by
    unfold ScatterDims.start
    rw [dif_neg (show ¬ (1 : Fin 2) ∈ (rowScatterDims N E F wf).scatterDimsToOperandDims from
      fun h => absurd (congrArg Fin.val (List.mem_singleton.mp h)) Nat.one_ne_zero)]
  have hw1 : (rowScatterDims N E F wf).window (ix2 e c) 1 = c.val := by
    have hmem : (1 : Fin 2) ∈ (rowScatterDims N E F wf).sKept :=
      (by decide : (1 : Fin 2) ∈ (List.finRange 2).filter (fun a : Fin 2 => a ∉ [(0 : Fin 2)]))
    unfold ScatterDims.window
    rw [dif_pos hmem]
    rfl
  unfold ScatterDims.resultIdx?
  constructor
  · intro h
    split at h
    · rename_i hall
      have hi := Option.some.inj h
      have h0 := congrArg (fun k : (⟨2, ![N, F]⟩ : Shape).Idx => (k 0).val) hi
      have h1 := congrArg (fun k : (⟨2, ![N, F]⟩ : Shape).Idx => (k 1).val) hi
      simp only at h0 h1
      have r0 := hall 0
      rw [hs0, hw0] at r0 h0
      rw [hs1, hw1] at h1
      refine ⟨?_, Fin.ext ?_⟩
      · have : ((ix2 n f : (⟨2, ![N, F]⟩ : Shape).Idx) 0).val = n.val := rfl
        omega
      · have : ((ix2 n f : (⟨2, ![N, F]⟩ : Shape).Idx) 1).val = f.val := rfl
        omega
    · exact absurd h (by simp)
  · rintro ⟨hn, rfl⟩
    have hall : ∀ a, 0 ≤ (rowScatterDims N E F wf).start (ix2 e c) idx a + (rowScatterDims N E F wf).window (ix2 e c) a
        ∧ (rowScatterDims N E F wf).start (ix2 e c) idx a + (rowScatterDims N E F wf).window (ix2 e c) a
          < (⟨2, ![N, F]⟩ : Shape).size a := by
      intro a
      match a with
      | ⟨0, _⟩ =>
        show 0 ≤ (rowScatterDims N E F wf).start (ix2 e c) idx 0 + (rowScatterDims N E F wf).window (ix2 e c) 0
          ∧ (rowScatterDims N E F wf).start (ix2 e c) idx 0 + (rowScatterDims N E F wf).window (ix2 e c) 0 < (N : Int)
        rw [hs0, hw0, hn]; have := n.isLt; omega
      | ⟨1, _⟩ =>
        show 0 ≤ (rowScatterDims N E F wf).start (ix2 e c) idx 1 + (rowScatterDims N E F wf).window (ix2 e c) 1
          ∧ (rowScatterDims N E F wf).start (ix2 e c) idx 1 + (rowScatterDims N E F wf).window (ix2 e c) 1 < (F : Int)
        rw [hs1, hw1]; have := c.isLt; omega
    rw [dif_pos hall]
    refine congrArg some ?_
    funext a; refine Fin.ext ?_
    match a with
    | ⟨0, _⟩ =>
      show ((rowScatterDims N E F wf).start (ix2 e c) idx 0 + (rowScatterDims N E F wf).window (ix2 e c) 0).toNat = n.val
      rw [hs0, hw0, hn]; omega
    | ⟨1, _⟩ =>
      show ((rowScatterDims N E F wf).start (ix2 e c) idx 1 + (rowScatterDims N E F wf).window (ix2 e c) 1).toNat = c.val
      rw [hs1, hw1]; omega

/-- The host's accumulating scatter of rows at `(n, f)`: the operand there plus the sum over the rows naming `n` of
    their entry in column `f`. -/
theorem rowScatterAdd_apply {N E F w : Nat} (wf) (x : (⟨2, ![N, F]⟩ : Shape).Idx → EReal)
    (idx : IVec (⟨2, ![E, 1]⟩ : Shape) w) (u : (⟨2, ![E, F]⟩ : Shape).Idx → EReal) (n : Fin N) (f : Fin F) :
    Ideal.hostScatterAdd (rowScatterDims N E F wf) x idx u (ix2 n f)
      = x (ix2 n f) + ∑ e ∈ rowsAt idx n, u (ix2 e f) := by
  unfold Ideal.hostScatterAdd
  refine congrArg (x (ix2 n f) + ·) ?_
  symm
  refine Finset.sum_bij (fun e _ => ix2 e f) ?_ ?_ ?_ ?_
  · intro e he
    have he' := (Finset.mem_filter.mp he).2
    exact Finset.mem_filter.mpr ⟨Finset.mem_univ _, (rowScatter_lands_iff wf idx e f n f).mpr ⟨he', rfl⟩⟩
  · intro e _ e' _ h
    exact congrFun h 0
  · intro j hj
    have hj' := (Finset.mem_filter.mp hj).2
    rw [eq_ix2 j] at hj'
    obtain ⟨h0, h1⟩ := (rowScatter_lands_iff wf idx (j 0) (j 1) n f).mp hj'
    refine ⟨j 0, Finset.mem_filter.mpr ⟨Finset.mem_univ _, h0⟩, ?_⟩
    rw [eq_ix2 j]
    exact congrArg (ix2 (j 0)) h1.symm
  · intro e _
    rfl

end Cert.RowIndexing

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibPlainHostDot.lean ====
/-
  A plain matrix product on the host, read at an index.

  The host's `dot_general` of an `R × n` matrix with an `n × k` matrix, contracting the shared axis and nothing batched,
  is at `(q, o)` the sum over the shared axis of the products of the entries, on the extended reals.
-/
import proofs.«123699_j87308095193388_2_alg».proof.Proof.LibPlainMatmul

noncomputable section

namespace Cert.PointConv

open Idealize.ShloMosaic Idealize.ShloMosaic.ValueIdx

/-- A host product of an `R × n` by an `n × k` matrix, at `(q, o)`: the sum over the shared axis. -/
theorem plainHostDot_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    Host.dotGeneral (plainDims R n k wf) prec A B (ix2 q o) = ∑ c : Fin n, A (ix2 q c) * B (ix2 c o) := by
  simp only [Host.dotGeneral]
  rw [Ideal.dotGeneral_apply, ← Equiv.sum_comp (plainContr wf).symm]
  refine Finset.sum_congr rfl fun c _ => ?_
  rw [plainDims_lhsIdx, plainDims_rhsIdx]

end Cert.PointConv

end
-- ==== Proof.LayerRead.lean ====
/-
  One layer read entry by entry: the kernel's arrangement and the reference's are the same array.

  Entry `(n, o)` of a relation's convolution is `(Σ k, agg (n, k) · W (k, o)) · nd n + b o`, where `agg (n, k)` adds up,
  over the edges landing on node `n`, the source node's feature `k` times the source node's norm.  The kernel gathers the
  features and the norms separately and multiplies afterwards: the same entries, since a gather reads whole rows and
  both gathers clamp the same index in the same way.  It scales the aggregate by `nd n` before the product; a real factor
  moves across the product's finite sum of reals.  Its dense stage adds the three relations' products and biases in a
  chain, the reference adds three finished convolutions to a zero matrix: the same total.
-/
import proofs.«123699_j87308095193388_2_alg».proof.Proof.Spec
import proofs.«123699_j87308095193388_2_alg».proof.Proof.SpecK
import proofs.«123699_j87308095193388_2_alg».proof.Proof.DenseSpec
import proofs.«123699_j87308095193388_2_alg».proof.Proof.LibScaledRowDot
import proofs.«123699_j87308095193388_2_alg».proof.Proof.LibRowGather
import proofs.«123699_j87308095193388_2_alg».proof.Proof.LibRowScatterSum
import proofs.«123699_j87308095193388_2_alg».proof.Proof.LibPlainHostDot
import Idealize.ShloMosaic.Lib.Pipeline.Value
import Idealize.ShloMosaic.Lib.IdealHost
import Idealize.ShloMosaic.PureOps.Ideal.Laws

noncomputable section

namespace Cert.HeteroBridge

open Idealize.ShloMosaic Idealize.ShloMosaic.ValueIdx Cert.HeteroSpec Cert.HeteroSpecK Cert.HeteroLayer Cert.HeteroAlgebra
  Cert.GcnAlgebra Cert.RowIndexing Cert.PointConv

variable [Cert.KernelIdeal.Facts] [Cert.ReferenceIdeal.Facts]

/-! ## The layout pieces at an entry -/

theorem zerosNF_apply (i : Cert.ReferenceIdeal.S100000x256.Idx) : zerosNF i = 0 := by
  unfold zerosNF zeroScalar
  rw [broadcastInDim_scalar_apply]
  exact Ideal.ofBits_zero_f32

/-- A per-node factor spread over the node's row reads the node's factor. -/
theorem rowScale_apply (v : FVec Ideal Cert.ReferenceIdeal.S100000 .f32) (n : Fin 100000) (f : Fin 256) :
    rowScale v (ix2 n f) = v (ix1 n) := by
  unfold rowScale
  refine (broadcastInDim_apply _ _ _ (ix2 n f) (ix2 n (0 : Fin 1)) fun a => ?_).trans
    (broadcastInDim_apply _ _ _ (ix2 n (0 : Fin 1)) (ix1 n) fun a => ?_)
  · match a with
    | ⟨0, _⟩ => rfl
    | ⟨1, _⟩ => rfl
  · match a with
    | ⟨0, _⟩ => rfl

/-- A bias vector as a row, spread over the nodes, reads the vector's entry of the column. -/
theorem biasRows_apply (b : FVec Ideal Cert.ReferenceIdeal.S256 .f32) (n : Fin 100000) (o : Fin 256) :
    broadcastInDim Cert.ReferenceIdeal.S100000x256 ![0, 1] Cert.ReferenceIdeal.Facts₀.bcast_S1x256_S100000x256_0_1 (bRow b) (ix2 n o)
      = bRow b (ix2 (0 : Fin 1) o) := by
  refine broadcastInDim_apply _ _ _ (ix2 n o) (ix2 (0 : Fin 1) o) fun a => ?_
  match a with
  | ⟨0, _⟩ => rfl
  | ⟨1, _⟩ => rfl

/-- Every entry of a spread factor is an entry of the factor. -/
theorem rowScale_isFin (v : FVec Ideal Cert.ReferenceIdeal.S100000 .f32) (hv : ∀ i, IsFin (v i))
    (j : Cert.ReferenceIdeal.S100000x256.Idx) : IsFin (rowScale v j) := by
  unfold rowScale broadcastInDim
  exact hv _

/-- A bias row reads the bias vector. -/
theorem bRow_isFin (b : FVec Ideal Cert.ReferenceIdeal.S256 .f32) (hb : ∀ i, IsFin (b i)) (j : Cert.ReferenceIdeal.S1x256.Idx) :
    IsFin (bRow b j) := by
  unfold bRow broadcastInDim
  exact hb _

/-- An index vector spread to a column and then over a row's width reads the vector's entry of the row. -/
theorem colSpread_apply {α : Type} {a b : ℕ} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α) (p : Fin a) (q : Fin b) :
    broadcastInDim ⟨2, ![a, b]⟩ ![0, 1] h2 (broadcastInDim ⟨2, ![a, 1]⟩ ![0] h1 v) (ix2 p q) = v (ix1 p) := by
  refine (broadcastInDim_apply _ h2 _ (ix2 p q) (ix2 p (0 : Fin 1)) fun ax => ?_).trans
    (broadcastInDim_apply _ h1 _ (ix2 p (0 : Fin 1)) (ix1 p) fun ax => ?_)
  · match ax with
    | ⟨0, _⟩ =>
      show p.val = if a = 1 then 0 else p.val
      split
      · have := p.isLt; omega
      · rfl
    | ⟨1, _⟩ => rfl
  · match ax with
    | ⟨0, _⟩ =>
      show p.val = if a = 1 then 0 else p.val
      split
      · have := p.isLt; omega
      · rfl

/-! ## The gathered rows: scaled before the gather or after it -/

/-- Gathering the features and the norms separately and multiplying the gathered rows is gathering the scaled features:
    both gathers read the row the same clamped index names. -/
theorem edgeRows_eq (X : FVec Ideal Cert.KernelIdeal.S100000x256 .f32) (ns : FVec Ideal Cert.KernelIdeal.S100000 .f32)
    (s : IVec Cert.KernelIdeal.S400000 32) :
    edgeRows X ns s
      = Host.gather Cert.ReferenceIdeal.gather_S100000x256_S400000x1_S400000x256_1_0_n_n_0_1_1256 (mulf X (rowScale ns)) (col (fixIdx s)) := by
  funext j
  obtain ⟨e, f, rfl⟩ : ∃ (e : Fin 400000) (f : Fin 256), j = ix2 e f := ⟨j 0, j 1, eq_ix2 j⟩
  unfold edgeRows
  show Host.gather (rowGatherDims 100000 400000 256 Cert.KernelIdeal.Facts₀.gather_S100000x256_S400000x1_S400000x256_1_0_n_n_0_1_1256_wf)
        X (col (fixIdx s)) (ix2 e f)
      * broadcastInDim (⟨2, ![400000, 256]⟩ : Shape) ![0, 1] Cert.KernelIdeal.Facts₀.bcast_S400000x1_S400000x256_0_1
          (broadcastInDim (⟨2, ![400000, 1]⟩ : Shape) ![0] Cert.KernelIdeal.Facts₀.bcast_S400000_S400000x1_0
            (Host.gather (vecGatherDims 100000 400000 Cert.KernelIdeal.Facts₀.gather_S100000_S400000x1_S400000_n_0_n_n_0_1_1_wf)
              ns (col (fixIdx s)))) (ix2 e f)
      = Host.gather (rowGatherDims 100000 400000 256 Cert.ReferenceIdeal.Facts₀.gather_S100000x256_S400000x1_S400000x256_1_0_n_n_0_1_1256_wf)
        (mulf X (rowScale ns)) (col (fixIdx s)) (ix2 e f)
  rw [rowGather_apply (by decide : 0 < 100000), rowGather_apply (by decide : 0 < 100000), colSpread_apply,
    vecGather_apply (by decide : 0 < 100000)]
  show _ = X _ * rowScale ns (ix2 _ f)
  rw [rowScale_apply]

/-- The two programs' records of the row scatter are one record. -/
theorem scatterRows_eq :
    Cert.KernelIdeal.scatter_S100000x256_S400000x1_S400000x256_1_0_0_1
      = Cert.ReferenceIdeal.scatter_S100000x256_S400000x1_S400000x256_1_0_0_1 := rfl

/-- The kernel's aggregate is the reference's, each row scaled by the destination node's norm. -/
theorem aggK_eq (X : FVec Ideal Cert.KernelIdeal.S100000x256 .f32) (ns nd : FVec Ideal Cert.KernelIdeal.S100000 .f32)
    (s d : IVec Cert.KernelIdeal.S400000 32) :
    aggK X ns nd s d = mulf (aggR X ns s d) (rowScale nd) := by
  unfold aggK aggR
  rw [edgeRows_eq, scatterRows_eq]
  generalize Host.scatterAdd Cert.ReferenceIdeal.scatter_S100000x256_S400000x1_S400000x256_1_0_0_1 zerosNF (col d)
    (Host.gather Cert.ReferenceIdeal.gather_S100000x256_S400000x1_S400000x256_1_0_n_n_0_1_1256 (mulf X (rowScale ns)) (col (fixIdx s))) = A
  funext i
  exact Ideal.truncf_def (x := mulf A (rowScale nd) i) .bf16 _

/-! ## Real entries are kept by a gather, a pointwise product and a row scatter-add -/

/-- Every entry of a gather is an entry of the operand. -/
theorem gather_isFin {s si so : Shape} {w : Nat} (dims : GatherDims s si so) (x : s.Idx → EReal) (idx : IVec si w)
    (hx : ∀ i, IsFin (x i)) (j : so.Idx) : IsFin (Host.gather dims x idx j) := by
  unfold Host.gather
  exact hx _

/-- A pointwise product of real entries is real. -/
theorem mulf_isFin {s : Shape} {φ : FTy} (x y : FVec Ideal s φ) (hx : ∀ i, IsFin (x i)) (hy : ∀ i, IsFin (y i)) (i : s.Idx) :
    IsFin (mulf x y i) :=
  (hx i).mul (hy i)

/-- Rows of reals added up into an array of reals leave reals: each entry is the operand's plus a finite sum. -/
theorem rowScatterAdd_isFin {N E F w : Nat} (wf) (x : FVec Ideal (⟨2, ![N, F]⟩ : Shape) .f32) (idx : IVec (⟨2, ![E, 1]⟩ : Shape) w)
    (u : FVec Ideal (⟨2, ![E, F]⟩ : Shape) .f32) (hx : ∀ i, IsFin (x i)) (hu : ∀ j, IsFin (u j))
    (i : (⟨2, ![N, F]⟩ : Shape).Idx) :
    IsFin (Host.scatterAdd (F := Ideal) (φ := .f32) (rowScatterDims N E F wf) x idx u i) := by
  obtain ⟨n, f, rfl⟩ : ∃ (n : Fin N) (f : Fin F), i = ix2 n f := ⟨i 0, i 1, eq_ix2 i⟩
  show IsFin (Ideal.hostScatterAdd (rowScatterDims N E F wf) x idx u (ix2 n f))
  rw [rowScatterAdd_apply]
  exact (hx _).add (IsFin.sum _ _ fun e => hu _)

theorem zerosNF_isFin (i : Cert.ReferenceIdeal.S100000x256.Idx) : IsFin (zerosNF i) := by
  rw [zerosNF_apply]; exact IsFin.zero

/-- The aggregate of real features under real norms is real: a finite sum of products of reals on top of zero. -/
theorem aggR_isFin (X : FVec Ideal Cert.ReferenceIdeal.S100000x256 .f32) (ns : FVec Ideal Cert.ReferenceIdeal.S100000 .f32)
    (s d : IVec Cert.ReferenceIdeal.S400000 32) (hX : ∀ i, IsFin (X i)) (hns : ∀ i, IsFin (ns i))
    (i : Cert.ReferenceIdeal.S100000x256.Idx) : IsFin (aggR X ns s d i) := by
  unfold aggR
  exact rowScatterAdd_isFin Cert.ReferenceIdeal.Facts₀.scatter_S100000x256_S400000x1_S400000x256_1_0_0_1_wf zerosNF (col d) _
    zerosNF_isFin
    (gather_isFin _ _ _ (mulf_isFin X (rowScale ns) hX (rowScale_isFin ns hns))) i

/-! ## One relation's convolution at an entry -/

/-- A product of a real aggregate with real weights, scaled by a real node factor afterwards, plus a bias row, at
    `(n, o)`: the product of the aggregate scaled BEFOREHAND, plus the bias. Stated over any aggregate. -/
theorem conv_entry (Agg : FVec Ideal Cert.ReferenceIdeal.S100000x256 .f32) (nd : FVec Ideal Cert.ReferenceIdeal.S100000 .f32)
    (W : FVec Ideal Cert.ReferenceIdeal.S256x256 .f32) (b : FVec Ideal Cert.ReferenceIdeal.S256 .f32)
    (hAgg : ∀ i, IsFin (Agg i)) (hnd : ∀ i, IsFin (nd i)) (hW : ∀ i, IsFin (W i)) (n : Fin 100000) (o : Fin 256) :
    addf (mulf (Host.dotGeneral Cert.ReferenceIdeal.dot_S100000x256_S256x256_S100000x256_1_0_0_1_n_n none Agg W) (rowScale nd))
        (broadcastInDim Cert.ReferenceIdeal.S100000x256 ![0, 1] Cert.ReferenceIdeal.Facts₀.bcast_S1x256_S100000x256_0_1 (bRow b)) (ix2 n o)
      = rowDot (mulf Agg (rowScale nd)) W n o + bRow b (ix2 (0 : Fin 1) o) := by
  show Host.dotGeneral (plainDims 100000 256 256 Cert.ReferenceIdeal.Facts₀.dot_S100000x256_S256x256_S100000x256_1_0_0_1_n_n_wf) none
        Agg W (ix2 n o) * rowScale nd (ix2 n o)
      + broadcastInDim Cert.ReferenceIdeal.S100000x256 ![0, 1] Cert.ReferenceIdeal.Facts₀.bcast_S1x256_S100000x256_0_1 (bRow b) (ix2 n o) = _
  rw [plainHostDot_apply, rowScale_apply, biasRows_apply]
  refine congrArg (· + bRow b (ix2 (0 : Fin 1) o)) ?_
  unfold rowDot
  refine (scaled_rowDot (fun k => Agg (ix2 n k)) (fun k => W (ix2 k o)) (nd (ix1 n))
    (fun k => hAgg _) (fun k => hW _) (hnd _)).symm.trans ?_
  refine Finset.sum_congr rfl fun k _ => ?_
  show _ = (Agg (ix2 n k) * rowScale nd (ix2 n k)) * W (ix2 k o)
  rw [rowScale_apply]

/-- The reference's convolution at `(n, o)` is the kernel's product of the scaled aggregate's row with the weight
    column, plus the bias: the destination norm moves across the product's sum. -/
theorem convR_apply (X : FVec Ideal Cert.ReferenceIdeal.S100000x256 .f32) (ns nd : FVec Ideal Cert.ReferenceIdeal.S100000 .f32)
    (s d : IVec Cert.ReferenceIdeal.S400000 32) (W : FVec Ideal Cert.ReferenceIdeal.S256x256 .f32)
    (b : FVec Ideal Cert.ReferenceIdeal.S256 .f32)
    (hX : ∀ i, IsFin (X i)) (hns : ∀ i, IsFin (ns i)) (hnd : ∀ i, IsFin (nd i)) (hW : ∀ i, IsFin (W i))
    (n : Fin 100000) (o : Fin 256) :
    convR X ns nd s d W b (ix2 n o) = rowDot (aggK X ns nd s d) W n o + bRow b (ix2 (0 : Fin 1) o) := by
  unfold convR
  rw [aggK_eq]
  exact conv_entry (aggR X ns s d) nd W b (aggR_isFin X ns s d hX hns) hnd hW n o

/-! ## A layer -/

/-- Four arrays added in a chain, at an entry. -/
theorem add3_apply {s : Shape} {φ : FTy} (z c0 c1 c2 : FVec Ideal s φ) (i : s.Idx) :
    addf (addf (addf z c0) c1) c2 i = ((z i + c0 i) + c1 i) + c2 i := rfl

/-- The dense stage without its clamp, at an entry. -/
theorem dense_false_apply (A0 A1 A2 : (⟨2, ![100000, 256]⟩ : Shape).Idx → EReal) (W0 W1 W2 : (⟨2, ![256, 256]⟩ : Shape).Idx → EReal)
    (b0 b1 b2 : (⟨2, ![1, 256]⟩ : Shape).Idx → EReal) (n : Fin 100000) (o : Fin 256) :
    dense false A0 A1 A2 W0 W1 W2 b0 b1 b2 (ix2 n o)
      = ((((rowDot A0 W0 n o + b0 (ix2 (0 : Fin 1) o)) + rowDot A1 W1 n o) + b1 (ix2 (0 : Fin 1) o)) + rowDot A2 W2 n o)
        + b2 (ix2 (0 : Fin 1) o) := rfl

/-- The kernel's dense stage over its three scaled aggregates is the reference's layer. -/
theorem layer_bridge (X : FVec Ideal Cert.ReferenceIdeal.S100000x256 .f32) (hX : ∀ i, IsFin (X i))
    (ns0 nd0 ns1 nd1 ns2 nd2 : FVec Ideal Cert.ReferenceIdeal.S100000 .f32)
    (hns0 : ∀ i, IsFin (ns0 i)) (hnd0 : ∀ i, IsFin (nd0 i)) (hns1 : ∀ i, IsFin (ns1 i)) (hnd1 : ∀ i, IsFin (nd1 i))
    (hns2 : ∀ i, IsFin (ns2 i)) (hnd2 : ∀ i, IsFin (nd2 i))
    (s0 d0 s1 d1 s2 d2 : IVec Cert.ReferenceIdeal.S400000 32)
    (W0 W1 W2 : FVec Ideal Cert.ReferenceIdeal.S256x256 .f32) (hW0 : ∀ i, IsFin (W0 i)) (hW1 : ∀ i, IsFin (W1 i)) (hW2 : ∀ i, IsFin (W2 i))
    (b0 b1 b2 : FVec Ideal Cert.ReferenceIdeal.S256 .f32) :
    dense false (aggK X ns0 nd0 s0 d0) (aggK X ns1 nd1 s1 d1) (aggK X ns2 nd2 s2 d2) W0 W1 W2 (bRow b0) (bRow b1) (bRow b2)
      = layerR X ns0 nd0 s0 d0 W0 b0 ns1 nd1 s1 d1 W1 b1 ns2 nd2 s2 d2 W2 b2 := by
  funext i
  obtain ⟨n, o, rfl⟩ : ∃ (n : Fin 100000) (o : Fin 256), i = ix2 n o := ⟨i 0, i 1, eq_ix2 i⟩
  unfold layerR
  rw [dense_false_apply, add3_apply, convR_apply X ns0 nd0 s0 d0 W0 b0 hX hns0 hnd0 hW0,
    convR_apply X ns1 nd1 s1 d1 W1 b1 hX hns1 hnd1 hW1, convR_apply X ns2 nd2 s2 d2 W2 b2 hX hns2 hnd2 hW2, zerosNF_apply]
  exact regroup _ _ _ _ _ _

/-- The kernel's scaled aggregate of real data is real. -/
theorem aggK_isFin (X : FVec Ideal Cert.ReferenceIdeal.S100000x256 .f32) (ns nd : FVec Ideal Cert.ReferenceIdeal.S100000 .f32)
    (s d : IVec Cert.ReferenceIdeal.S400000 32) (hX : ∀ i, IsFin (X i)) (hns : ∀ i, IsFin (ns i)) (hnd : ∀ i, IsFin (nd i))
    (i : Cert.ReferenceIdeal.S100000x256.Idx) : IsFin (aggK X ns nd s d i) := by
  rw [aggK_eq]
  exact mulf_isFin _ _ (aggR_isFin X ns s d hX hns) (rowScale_isFin nd hnd) i

/-- A row product of real entries is real. -/
theorem rowDot_isFin (A : (⟨2, ![100000, 256]⟩ : Shape).Idx → EReal) (W : (⟨2, ![256, 256]⟩ : Shape).Idx → EReal)
    (hA : ∀ i, IsFin (A i)) (hW : ∀ i, IsFin (W i)) (n : Fin 100000) (o : Fin 256) : IsFin (rowDot A W n o) := by
  unfold rowDot
  exact isFin_rowDot _ _ (fun k => hA _) (fun k => hW _)

/-- A layer of real data is real at every entry. -/
theorem layerR_isFin (X : FVec Ideal Cert.ReferenceIdeal.S100000x256 .f32) (hX : ∀ i, IsFin (X i))
    (ns0 nd0 ns1 nd1 ns2 nd2 : FVec Ideal Cert.ReferenceIdeal.S100000 .f32)
    (hns0 : ∀ i, IsFin (ns0 i)) (hnd0 : ∀ i, IsFin (nd0 i)) (hns1 : ∀ i, IsFin (ns1 i)) (hnd1 : ∀ i, IsFin (nd1 i))
    (hns2 : ∀ i, IsFin (ns2 i)) (hnd2 : ∀ i, IsFin (nd2 i))
    (s0 d0 s1 d1 s2 d2 : IVec Cert.ReferenceIdeal.S400000 32)
    (W0 W1 W2 : FVec Ideal Cert.ReferenceIdeal.S256x256 .f32) (hW0 : ∀ i, IsFin (W0 i)) (hW1 : ∀ i, IsFin (W1 i)) (hW2 : ∀ i, IsFin (W2 i))
    (b0 b1 b2 : FVec Ideal Cert.ReferenceIdeal.S256 .f32) (hb0 : ∀ i, IsFin (b0 i)) (hb1 : ∀ i, IsFin (b1 i)) (hb2 : ∀ i, IsFin (b2 i))
    (i : Cert.ReferenceIdeal.S100000x256.Idx) :
    IsFin (layerR X ns0 nd0 s0 d0 W0 b0 ns1 nd1 s1 d1 W1 b1 ns2 nd2 s2 d2 W2 b2 i) := by
  obtain ⟨n, o, rfl⟩ : ∃ (n : Fin 100000) (o : Fin 256), i = ix2 n o := ⟨i 0, i 1, eq_ix2 i⟩
  unfold layerR
  rw [add3_apply, convR_apply X ns0 nd0 s0 d0 W0 b0 hX hns0 hnd0 hW0,
    convR_apply X ns1 nd1 s1 d1 W1 b1 hX hns1 hnd1 hW1, convR_apply X ns2 nd2 s2 d2 W2 b2 hX hns2 hnd2 hW2, zerosNF_apply]
  exact ((IsFin.zero.add ((rowDot_isFin _ _ (aggK_isFin X ns0 nd0 s0 d0 hX hns0 hnd0) hW0 n o).add (bRow_isFin b0 hb0 _))).add
    ((rowDot_isFin _ _ (aggK_isFin X ns1 nd1 s1 d1 hX hns1 hnd1) hW1 n o).add (bRow_isFin b1 hb1 _))).add
    ((rowDot_isFin _ _ (aggK_isFin X ns2 nd2 s2 d2 hX hns2 hnd2) hW2 n o).add (bRow_isFin b2 hb2 _))

/-! ## The clamp between the layers -/

/-- The dense stage with its clamp is the clamp of the dense stage. -/
theorem dense_true_eq (A0 A1 A2 : Cert.ReferenceIdeal.S100000x256.Idx → EReal) (W0 W1 W2 : Cert.ReferenceIdeal.S256x256.Idx → EReal)
    (b0 b1 b2 : Cert.ReferenceIdeal.S1x256.Idx → EReal) :
    dense true A0 A1 A2 W0 W1 W2 b0 b1 b2 = reluR (dense false A0 A1 A2 W0 W1 W2 b0 b1 b2) := by
  funext i
  unfold reluR
  show max _ 0 = max _ (zerosNF i)
  rw [zerosNF_apply]
  rfl

theorem reluR_isFin (X : FVec Ideal Cert.ReferenceIdeal.S100000x256 .f32) (hX : ∀ i, IsFin (X i))
    (i : Cert.ReferenceIdeal.S100000x256.Idx) : IsFin (reluR X i) := by
  unfold reluR
  show IsFin (max (X i) (zerosNF i))
  rw [zerosNF_apply]
  exact (hX i).max IsFin.zero

end Cert.HeteroBridge

end
-- ==== Proof.LibMeanAggregate.lean ====
/-
  Neighbourhood sums and clamped degrees of an edge list, read at an entry, over the extended reals.

  An edge list gives every edge a source row and a destination row.  Gathering the rows of a matrix at the sources and
  adding them up at the destinations leaves, at `(n, f)`, the start value there plus the sum over the edges whose
  destination is `n` of entry `f` of the edge's source row.  Scattering ones at the destinations into zeros counts
  the edges landing on each node; the count clamped below by one is a real number that is at least one.
  Everything here is stated over abstract sizes and arrays: nothing is evaluated.
-/
import proofs.«123699_j87308095193388_2_alg».proof.Proof.LibRowScatterSum
import proofs.«123699_j87308095193388_2_alg».proof.Proof.LibGcnLayer
import Idealize.ShloMosaic.PureOps.Ideal
import Idealize.ShloMosaic.PureOps.Contract

noncomputable section

namespace Cert.RowIndexing

open Idealize.ShloMosaic Idealize.ShloMosaic.ValueIdx Cert.GcnAlgebra

/-- Rows gathered at the sources, added up at the destinations, at `(n, f)`. -/
theorem rowAggregate_apply {N E F w : Nat} (wfS) (wfG) (hN : 0 < N) (z : FVec Ideal (⟨2, ![N, F]⟩ : Shape) .f32)
    (dst src : IVec (⟨2, ![E, 1]⟩ : Shape) w) (Y : (⟨2, ![N, F]⟩ : Shape).Idx → EReal) (n : Fin N) (f : Fin F) :
    Host.scatterAdd (F := Ideal) (φ := .f32) (rowScatterDims N E F wfS) z dst
        (Host.gather (rowGatherDims N E F wfG) Y src) (ix2 n f)
      = z (ix2 n f) + ∑ e ∈ rowsAt dst n, Y (ix2 (clampRow hN src e) f) := by
  show Ideal.hostScatterAdd (rowScatterDims N E F wfS) z dst (Host.gather (rowGatherDims N E F wfG) Y src) (ix2 n f) = _
  rw [rowScatterAdd_apply]
  exact congrArg (z (ix2 n f) + ·) (Finset.sum_congr rfl fun e _ => rowGather_apply hN wfG Y src e f)

/-- A count of ones, clamped below by one, is a real number that is at least one (the count itself never matters). -/
theorem clamped_count_real {T : Type} (S : Finset T) :
    ∃ r : ℝ, 1 ≤ r ∧ max ((0 : EReal) + ∑ _j ∈ S, (1 : EReal)) 1 = (r : EReal) := by
  obtain ⟨r, hr⟩ := IsFin.max (IsFin.add IsFin.zero (IsFin.sum S (fun _ => (1 : EReal)) fun _ => IsFin.one)) IsFin.one
  refine ⟨r, ?_, hr⟩
  have h1 : (1 : EReal) ≤ (r : EReal) := hr ▸ le_max_right _ _
  exact_mod_cast h1

/-- Ones scattered (by any scatter) into zeros, clamped below by one: at every entry a real number at least one. -/
theorem clampedScatterOnes_real {s si su : Shape} (d : ScatterDims s si su) {w : Nat} (idx : IVec si w)
    (z : FVec Ideal s .f32) (u : FVec Ideal su .f32) (o : FVec Ideal s .f32)
    (hz : ∀ i, z i = 0) (hu : ∀ j, u j = 1) (ho : ∀ i, o i = 1) (i : s.Idx) :
    ∃ r : ℝ, 1 ≤ r ∧ maximumf (Host.scatterAdd (F := Ideal) (φ := .f32) d z idx u) o i = (r : EReal) := by
  show ∃ r : ℝ, 1 ≤ r ∧ max (z i + ∑ j ∈ Finset.univ.filter (fun j => d.resultIdx? j idx = some i), u j) (o i) = (r : EReal)
  rw [hz i, ho i, Finset.sum_congr rfl fun j _ => hu j]
  exact clamped_count_real _

end Cert.RowIndexing

end
-- ==== Proof.Norms.lean ====
/-
  The degree norm is a real number at every node.

  A node's degree is a count of ones; clamped below by one it is a real number `r ≥ 1`, so its square root is a positive
  real and `1 / sqrt r` a real.  Where the degree is not positive the norm is `0`.
-/
import proofs.«123699_j87308095193388_2_alg».proof.Proof.Spec
import proofs.«123699_j87308095193388_2_alg».proof.Proof.LibMeanAggregate
import Idealize.ShloMosaic.Lib.IdealHost
import Idealize.ShloMosaic.PureOps.Ideal.Laws

set_option maxRecDepth 16384

noncomputable section

namespace Cert.HeteroNorms

open Idealize.ShloMosaic Idealize.ShloMosaic.ValueIdx Cert.HeteroSpec Cert.GcnAlgebra Cert.RowIndexing

variable [Cert.ReferenceIdeal.Facts]

/-- The pattern 0x3F800000 denotes one. -/
theorem one_bits : Ideal.ofBits .f32 0x3F800000#32 = 1 := Ideal.ofBits_one_f32

theorem zeroScalar_apply (k : Cert.ReferenceIdeal.S_.Idx) : zeroScalar k = 0 := Ideal.ofBits_zero_f32
theorem oneScalar_apply (k : Cert.ReferenceIdeal.S_.Idx) : oneScalar k = 1 := one_bits

theorem zerosN_apply (j : Cert.ReferenceIdeal.S100000.Idx) : zerosN j = 0 :=
  (broadcastInDim_scalar_apply _ _ j).trans (zeroScalar_apply _)
theorem onesN_apply (j : Cert.ReferenceIdeal.S100000.Idx) : onesN j = 1 :=
  (broadcastInDim_scalar_apply _ _ j).trans (oneScalar_apply _)
theorem onesE_apply (j : Cert.ReferenceIdeal.S400000.Idx) : onesE j = 1 :=
  (broadcastInDim_scalar_apply _ _ j).trans (oneScalar_apply _)

/-- A selection between two arrays is real where both are. -/
theorem isFin_select {s : Shape} (c : IVec s 1) (a b : s.Idx → EReal) (j : s.Idx) (ha : IsFin (a j)) (hb : IsFin (b j)) :
    IsFin (select c a b j) := by
  unfold select Scalar.select
  split <;> assumption

/-- The reciprocal square root of the clamped degree is real: the clamped degree is a real at least one. -/
theorem recipSqrt_isFin (i : IVec Cert.ReferenceIdeal.S400000 32) (j : Cert.ReferenceIdeal.S100000.Idx) :
    IsFin (Host.divf onesN (Host.sqrt (maximumf (deg i) onesN)) j) := by
  obtain ⟨r, hr1, hr⟩ := clampedScatterOnes_real Cert.ReferenceIdeal.scatter_S100000_S400000x1_S400000_n_0_0_1 (col i)
    zerosN onesE onesN zerosN_apply onesE_apply onesN_apply j
  have hd : maximumf (deg i) onesN j = (r : EReal) := hr
  have hpos : 0 < Real.sqrt r := Real.sqrt_pos.mpr (by linarith)
  simp only [Host.divf, Host.sqrt, Ideal.hostDivf_def, Ideal.hostUnary_sqrt_def]
  rw [hd, onesN_apply, Ideal.sqrt_coe, if_neg (by linarith), Ideal.div_coe hpos.ne']
  exact IsFin.one.mul (IsFin.coe _)

/-- The norm at a node: the reciprocal square root of a real at least one, or zero. -/
theorem nrm_isFin (i : IVec Cert.ReferenceIdeal.S400000 32) (j : Cert.ReferenceIdeal.S100000.Idx) : IsFin (nrm i j) := by
  unfold nrm
  exact isFin_select _ _ _ j (recipSqrt_isFin i j)
    (((broadcastInDim_scalar_apply _ _ j).trans (zeroScalar_apply _)) ▸ IsFin.zero)

end Cert.HeteroNorms

end
-- ==== Proof.RegionValue.lean ====
/-
  What each of the two pipelined regions leaves in its output array, as one function of the region's nine input arrays,
  over the extended reals.

  Each region walks the 100000 node rows in 25 blocks of 4000.  At a block it reads the block's rows of the three node
  arrays, the three whole 256 x 256 weight matrices and the three whole bias rows, and stores
  `((((A0 W0 + b0) + A1 W1) + b1) + A2 W2) + b2` for those rows, each product a sum over the shared axis started from
  zero; the first region clamps the total below by zero.  Row `p` of block `t` is node row `4000 t + p`, the blocks are
  the rows `4000 t … 4000 t + 3999` and together cover every row, so the output array ends holding the dense stage
  `Cert.HeteroLayer.dense` of the arrays the region found on entry.

  In order: the stored value read at one entry of a block (`stored0_apply`, `stored1_apply`); the same entry as the dense
  stage of arrays that the blocks are rows of (`stored0_dense`, `stored1_dense`); where the block indices of the ten
  windows sit at each of the 25 points (`block_indices0`, `block_indices1`); each input block's entry as an entry of its
  array; what a point writes back (`written0`, `written1`); the blocks cover the array (`covered0`, `covered1`); the
  arrays after the regions (`region0_value`, `region1_value`).
-/
import proofs.«123699_j87308095193388_2_alg».proof.Proof.Gen.KernelIdeal.Frame
import proofs.«123699_j87308095193388_2_alg».proof.Proof.DenseSpec
import proofs.«123699_j87308095193388_2_alg».proof.Proof.LibPlainMatmul
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open Cert.HeteroLayer

/-! ## The stored value at one entry of a block -/

/-- A product of a 4000 x 256 block by a 256 x 256 matrix accumulated into zero, at row `p` and column `q`. -/
theorem blockProduct_apply (A : FVec Ideal S4000x256 .bf16) (B : FVec Ideal S256x256 .bf16) (p : Fin 4000) (q : Fin 256) :
    matmul (F := Ideal) dot_S4000x256_S256x256_S4000x256_1_0_0_1_n_n none A B
        (constant (F := Ideal) S4000x256 .f32 0x00000000#32) (ix2 p q)
      = ∑ k : Fin 256, A (ix2 p k) * B (ix2 k q) :=
  Cert.PointConv.plainMatmul_zero_apply dot_S4000x256_S256x256_S4000x256_1_0_0_1_n_n.wf none A B p q

/-- A bias row spread over the 4000 rows of a block, at row `p` and column `q`, is the row's entry `q`. -/
theorem biasRows_apply (b : FVec Ideal S1x256 .f32) (p : Fin 4000) (q : Fin 256) :
    broadcastTo S4000x256 b broadcasts_S1x256_S4000x256 (ix2 p q) = b (ix2 (0 : Fin 1) q) :=
  broadcastTo_apply b broadcasts_S1x256_S4000x256 (ix2 p q) (ix2 (0 : Fin 1) q) fun a => by
    match a with
    | ⟨0, _⟩ => rfl
    | ⟨1, _⟩ => rfl

/-- The second region's stored value at row `p` and column `q` of a block: the three products and bias rows added in
    the stage's order. -/
theorem stored1_apply (x0 x1 x2 : Vec Ideal S4000x256 .bf16) (x3 x4 x5 : Vec Ideal S256x256 .bf16)
    (x6 x7 x8 : Vec Ideal S1x256 .f32) (p : Fin 4000) (q : Fin 256) :
    k1_pay1 (F := Ideal) x0 x3 x6 x1 x4 x7 x2 x5 x8 (ix2 p q)
      = (((((∑ k : Fin 256, x0 (ix2 p k) * x3 (ix2 k q)) + x6 (ix2 (0 : Fin 1) q))
            + ∑ k : Fin 256, x1 (ix2 p k) * x4 (ix2 k q)) + x7 (ix2 (0 : Fin 1) q))
          + ∑ k : Fin 256, x2 (ix2 p k) * x5 (ix2 k q)) + x8 (ix2 (0 : Fin 1) q) := by
  unfold k1_pay1
  simp only [shapeCast_self, addf_apply]
  rw [blockProduct_apply, blockProduct_apply, blockProduct_apply, biasRows_apply, biasRows_apply, biasRows_apply]

/-- The first region's stored value there: the same total clamped below by zero. -/
theorem stored0_apply (x0 x1 x2 : Vec Ideal S4000x256 .bf16) (x3 x4 x5 : Vec Ideal S256x256 .bf16)
    (x6 x7 x8 : Vec Ideal S1x256 .f32) (p : Fin 4000) (q : Fin 256) :
    k0_pay1 (F := Ideal) x0 x3 x6 x1 x4 x7 x2 x5 x8 (ix2 p q)
      = max ((((((∑ k : Fin 256, x0 (ix2 p k) * x3 (ix2 k q)) + x6 (ix2 (0 : Fin 1) q))
            + ∑ k : Fin 256, x1 (ix2 p k) * x4 (ix2 k q)) + x7 (ix2 (0 : Fin 1) q))
          + ∑ k : Fin 256, x2 (ix2 p k) * x5 (ix2 k q)) + x8 (ix2 (0 : Fin 1) q)) 0 := by
  unfold k0_pay1
  simp only [shapeCast_self, addf_apply, maximumf_apply, broadcast_apply]
  rw [blockProduct_apply, blockProduct_apply, blockProduct_apply, biasRows_apply, biasRows_apply, biasRows_apply]
  show max _ (Ideal.ofBits .f32 0x00000000#32) = _
  rw [Ideal.ofBits_zero_f32]

/-- The whole-buffer rectangle's offsets are zero. -/
theorem zeroOffsets : (![0, 0] : Fin 2 → Nat) = fun _ => 0 := funext fun a => by fin_cases a <;> rfl

-- the TensorCore's buffer contents when a region is entered
variable (V : (c : Dev nD) → (b : Ref sig .tc) → Buf (Elt Ideal) ((c : Thread nD τ).loc b))

/-! ## Region 0: a stored entry as the dense stage of arrays that the blocks are rows of -/

/-- If row `p` of each node block is row `n` of its array, the weight blocks agree with the weight arrays on column `q`
    and the bias blocks with the bias rows at `q`, then the stored value at `(p, q)` is the dense stage at `(n, q)`. -/
theorem stored0_dense (A0 A1 A2 : (⟨2, ![100000, 256]⟩ : Shape).Idx → EReal)
    (W0 W1 W2 : (⟨2, ![256, 256]⟩ : Shape).Idx → EReal) (b0 b1 b2 : (⟨2, ![1, 256]⟩ : Shape).Idx → EReal)
    (x0 x1 x2 : Vec Ideal S4000x256 .bf16) (x3 x4 x5 : Vec Ideal S256x256 .bf16) (x6 x7 x8 : Vec Ideal S1x256 .f32)
    (n : Fin 100000) (p : Fin 4000) (q : Fin 256)
    (h0 : ∀ k : Fin 256, x0 (ix2 p k) = A0 (ix2 n k)) (h1 : ∀ k : Fin 256, x1 (ix2 p k) = A1 (ix2 n k))
    (h2 : ∀ k : Fin 256, x2 (ix2 p k) = A2 (ix2 n k))
    (h3 : ∀ k : Fin 256, x3 (ix2 k q) = W0 (ix2 k q)) (h4 : ∀ k : Fin 256, x4 (ix2 k q) = W1 (ix2 k q))
    (h5 : ∀ k : Fin 256, x5 (ix2 k q) = W2 (ix2 k q))
    (h6 : x6 (ix2 (0 : Fin 1) q) = b0 (ix2 (0 : Fin 1) q)) (h7 : x7 (ix2 (0 : Fin 1) q) = b1 (ix2 (0 : Fin 1) q))
    (h8 : x8 (ix2 (0 : Fin 1) q) = b2 (ix2 (0 : Fin 1) q)) :
    k0_pay1 (F := Ideal) x0 x3 x6 x1 x4 x7 x2 x5 x8 (ix2 p q) = dense true A0 A1 A2 W0 W1 W2 b0 b1 b2 (ix2 n q) := by
  rw [stored0_apply, dense_apply, if_pos rfl]
  unfold denseAt rowDot
  simp only [h0, h1, h2, h3, h4, h5, h6, h7, h8]

/-! ## Region 0: where the windows' blocks sit, and each input block's entry as an entry of its array -/

/-- At point `t` the node windows and the output window are at block `(t, 0)` (decided over the 25 points). -/
theorem rowBlocks0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0 :=
  (by decide +kernel : ∀ t : Fin grid0.N, _)

/-- At every point the weight and bias windows are at block `(0, 0)`: their block is the whole array. -/
theorem wholeBlocks0 : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row `p` of node window 0's block at point `t` is row `4000 t + p` of its array. -/
theorem nodeRows0_0 (c : Dev nD) (t : Fin cfg0.N) (p : Fin 4000) (k : Fin 256) (n : Fin 100000)
    (hn : n.val = t.val * 4000 + p.val) :
    (iblk0 V c 0 t : Vec Ideal S4000x256 .bf16) (ix2 p k)
      = (V c (Pipeline.arrRef spec0 0) : (⟨2, ![100000, 256]⟩ : Shape).Idx → EReal) (ix2 n k) := by
  obtain ⟨e0, e1, -⟩ := rowBlocks0 t
  show V c (Pipeline.arrRef spec0 0) (((cfg0.win 0).blk t).view.emb (ix2 p k)) = V c (Pipeline.arrRef spec0 0) (ix2 n k)
  refine congrArg _ (funext fun a => Fin.ext ?_)
  match a with
  | ⟨0, _⟩ => show win0_0.index t (0 : Fin 2) * 4000 + 1 * p.val = n.val; omega
  | ⟨1, _⟩ => show win0_0.index t (1 : Fin 2) * 256 + 1 * k.val = k.val; omega

/-- Row `p` of node window 1's block at point `t` is row `4000 t + p` of its array. -/
theorem nodeRows0_1 (c : Dev nD) (t : Fin cfg0.N) (p : Fin 4000) (k : Fin 256) (n : Fin 100000)
    (hn : n.val = t.val * 4000 + p.val) :
    (iblk0 V c 1 t : Vec Ideal S4000x256 .bf16) (ix2 p k)
      = (V c (Pipeline.arrRef spec0 1) : (⟨2, ![100000, 256]⟩ : Shape).Idx → EReal) (ix2 n k) := by
  obtain ⟨-, -, e0, e1, -⟩ := rowBlocks0 t
  show V c (Pipeline.arrRef spec0 1) (((cfg0.win 1).blk t).view.emb (ix2 p k)) = V c (Pipeline.arrRef spec0 1) (ix2 n k)
  refine congrArg _ (funext fun a => Fin.ext ?_)
  match a with
  | ⟨0, _⟩ => show win0_1.index t (0 : Fin 2) * 4000 + 1 * p.val = n.val; omega
  | ⟨1, _⟩ => show win0_1.index t (1 : Fin 2) * 256 + 1 * k.val = k.val; omega

/-- Row `p` of node window 2's block at point `t` is row `4000 t + p` of its array. -/
theorem nodeRows0_2 (c : Dev nD) (t : Fin cfg0.N) (p : Fin 4000) (k : Fin 256) (n : Fin 100000)
    (hn : n.val = t.val * 4000 + p.val) :
    (iblk0 V c 2 t : Vec Ideal S4000x256 .bf16) (ix2 p k)
      = (V c (Pipeline.arrRef spec0 2) : (⟨2, ![100000, 256]⟩ : Shape).Idx → EReal) (ix2 n k) := by
  obtain ⟨-, -, -, -, e0, e1, -⟩ := rowBlocks0 t
  show V c (Pipeline.arrRef spec0 2) (((cfg0.win 2).blk t).view.emb (ix2 p k)) = V c (Pipeline.arrRef spec0 2) (ix2 n k)
  refine congrArg _ (funext fun a => Fin.ext ?_)
  match a with
  | ⟨0, _⟩ => show win0_2.index t (0 : Fin 2) * 4000 + 1 * p.val = n.val; omega
  | ⟨1, _⟩ => show win0_2.index t (1 : Fin 2) * 256 + 1 * k.val = k.val; omega

/-- Weight window 3's block at any point is its array. -/
theorem weights0_3 (c : Dev nD) (t : Fin cfg0.N) (k q : Fin 256) :
    (iblk0 V c 3 t : Vec Ideal S256x256 .bf16) (ix2 k q)
      = (V c (Pipeline.arrRef spec0 3) : (⟨2, ![256, 256]⟩ : Shape).Idx → EReal) (ix2 k q) := by
  obtain ⟨e0, e1, -⟩ := wholeBlocks0 t
  show V c (Pipeline.arrRef spec0 3) (((cfg0.win 3).blk t).view.emb (ix2 k q)) = V c (Pipeline.arrRef spec0 3) (ix2 k q)
  refine congrArg _ (funext fun a => Fin.ext ?_)
  match a with
  | ⟨0, _⟩ => show win0_3.index t (0 : Fin 2) * 256 + 1 * k.val = k.val; omega
  | ⟨1, _⟩ => show win0_3.index t (1 : Fin 2) * 256 + 1 * q.val = q.val; omega

/-- Weight window 4's block at any point is its array. -/
theorem weights0_4 (c : Dev nD) (t : Fin cfg0.N) (k q : Fin 256) :
    (iblk0 V c 4 t : Vec Ideal S256x256 .bf16) (ix2 k q)
      = (V c (Pipeline.arrRef spec0 4) : (⟨2, ![256, 256]⟩ : Shape).Idx → EReal) (ix2 k q) := by
  obtain ⟨-, -, e0, e1, -⟩ := wholeBlocks0 t
  show V c (Pipeline.arrRef spec0 4) (((cfg0.win 4).blk t).view.emb (ix2 k q)) = V c (Pipeline.arrRef spec0 4) (ix2 k q)
  refine congrArg _ (funext fun a => Fin.ext ?_)
  match a with
  | ⟨0, _⟩ => show win0_4.index t (0 : Fin 2) * 256 + 1 * k.val = k.val; omega
  | ⟨1, _⟩ => show win0_4.index t (1 : Fin 2) * 256 + 1 * q.val = q.val; omega

/-- Weight window 5's block at any point is its array. -/
theorem weights0_5 (c : Dev nD) (t : Fin cfg0.N) (k q : Fin 256) :
    (iblk0 V c 5 t : Vec Ideal S256x256 .bf16) (ix2 k q)
      = (V c (Pipeline.arrRef spec0 5) : (⟨2, ![256, 256]⟩ : Shape).Idx → EReal) (ix2 k q) := by
  obtain ⟨-, -, -, -, e0, e1, -⟩ := wholeBlocks0 t
  show V c (Pipeline.arrRef spec0 5) (((cfg0.win 5).blk t).view.emb (ix2 k q)) = V c (Pipeline.arrRef spec0 5) (ix2 k q)
  refine congrArg _ (funext fun a => Fin.ext ?_)
  match a with
  | ⟨0, _⟩ => show win0_5.index t (0 : Fin 2) * 256 + 1 * k.val = k.val; omega
  | ⟨1, _⟩ => show win0_5.index t (1 : Fin 2) * 256 + 1 * q.val = q.val; omega

/-- Bias window 6's block at any point is its row. -/
theorem bias0_6 (c : Dev nD) (t : Fin cfg0.N) (q : Fin 256) :
    (iblk0 V c 6 t : Vec Ideal S1x256 .f32) (ix2 (0 : Fin 1) q)
      = (V c (Pipeline.arrRef spec0 6) : (⟨2, ![1, 256]⟩ : Shape).Idx → EReal) (ix2 (0 : Fin 1) q) := by
  obtain ⟨-, -, -, -, -, -, e0, e1, -⟩ := wholeBlocks0 t
  show V c (Pipeline.arrRef spec0 6) (((cfg0.win 6).blk t).view.emb (ix2 (0 : Fin 1) q)) = V c (Pipeline.arrRef spec0 6) (ix2 (0 : Fin 1) q)
  refine congrArg _ (funext fun a => Fin.ext ?_)
  match a with
  | ⟨0, _⟩ => show win0_6.index t (0 : Fin 2) * 1 + 1 * 0 = 0; omega
  | ⟨1, _⟩ => show win0_6.index t (1 : Fin 2) * 256 + 1 * q.val = q.val; omega

/-- Bias window 7's block at any point is its row. -/
theorem bias0_7 (c : Dev nD) (t : Fin cfg0.N) (q : Fin 256) :
    (iblk0 V c 7 t : Vec Ideal S1x256 .f32) (ix2 (0 : Fin 1) q)
      = (V c (Pipeline.arrRef spec0 7) : (⟨2, ![1, 256]⟩ : Shape).Idx → EReal) (ix2 (0 : Fin 1) q) := by
  obtain ⟨-, -, -, -, -, -, -, -, e0, e1, -⟩ := wholeBlocks0 t
  show V c (Pipeline.arrRef spec0 7) (((cfg0.win 7).blk t).view.emb (ix2 (0 : Fin 1) q)) = V c (Pipeline.arrRef spec0 7) (ix2 (0 : Fin 1) q)
  refine congrArg _ (funext fun a => Fin.ext ?_)
  match a with
  | ⟨0, _⟩ => show win0_7.index t (0 : Fin 2) * 1 + 1 * 0 = 0; omega
  | ⟨1, _⟩ => show win0_7.index t (1 : Fin 2) * 256 + 1 * q.val = q.val; omega

/-- Bias window 8's block at any point is its row. -/
theorem bias0_8 (c : Dev nD) (t : Fin cfg0.N) (q : Fin 256) :
    (iblk0 V c 8 t : Vec Ideal S1x256 .f32) (ix2 (0 : Fin 1) q)
      = (V c (Pipeline.arrRef spec0 8) : (⟨2, ![1, 256]⟩ : Shape).Idx → EReal) (ix2 (0 : Fin 1) q) := by
  obtain ⟨-, -, -, -, -, -, -, -, -, -, e0, e1⟩ := wholeBlocks0 t
  show V c (Pipeline.arrRef spec0 8) (((cfg0.win 8).blk t).view.emb (ix2 (0 : Fin 1) q)) = V c (Pipeline.arrRef spec0 8) (ix2 (0 : Fin 1) q)
  refine congrArg _ (funext fun a => Fin.ext ?_)
  match a with
  | ⟨0, _⟩ => show win0_8.index t (0 : Fin 2) * 1 + 1 * 0 = 0; omega
  | ⟨1, _⟩ => show win0_8.index t (1 : Fin 2) * 256 + 1 * q.val = q.val; omega

/-! ## Region 0: what a point writes back, the cover, the array after the region -/

/-- The one store of the region's body, through the whole buffer, leaves the stored value of the loaded blocks. -/
theorem left0 (x0 x1 x2 : Vec Ideal S4000x256 .bf16) (x3 x4 x5 : Vec Ideal S256x256 .bf16)
    (x6 x7 x8 : Vec Ideal S1x256 .f32) :
    out0_9 (F := Ideal) x0 x1 x2 x3 x4 x5 x6 x7 x8 = k0_pay1 x0 x3 x6 x1 x4 x7 x2 x5 x8 := by
  unfold out0_9
  rw [View.canon_unit_zero zeroOffsets]
  simp only [View.ld_unit_zero (S := S4000x256) zeroOffsets, View.ld_unit_zero (S := S256x256) zeroOffsets,
    View.ld_unit_zero (S := S1x256) zeroOffsets]

/-- The dense stage, clamped below by zero, of the nine arrays the first region finds on entry. -/
abbrev entryDense0 (c : Dev nD) : (⟨2, ![100000, 256]⟩ : Shape).Idx → EReal :=
  dense true (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))
    (V c (Pipeline.arrRef spec0 6)) (V c (Pipeline.arrRef spec0 7)) (V c (Pipeline.arrRef spec0 8))

/-- What point `t` writes back to the output array is block `t` of the dense stage of the arrays on entry: entry
    `(p, q)` of the block is entry `(4000 t + p, q)` of the array. -/
theorem written0 (c : Dev nD) (t : Fin cfg0.N) :
    (dat0 (F := Ideal) V c).flushed 9 t = ((cfg0.win 9).blk t).view.read (Elt Ideal) (entryDense0 V c) := by
  funext j
  obtain ⟨-, -, -, -, -, -, e0, e1⟩ := rowBlocks0 t
  have hN : t.val < 25 := lt_of_lt_of_eq t.isLt N_0
  have hj0 : (j 0).val < 4000 := (j 0).isLt
  have hj1 : (j 1).val < 256 := (j 1).isLt
  have hx : (cfg0.win 9).xinj (grid0.coords t) j = ix2 (⟨(j 0).val, hj0⟩ : Fin 4000) (⟨(j 1).val, hj1⟩ : Fin 256) := by
    funext a
    match a with
    | ⟨0, _⟩ => rfl
    | ⟨1, _⟩ => rfl
  have hi : ((cfg0.win 9).blk t).view.emb j
      = ix2 (⟨t.val * 4000 + (j 0).val, by omega⟩ : Fin 100000) (⟨(j 1).val, hj1⟩ : Fin 256) := by
    funext a
    apply Fin.ext
    match a with
    | ⟨0, _⟩ => show win0_9.index t (0 : Fin 2) * 4000 + 1 * (j 0).val = t.val * 4000 + (j 0).val; omega
    | ⟨1, _⟩ => show win0_9.index t (1 : Fin 2) * 256 + 1 * (j 1).val = (j 1).val; omega
  refine (congrFun (after0_9 V c t) _).trans ?_
  refine (congrFun (left0 _ _ _ _ _ _ _ _ _) _).trans ?_
  refine (congrArg _ hx).trans ?_
  refine Eq.trans ?_ (congrArg (entryDense0 V c) hi.symm)
  exact stored0_dense _ _ _ _ _ _ _ _ _ (iblk0 V c 0 t) (iblk0 V c 1 t) (iblk0 V c 2 t) (iblk0 V c 3 t) (iblk0 V c 4 t)
    (iblk0 V c 5 t) (iblk0 V c 6 t) (iblk0 V c 7 t) (iblk0 V c 8 t) _ _ _
    (fun k => nodeRows0_0 V c t _ k _ rfl) (fun k => nodeRows0_1 V c t _ k _ rfl) (fun k => nodeRows0_2 V c t _ k _ rfl)
    (fun k => weights0_3 V c t k _) (fun k => weights0_4 V c t k _) (fun k => weights0_5 V c t k _)
    (bias0_6 V c t _) (bias0_7 V c t _) (bias0_8 V c t _)

/-- Every entry `(n, o)` of the output array is in the block of point `n / 4000`. -/
theorem covered0 (i : (⟨2, ![100000, 256]⟩ : Shape).Idx) :
    ∃ t : Fin cfg0.N, (cfg0.win 9).flush t = true ∧ i ∈ ((cfg0.win 9).blk t).view.set := by
  have hi0 : (i 0).val < 100000 := (i 0).isLt
  have hi1 : (i 1).val < 256 := (i 1).isLt
  obtain ⟨t, ht⟩ : ∃ t : Fin cfg0.N, t.val = (i 0).val / 4000 :=
    ⟨⟨(i 0).val / 4000, by rw [show cfg0.N = 25 from N_0]; omega⟩, rfl⟩
  obtain ⟨-, -, -, -, -, -, e0, e1⟩ := rowBlocks0 t
  refine ⟨t, flush0_9 t, ?_⟩
  show i ∈ ((View.whole main_v182).slice (win0_9.rect t)).set
  rw [View.set_slice_whole, Rect.mem_set_unit]
  intro a
  match a with
  | ⟨0, _⟩ =>
    show win0_9.index t (0 : Fin 2) * 4000 ≤ (i 0).val ∧ (i 0).val < win0_9.index t (0 : Fin 2) * 4000 + 4000
    omega
  | ⟨1, _⟩ =>
    show win0_9.index t (1 : Fin 2) * 256 ≤ (i 1).val ∧ (i 1).val < win0_9.index t (1 : Fin 2) * 256 + 256
    omega

/-- THE FIRST REGION'S OUTPUT ARRAY after the region: the dense stage, clamped below by zero, of the nine arrays the
    region found on entry. -/
theorem region0_value (c : Dev nD) :
    (dat0 (F := Ideal) V c).arrAt 9 cfg0.N
      = dense true (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7)) (V c (Pipeline.arrRef spec0 8)) :=
  (dat0 V c).arrAt_eq_of_cover 9 (entryDense0 V c) (fun t _ => written0 V c t) covered0

/-! ## Region 1: a stored entry as the dense stage of arrays that the blocks are rows of -/

/-- If row `p` of each node block is row `n` of its array, the weight blocks agree with the weight arrays on column `q`
    and the bias blocks with the bias rows at `q`, then the stored value at `(p, q)` is the dense stage at `(n, q)`. -/
theorem stored1_dense (A0 A1 A2 : (⟨2, ![100000, 256]⟩ : Shape).Idx → EReal)
    (W0 W1 W2 : (⟨2, ![256, 256]⟩ : Shape).Idx → EReal) (b0 b1 b2 : (⟨2, ![1, 256]⟩ : Shape).Idx → EReal)
    (x0 x1 x2 : Vec Ideal S4000x256 .bf16) (x3 x4 x5 : Vec Ideal S256x256 .bf16) (x6 x7 x8 : Vec Ideal S1x256 .f32)
    (n : Fin 100000) (p : Fin 4000) (q : Fin 256)
    (h0 : ∀ k : Fin 256, x0 (ix2 p k) = A0 (ix2 n k)) (h1 : ∀ k : Fin 256, x1 (ix2 p k) = A1 (ix2 n k))
    (h2 : ∀ k : Fin 256, x2 (ix2 p k) = A2 (ix2 n k))
    (h3 : ∀ k : Fin 256, x3 (ix2 k q) = W0 (ix2 k q)) (h4 : ∀ k : Fin 256, x4 (ix2 k q) = W1 (ix2 k q))
    (h5 : ∀ k : Fin 256, x5 (ix2 k q) = W2 (ix2 k q))
    (h6 : x6 (ix2 (0 : Fin 1) q) = b0 (ix2 (0 : Fin 1) q)) (h7 : x7 (ix2 (0 : Fin 1) q) = b1 (ix2 (0 : Fin 1) q))
    (h8 : x8 (ix2 (0 : Fin 1) q) = b2 (ix2 (0 : Fin 1) q)) :
    k1_pay1 (F := Ideal) x0 x3 x6 x1 x4 x7 x2 x5 x8 (ix2 p q) = dense false A0 A1 A2 W0 W1 W2 b0 b1 b2 (ix2 n q) := by
  rw [stored1_apply, dense_apply, if_neg Bool.false_ne_true]
  unfold denseAt rowDot
  simp only [h0, h1, h2, h3, h4, h5, h6, h7, h8]

/-! ## Region 1: where the windows' blocks sit, and each input block's entry as an entry of its array -/

/-- At point `t` the node windows and the output window are at block `(t, 0)` (decided over the 25 points). -/
theorem rowBlocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_9.index t (0 : Fin 2) = t.val ∧ win1_9.index t (1 : Fin 2) = 0 :=
  (by decide +kernel : ∀ t : Fin grid1.N, _)

/-- At every point the weight and bias windows are at block `(0, 0)`: their block is the whole array. -/
theorem wholeBlocks1 : ∀ t : Fin cfg1.N, win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- Row `p` of node window 0's block at point `t` is row `4000 t + p` of its array. -/
theorem nodeRows1_0 (c : Dev nD) (t : Fin cfg1.N) (p : Fin 4000) (k : Fin 256) (n : Fin 100000)
    (hn : n.val = t.val * 4000 + p.val) :
    (iblk1 V c 0 t : Vec Ideal S4000x256 .bf16) (ix2 p k)
      = (V c (Pipeline.arrRef spec1 0) : (⟨2, ![100000, 256]⟩ : Shape).Idx → EReal) (ix2 n k) := by
  obtain ⟨e0, e1, -⟩ := rowBlocks1 t
  show V c (Pipeline.arrRef spec1 0) (((cfg1.win 0).blk t).view.emb (ix2 p k)) = V c (Pipeline.arrRef spec1 0) (ix2 n k)
  refine congrArg _ (funext fun a => Fin.ext ?_)
  match a with
  | ⟨0, _⟩ => show win1_0.index t (0 : Fin 2) * 4000 + 1 * p.val = n.val; omega
  | ⟨1, _⟩ => show win1_0.index t (1 : Fin 2) * 256 + 1 * k.val = k.val; omega

/-- Row `p` of node window 1's block at point `t` is row `4000 t + p` of its array. -/
theorem nodeRows1_1 (c : Dev nD) (t : Fin cfg1.N) (p : Fin 4000) (k : Fin 256) (n : Fin 100000)
    (hn : n.val = t.val * 4000 + p.val) :
    (iblk1 V c 1 t : Vec Ideal S4000x256 .bf16) (ix2 p k)
      = (V c (Pipeline.arrRef spec1 1) : (⟨2, ![100000, 256]⟩ : Shape).Idx → EReal) (ix2 n k) := by
  obtain ⟨-, -, e0, e1, -⟩ := rowBlocks1 t
  show V c (Pipeline.arrRef spec1 1) (((cfg1.win 1).blk t).view.emb (ix2 p k)) = V c (Pipeline.arrRef spec1 1) (ix2 n k)
  refine congrArg _ (funext fun a => Fin.ext ?_)
  match a with
  | ⟨0, _⟩ => show win1_1.index t (0 : Fin 2) * 4000 + 1 * p.val = n.val; omega
  | ⟨1, _⟩ => show win1_1.index t (1 : Fin 2) * 256 + 1 * k.val = k.val; omega

/-- Row `p` of node window 2's block at point `t` is row `4000 t + p` of its array. -/
theorem nodeRows1_2 (c : Dev nD) (t : Fin cfg1.N) (p : Fin 4000) (k : Fin 256) (n : Fin 100000)
    (hn : n.val = t.val * 4000 + p.val) :
    (iblk1 V c 2 t : Vec Ideal S4000x256 .bf16) (ix2 p k)
      = (V c (Pipeline.arrRef spec1 2) : (⟨2, ![100000, 256]⟩ : Shape).Idx → EReal) (ix2 n k) := by
  obtain ⟨-, -, -, -, e0, e1, -⟩ := rowBlocks1 t
  show V c (Pipeline.arrRef spec1 2) (((cfg1.win 2).blk t).view.emb (ix2 p k)) = V c (Pipeline.arrRef spec1 2) (ix2 n k)
  refine congrArg _ (funext fun a => Fin.ext ?_)
  match a with
  | ⟨0, _⟩ => show win1_2.index t (0 : Fin 2) * 4000 + 1 * p.val = n.val; omega
  | ⟨1, _⟩ => show win1_2.index t (1 : Fin 2) * 256 + 1 * k.val = k.val; omega

/-- Weight window 3's block at any point is its array. -/
theorem weights1_3 (c : Dev nD) (t : Fin cfg1.N) (k q : Fin 256) :
    (iblk1 V c 3 t : Vec Ideal S256x256 .bf16) (ix2 k q)
      = (V c (Pipeline.arrRef spec1 3) : (⟨2, ![256, 256]⟩ : Shape).Idx → EReal) (ix2 k q) := by
  obtain ⟨e0, e1, -⟩ := wholeBlocks1 t
  show V c (Pipeline.arrRef spec1 3) (((cfg1.win 3).blk t).view.emb (ix2 k q)) = V c (Pipeline.arrRef spec1 3) (ix2 k q)
  refine congrArg _ (funext fun a => Fin.ext ?_)
  match a with
  | ⟨0, _⟩ => show win1_3.index t (0 : Fin 2) * 256 + 1 * k.val = k.val; omega
  | ⟨1, _⟩ => show win1_3.index t (1 : Fin 2) * 256 + 1 * q.val = q.val; omega

/-- Weight window 4's block at any point is its array. -/
theorem weights1_4 (c : Dev nD) (t : Fin cfg1.N) (k q : Fin 256) :
    (iblk1 V c 4 t : Vec Ideal S256x256 .bf16) (ix2 k q)
      = (V c (Pipeline.arrRef spec1 4) : (⟨2, ![256, 256]⟩ : Shape).Idx → EReal) (ix2 k q) := by
  obtain ⟨-, -, e0, e1, -⟩ := wholeBlocks1 t
  show V c (Pipeline.arrRef spec1 4) (((cfg1.win 4).blk t).view.emb (ix2 k q)) = V c (Pipeline.arrRef spec1 4) (ix2 k q)
  refine congrArg _ (funext fun a => Fin.ext ?_)
  match a with
  | ⟨0, _⟩ => show win1_4.index t (0 : Fin 2) * 256 + 1 * k.val = k.val; omega
  | ⟨1, _⟩ => show win1_4.index t (1 : Fin 2) * 256 + 1 * q.val = q.val; omega

/-- Weight window 5's block at any point is its array. -/
theorem weights1_5 (c : Dev nD) (t : Fin cfg1.N) (k q : Fin 256) :
    (iblk1 V c 5 t : Vec Ideal S256x256 .bf16) (ix2 k q)
      = (V c (Pipeline.arrRef spec1 5) : (⟨2, ![256, 256]⟩ : Shape).Idx → EReal) (ix2 k q) := by
  obtain ⟨-, -, -, -, e0, e1, -⟩ := wholeBlocks1 t
  show V c (Pipeline.arrRef spec1 5) (((cfg1.win 5).blk t).view.emb (ix2 k q)) = V c (Pipeline.arrRef spec1 5) (ix2 k q)
  refine congrArg _ (funext fun a => Fin.ext ?_)
  match a with
  | ⟨0, _⟩ => show win1_5.index t (0 : Fin 2) * 256 + 1 * k.val = k.val; omega
  | ⟨1, _⟩ => show win1_5.index t (1 : Fin 2) * 256 + 1 * q.val = q.val; omega

/-- Bias window 6's block at any point is its row. -/
theorem bias1_6 (c : Dev nD) (t : Fin cfg1.N) (q : Fin 256) :
    (iblk1 V c 6 t : Vec Ideal S1x256 .f32) (ix2 (0 : Fin 1) q)
      = (V c (Pipeline.arrRef spec1 6) : (⟨2, ![1, 256]⟩ : Shape).Idx → EReal) (ix2 (0 : Fin 1) q) := by
  obtain ⟨-, -, -, -, -, -, e0, e1, -⟩ := wholeBlocks1 t
  show V c (Pipeline.arrRef spec1 6) (((cfg1.win 6).blk t).view.emb (ix2 (0 : Fin 1) q)) = V c (Pipeline.arrRef spec1 6) (ix2 (0 : Fin 1) q)
  refine congrArg _ (funext fun a => Fin.ext ?_)
  match a with
  | ⟨0, _⟩ => show win1_6.index t (0 : Fin 2) * 1 + 1 * 0 = 0; omega
  | ⟨1, _⟩ => show win1_6.index t (1 : Fin 2) * 256 + 1 * q.val = q.val; omega

/-- Bias window 7's block at any point is its row. -/
theorem bias1_7 (c : Dev nD) (t : Fin cfg1.N) (q : Fin 256) :
    (iblk1 V c 7 t : Vec Ideal S1x256 .f32) (ix2 (0 : Fin 1) q)
      = (V c (Pipeline.arrRef spec1 7) : (⟨2, ![1, 256]⟩ : Shape).Idx → EReal) (ix2 (0 : Fin 1) q) := by
  obtain ⟨-, -, -, -, -, -, -, -, e0, e1, -⟩ := wholeBlocks1 t
  show V c (Pipeline.arrRef spec1 7) (((cfg1.win 7).blk t).view.emb (ix2 (0 : Fin 1) q)) = V c (Pipeline.arrRef spec1 7) (ix2 (0 : Fin 1) q)
  refine congrArg _ (funext fun a => Fin.ext ?_)
  match a with
  | ⟨0, _⟩ => show win1_7.index t (0 : Fin 2) * 1 + 1 * 0 = 0; omega
  | ⟨1, _⟩ => show win1_7.index t (1 : Fin 2) * 256 + 1 * q.val = q.val; omega

/-- Bias window 8's block at any point is its row. -/
theorem bias1_8 (c : Dev nD) (t : Fin cfg1.N) (q : Fin 256) :
    (iblk1 V c 8 t : Vec Ideal S1x256 .f32) (ix2 (0 : Fin 1) q)
      = (V c (Pipeline.arrRef spec1 8) : (⟨2, ![1, 256]⟩ : Shape).Idx → EReal) (ix2 (0 : Fin 1) q) := by
  obtain ⟨-, -, -, -, -, -, -, -, -, -, e0, e1⟩ := wholeBlocks1 t
  show V c (Pipeline.arrRef spec1 8) (((cfg1.win 8).blk t).view.emb (ix2 (0 : Fin 1) q)) = V c (Pipeline.arrRef spec1 8) (ix2 (0 : Fin 1) q)
  refine congrArg _ (funext fun a => Fin.ext ?_)
  match a with
  | ⟨0, _⟩ => show win1_8.index t (0 : Fin 2) * 1 + 1 * 0 = 0; omega
  | ⟨1, _⟩ => show win1_8.index t (1 : Fin 2) * 256 + 1 * q.val = q.val; omega

/-! ## Region 1: what a point writes back, the cover, the array after the region -/

/-- The one store of the region's body, through the whole buffer, leaves the stored value of the loaded blocks. -/
theorem left1 (x0 x1 x2 : Vec Ideal S4000x256 .bf16) (x3 x4 x5 : Vec Ideal S256x256 .bf16)
    (x6 x7 x8 : Vec Ideal S1x256 .f32) :
    out1_9 (F := Ideal) x0 x1 x2 x3 x4 x5 x6 x7 x8 = k1_pay1 x0 x3 x6 x1 x4 x7 x2 x5 x8 := by
  unfold out1_9
  rw [View.canon_unit_zero zeroOffsets]
  simp only [View.ld_unit_zero (S := S4000x256) zeroOffsets, View.ld_unit_zero (S := S256x256) zeroOffsets,
    View.ld_unit_zero (S := S1x256) zeroOffsets]

/-- The dense stage of the nine arrays the second region finds on entry. -/
abbrev entryDense1 (c : Dev nD) : (⟨2, ![100000, 256]⟩ : Shape).Idx → EReal :=
  dense false (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) (V c (Pipeline.arrRef spec1 7)) (V c (Pipeline.arrRef spec1 8))

/-- What point `t` writes back to the output array is block `t` of the dense stage of the arrays on entry: entry
    `(p, q)` of the block is entry `(4000 t + p, q)` of the array. -/
theorem written1 (c : Dev nD) (t : Fin cfg1.N) :
    (dat1 (F := Ideal) V c).flushed 9 t = ((cfg1.win 9).blk t).view.read (Elt Ideal) (entryDense1 V c) := by
  funext j
  obtain ⟨-, -, -, -, -, -, e0, e1⟩ := rowBlocks1 t
  have hN : t.val < 25 := lt_of_lt_of_eq t.isLt N_1
  have hj0 : (j 0).val < 4000 := (j 0).isLt
  have hj1 : (j 1).val < 256 := (j 1).isLt
  have hx : (cfg1.win 9).xinj (grid1.coords t) j = ix2 (⟨(j 0).val, hj0⟩ : Fin 4000) (⟨(j 1).val, hj1⟩ : Fin 256) := by
    funext a
    match a with
    | ⟨0, _⟩ => rfl
    | ⟨1, _⟩ => rfl
  have hi : ((cfg1.win 9).blk t).view.emb j
      = ix2 (⟨t.val * 4000 + (j 0).val, by omega⟩ : Fin 100000) (⟨(j 1).val, hj1⟩ : Fin 256) := by
    funext a
    apply Fin.ext
    match a with
    | ⟨0, _⟩ => show win1_9.index t (0 : Fin 2) * 4000 + 1 * (j 0).val = t.val * 4000 + (j 0).val; omega
    | ⟨1, _⟩ => show win1_9.index t (1 : Fin 2) * 256 + 1 * (j 1).val = (j 1).val; omega
  refine (congrFun (after1_9 V c t) _).trans ?_
  refine (congrFun (left1 _ _ _ _ _ _ _ _ _) _).trans ?_
  refine (congrArg _ hx).trans ?_
  refine Eq.trans ?_ (congrArg (entryDense1 V c) hi.symm)
  exact stored1_dense _ _ _ _ _ _ _ _ _ (iblk1 V c 0 t) (iblk1 V c 1 t) (iblk1 V c 2 t) (iblk1 V c 3 t) (iblk1 V c 4 t)
    (iblk1 V c 5 t) (iblk1 V c 6 t) (iblk1 V c 7 t) (iblk1 V c 8 t) _ _ _
    (fun k => nodeRows1_0 V c t _ k _ rfl) (fun k => nodeRows1_1 V c t _ k _ rfl) (fun k => nodeRows1_2 V c t _ k _ rfl)
    (fun k => weights1_3 V c t k _) (fun k => weights1_4 V c t k _) (fun k => weights1_5 V c t k _)
    (bias1_6 V c t _) (bias1_7 V c t _) (bias1_8 V c t _)

/-- Every entry `(n, o)` of the output array is in the block of point `n / 4000`. -/
theorem covered1 (i : (⟨2, ![100000, 256]⟩ : Shape).Idx) :
    ∃ t : Fin cfg1.N, (cfg1.win 9).flush t = true ∧ i ∈ ((cfg1.win 9).blk t).view.set := by
  have hi0 : (i 0).val < 100000 := (i 0).isLt
  have hi1 : (i 1).val < 256 := (i 1).isLt
  obtain ⟨t, ht⟩ : ∃ t : Fin cfg1.N, t.val = (i 0).val / 4000 :=
    ⟨⟨(i 0).val / 4000, by rw [show cfg1.N = 25 from N_1]; omega⟩, rfl⟩
  obtain ⟨-, -, -, -, -, -, e0, e1⟩ := rowBlocks1 t
  refine ⟨t, flush1_9 t, ?_⟩
  show i ∈ ((View.whole main_v282).slice (win1_9.rect t)).set
  rw [View.set_slice_whole, Rect.mem_set_unit]
  intro a
  match a with
  | ⟨0, _⟩ =>
    show win1_9.index t (0 : Fin 2) * 4000 ≤ (i 0).val ∧ (i 0).val < win1_9.index t (0 : Fin 2) * 4000 + 4000
    omega
  | ⟨1, _⟩ =>
    show win1_9.index t (1 : Fin 2) * 256 ≤ (i 1).val ∧ (i 1).val < win1_9.index t (1 : Fin 2) * 256 + 256
    omega

/-- THE SECOND REGION'S OUTPUT ARRAY after the region: the dense stage of the nine arrays the region found on entry. -/
theorem region1_value (c : Dev nD) :
    (dat1 (F := Ideal) V c).arrAt 9 cfg1.N
      = dense false (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7)) (V c (Pipeline.arrRef spec1 8)) :=
  (dat1 V c).arrAt_eq_of_cover 9 (entryDense1 V c) (fun t _ => written1 V c t) covered1

end Cert.KernelIdeal.RegionValue

end
-- ==== Proof.HostKeep.lean ====
/-
  What a stretch of host operations leaves alone.

  A stretch of host operations writes one buffer per operation and nothing else.  So a buffer that is none of a stretch's
  result buffers holds after the stretch what it held before it.  Buffers with different indices are different, so it is
  enough that the buffer's index is none of the result buffers' indices, which are listed per stretch.  One statement per
  stretch of the kernel program, each over an arbitrary valuation and any float instance.
-/
import proofs.«123699_j87308095193388_2_alg».proof.Proof.Gen.KernelIdeal.Frame

set_option maxRecDepth 16384

noncomputable section

namespace Cert.KernelIdeal.HostKeep

open Cert.KernelIdeal Cert.KernelIdeal.Gen
open Idealize.ShloMosaic Idealize.ShloMosaic.TcCoe Idealize.SL.Sem Idealize.ShloMosaic.StableHlo

variable {F : FTy → Type} [FloatOps F]
variable (V : Valuation τ sig (Elt F))

/-- The indices of the result buffers of `hostOps0`. -/
abbrev slots_hostOps0 : List Nat :=
  [8, 9, 10, 11, 12, 13, 14, 15, 16, 17, 18, 19, 20, 21, 22, 23, 24, 25, 26, 27, 28, 29, 30, 31, 32]

set_option maxHeartbeats 8000000 in
/-- A buffer whose index is none of `hostOps0`'s result indices is unchanged by it. -/
theorem keep_hostOps0 (b : Ref sig .tc) (hb : b.idx.val ∉ slots_hostOps0) :
    after (hostOps0 (F := F)) V (Proc.devRef .tc b) = V (Proc.devRef .tc b) := by
  refine StableHlo.after_of_forall_not_mem (b := Proc.devRef .tc b) _ _ (List.forall_iff_forall_mem.mp ?_)
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun h => hb (h ▸ (by decide)))

/-- The indices of the result buffers of `hostOps0_1`. -/
abbrev slots_hostOps0_1 : List Nat :=
  [33, 34, 35]

set_option maxHeartbeats 8000000 in
/-- A buffer whose index is none of `hostOps0_1`'s result indices is unchanged by it. -/
theorem keep_hostOps0_1 (b : Ref sig .tc) (hb : b.idx.val ∉ slots_hostOps0_1) :
    after (hostOps0_1 (F := F)) V (Proc.devRef .tc b) = V (Proc.devRef .tc b) := by
  refine StableHlo.after_of_forall_not_mem (b := Proc.devRef .tc b) _ _ (List.forall_iff_forall_mem.mp ?_)
  simp only [hostOps0_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun h => hb (h ▸ (by decide)))

/-- The indices of the result buffers of `hostOps0_2`. -/
abbrev slots_hostOps0_2 : List Nat :=
  [36, 37, 38, 39, 40, 41, 42, 43, 44, 45, 46]

set_option maxHeartbeats 8000000 in
/-- A buffer whose index is none of `hostOps0_2`'s result indices is unchanged by it. -/
theorem keep_hostOps0_2 (b : Ref sig .tc) (hb : b.idx.val ∉ slots_hostOps0_2) :
    after (hostOps0_2 (F := F)) V (Proc.devRef .tc b) = V (Proc.devRef .tc b) := by
  refine StableHlo.after_of_forall_not_mem (b := Proc.devRef .tc b) _ _ (List.forall_iff_forall_mem.mp ?_)
  simp only [hostOps0_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun h => hb (h ▸ (by decide)))

/-- The indices of the result buffers of `hostOps0_3`. -/
abbrev slots_hostOps0_3 : List Nat :=
  [47, 48, 49]

set_option maxHeartbeats 8000000 in
/-- A buffer whose index is none of `hostOps0_3`'s result indices is unchanged by it. -/
theorem keep_hostOps0_3 (b : Ref sig .tc) (hb : b.idx.val ∉ slots_hostOps0_3) :
    after (hostOps0_3 (F := F)) V (Proc.devRef .tc b) = V (Proc.devRef .tc b) := by
  refine StableHlo.after_of_forall_not_mem (b := Proc.devRef .tc b) _ _ (List.forall_iff_forall_mem.mp ?_)
  simp only [hostOps0_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun h => hb (h ▸ (by decide)))

/-- The indices of the result buffers of `hostOps0_4`. -/
abbrev slots_hostOps0_4 : List Nat :=
  [50, 51, 52, 53, 54, 55, 56, 57, 58, 59, 60, 61, 62, 63, 64, 65, 66, 67, 68, 69, 70, 71, 72, 73, 74]

set_option maxHeartbeats 8000000 in
/-- A buffer whose index is none of `hostOps0_4`'s result indices is unchanged by it. -/
theorem keep_hostOps0_4 (b : Ref sig .tc) (hb : b.idx.val ∉ slots_hostOps0_4) :
    after (hostOps0_4 (F := F)) V (Proc.devRef .tc b) = V (Proc.devRef .tc b) := by
  refine StableHlo.after_of_forall_not_mem (b := Proc.devRef .tc b) _ _ (List.forall_iff_forall_mem.mp ?_)
  simp only [hostOps0_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun h => hb (h ▸ (by decide)))

/-- The indices of the result buffers of `hostOps0_5`. -/
abbrev slots_hostOps0_5 : List Nat :=
  [75, 76, 77]

set_option maxHeartbeats 8000000 in
/-- A buffer whose index is none of `hostOps0_5`'s result indices is unchanged by it. -/
theorem keep_hostOps0_5 (b : Ref sig .tc) (hb : b.idx.val ∉ slots_hostOps0_5) :
    after (hostOps0_5 (F := F)) V (Proc.devRef .tc b) = V (Proc.devRef .tc b) := by
  refine StableHlo.after_of_forall_not_mem (b := Proc.devRef .tc b) _ _ (List.forall_iff_forall_mem.mp ?_)
  simp only [hostOps0_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun h => hb (h ▸ (by decide)))

/-- The indices of the result buffers of `hostOps0_6`. -/
abbrev slots_hostOps0_6 : List Nat :=
  [78, 79, 80, 81, 82, 83, 84, 85, 86, 87, 88]

set_option maxHeartbeats 8000000 in
/-- A buffer whose index is none of `hostOps0_6`'s result indices is unchanged by it. -/
theorem keep_hostOps0_6 (b : Ref sig .tc) (hb : b.idx.val ∉ slots_hostOps0_6) :
    after (hostOps0_6 (F := F)) V (Proc.devRef .tc b) = V (Proc.devRef .tc b) := by
  refine StableHlo.after_of_forall_not_mem (b := Proc.devRef .tc b) _ _ (List.forall_iff_forall_mem.mp ?_)
  simp only [hostOps0_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun h => hb (h ▸ (by decide)))

/-- The indices of the result buffers of `hostOps0_7`. -/
abbrev slots_hostOps0_7 : List Nat :=
  [89, 90, 91]

set_option maxHeartbeats 8000000 in
/-- A buffer whose index is none of `hostOps0_7`'s result indices is unchanged by it. -/
theorem keep_hostOps0_7 (b : Ref sig .tc) (hb : b.idx.val ∉ slots_hostOps0_7) :
    after (hostOps0_7 (F := F)) V (Proc.devRef .tc b) = V (Proc.devRef .tc b) := by
  refine StableHlo.after_of_forall_not_mem (b := Proc.devRef .tc b) _ _ (List.forall_iff_forall_mem.mp ?_)
  simp only [hostOps0_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun h => hb (h ▸ (by decide)))

/-- The indices of the result buffers of `hostOps0_8`. -/
abbrev slots_hostOps0_8 : List Nat :=
  [92, 93, 94, 95, 96, 97, 98, 99, 100, 101, 102, 103, 104, 105, 106, 107, 108, 109, 110, 111, 112, 113, 114, 115, 116]

set_option maxHeartbeats 8000000 in
/-- A buffer whose index is none of `hostOps0_8`'s result indices is unchanged by it. -/
theorem keep_hostOps0_8 (b : Ref sig .tc) (hb : b.idx.val ∉ slots_hostOps0_8) :
    after (hostOps0_8 (F := F)) V (Proc.devRef .tc b) = V (Proc.devRef .tc b) := by
  refine StableHlo.after_of_forall_not_mem (b := Proc.devRef .tc b) _ _ (List.forall_iff_forall_mem.mp ?_)
  simp only [hostOps0_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun h => hb (h ▸ (by decide)))

/-- The indices of the result buffers of `hostOps0_9`. -/
abbrev slots_hostOps0_9 : List Nat :=
  [117, 118, 119]

set_option maxHeartbeats 8000000 in
/-- A buffer whose index is none of `hostOps0_9`'s result indices is unchanged by it. -/
theorem keep_hostOps0_9 (b : Ref sig .tc) (hb : b.idx.val ∉ slots_hostOps0_9) :
    after (hostOps0_9 (F := F)) V (Proc.devRef .tc b) = V (Proc.devRef .tc b) := by
  refine StableHlo.after_of_forall_not_mem (b := Proc.devRef .tc b) _ _ (List.forall_iff_forall_mem.mp ?_)
  simp only [hostOps0_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun h => hb (h ▸ (by decide)))

/-- The indices of the result buffers of `hostOps0_10`. -/
abbrev slots_hostOps0_10 : List Nat :=
  [120, 121, 122, 123, 124, 125, 126, 127, 128, 129, 130]

set_option maxHeartbeats 8000000 in
/-- A buffer whose index is none of `hostOps0_10`'s result indices is unchanged by it. -/
theorem keep_hostOps0_10 (b : Ref sig .tc) (hb : b.idx.val ∉ slots_hostOps0_10) :
    after (hostOps0_10 (F := F)) V (Proc.devRef .tc b) = V (Proc.devRef .tc b) := by
  refine StableHlo.after_of_forall_not_mem (b := Proc.devRef .tc b) _ _ (List.forall_iff_forall_mem.mp ?_)
  simp only [hostOps0_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun h => hb (h ▸ (by decide)))

/-- The indices of the result buffers of `hostOps0_11`. -/
abbrev slots_hostOps0_11 : List Nat :=
  [131, 132, 133]

set_option maxHeartbeats 8000000 in
/-- A buffer whose index is none of `hostOps0_11`'s result indices is unchanged by it. -/
theorem keep_hostOps0_11 (b : Ref sig .tc) (hb : b.idx.val ∉ slots_hostOps0_11) :
    after (hostOps0_11 (F := F)) V (Proc.devRef .tc b) = V (Proc.devRef .tc b) := by
  refine StableHlo.after_of_forall_not_mem (b := Proc.devRef .tc b) _ _ (List.forall_iff_forall_mem.mp ?_)
  simp only [hostOps0_11, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun h => hb (h ▸ (by decide)))

/-- The indices of the result buffers of `hostOps0_12`. -/
abbrev slots_hostOps0_12 : List Nat :=
  [134, 135, 136, 137, 138, 139, 140, 141, 142, 143, 144, 145, 146, 147, 148, 149, 150, 151, 152, 153, 154, 155, 156, 157, 158, 159, 160, 161, 162, 163, 164, 165, 166, 167, 168, 169, 170, 171, 172, 173, 174, 175, 176, 177, 178, 179, 180, 181, 182, 183, 184, 185, 186, 187, 188, 189, 190, 191, 192, 193, 194, 195, 196, 197, 198, 199, 200, 201, 202, 203, 204, 205, 206, 207, 208, 209, 210, 211, 212, 213, 214, 215, 216, 217, 218, 219, 220, 221, 222, 223, 224, 225, 226, 227, 228, 229, 230, 231, 232, 233, 234, 235, 236, 237, 238, 239, 240, 241, 242, 243, 244, 245, 246, 247, 248, 249]

set_option maxHeartbeats 8000000 in
/-- A buffer whose index is none of `hostOps0_12`'s result indices is unchanged by it. -/
theorem keep_hostOps0_12 (b : Ref sig .tc) (hb : b.idx.val ∉ slots_hostOps0_12) :
    after (hostOps0_12 (F := F)) V (Proc.devRef .tc b) = V (Proc.devRef .tc b) := by
  refine StableHlo.after_of_forall_not_mem (b := Proc.devRef .tc b) _ _ (List.forall_iff_forall_mem.mp ?_)
  simp only [hostOps0_12, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun h => hb (h ▸ (by decide)))

/-- The indices of the result buffers of `hostOps1`. -/
abbrev slots_hostOps1 : List Nat :=
  [251, 252, 253, 254, 255, 256, 257, 258, 259, 260, 261, 262, 263, 264, 265, 266, 267, 268, 269, 270, 271, 272, 273, 274, 275, 276, 277, 278, 279, 280, 281, 282, 283, 284, 285, 286, 287, 288, 289, 290, 291, 292, 293, 294, 295, 296, 297, 298, 299, 300, 301, 302, 303, 304, 305, 306, 307, 308, 309, 310, 311, 312, 313, 314, 315, 316, 317, 318, 319, 320, 321, 322, 323, 324, 325, 326, 327, 328, 329, 330, 331, 332, 333, 334, 335, 336, 337, 338, 339, 340, 341, 342, 343, 344, 345, 346, 347, 348, 349, 350, 351, 352, 353, 354, 355, 356, 357, 358, 359, 360, 361, 362, 363, 364]

set_option maxHeartbeats 8000000 in
/-- A buffer whose index is none of `hostOps1`'s result indices is unchanged by it. -/
theorem keep_hostOps1 (b : Ref sig .tc) (hb : b.idx.val ∉ slots_hostOps1) :
    after (hostOps1 (F := F)) V (Proc.devRef .tc b) = V (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun h => hb (h ▸ (by decide)))

/-- The indices of the result buffers of `hostOps2`. -/
abbrev slots_hostOps2 : List Nat :=
  [366, 367, 368, 369, 370, 371, 372, 373, 374, 375, 376, 377, 378, 379, 380, 381]

set_option maxHeartbeats 8000000 in
/-- A buffer whose index is none of `hostOps2`'s result indices is unchanged by it. -/
theorem keep_hostOps2 (b : Ref sig .tc) (hb : b.idx.val ∉ slots_hostOps2) :
    after (hostOps2 (F := F)) V (Proc.devRef .tc b) = V (Proc.devRef .tc b) := by
  refine StableHlo.after_of_forall_not_mem (b := Proc.devRef .tc b) _ _ (List.forall_iff_forall_mem.mp ?_)
  simp only [hostOps2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun h => hb (h ▸ (by decide)))

end Cert.KernelIdeal.HostKeep

end
-- ==== Proof.HostNorms.lean ====
/-
  The degree norms as the kernel's host code computes them, read relation by relation.

  For each of the three relations the kernel's host code runs four stretches: the relation's two index rows and their
  degrees, the comparison and the reciprocal square root for the source side; the source norm's selection; the same two
  for the destination side from the destination degree; the destination norm's selection.  Over an arbitrary valuation
  of the buffers, the block of four leaves the specification's norm of the relation's source row in the source norm's
  buffer and the norm of its destination row in the destination norm's buffer.
-/
import proofs.«123699_j87308095193388_2_alg».proof.Proof.Gen.KernelIdeal.Frame
import proofs.«123699_j87308095193388_2_alg».proof.Proof.Spec
import proofs.«123699_j87308095193388_2_alg».proof.Proof.SpecK
import proofs.«123699_j87308095193388_2_alg».proof.Proof.HostKeep

set_option maxRecDepth 16384

noncomputable section

namespace Cert.KernelIdeal.HostNorms

open Cert.KernelIdeal Cert.KernelIdeal.Gen Cert.HeteroSpec Cert.HeteroSpecK
open Idealize.ShloMosaic Idealize.ShloMosaic.TcCoe Idealize.SL.Sem Idealize.ShloMosaic.StableHlo

open Cert.KernelIdeal.HostKeep

variable [Cert.ReferenceIdeal.Facts]
variable (V : Valuation τ sig (Elt Ideal))

/-! ## Relation 0 -/

/-- The four stretches of relation 0, one after the other. -/
abbrev blk0 (V : Valuation τ sig (Elt Ideal)) : Valuation τ sig (Elt Ideal) :=
  after (hostOps0_3 (F := Ideal)) (after (hostOps0_2 (F := Ideal)) (after (hostOps0_1 (F := Ideal)) (after (hostOps0 (F := Ideal)) V)))

set_option maxHeartbeats 4000000 in
theorem A0_cmp : after (hostOps0 (F := Ideal)) V (Proc.devRef .tc main_v12)
    = cmpf .ogt (deg (edgeRow ![0, 0] Cert.ReferenceIdeal.Facts₀.slices_S3x400000_S1x400000_0_0 (V (Proc.devRef .tc main_arg1)))) zerosN := by
  dsimp only [hostOps0]
  after_results_simp
  rfl

set_option maxHeartbeats 4000000 in
theorem A0_div : after (hostOps0 (F := Ideal)) V (Proc.devRef .tc main_v17)
    = Host.divf onesN (Host.sqrt (maximumf (deg (edgeRow ![0, 0] Cert.ReferenceIdeal.Facts₀.slices_S3x400000_S1x400000_0_0 (V (Proc.devRef .tc main_arg1)))) onesN)) := by
  dsimp only [hostOps0]
  after_results_simp
  rfl

set_option maxHeartbeats 4000000 in
theorem A0_cst : after (hostOps0 (F := Ideal)) V (Proc.devRef .tc main_cst_5) = zeroScalar := by
  dsimp only [hostOps0]
  after_results_simp
  rfl

set_option maxHeartbeats 4000000 in
theorem A0_degin : after (hostOps0 (F := Ideal)) V (Proc.devRef .tc main_v10)
    = deg (edgeRow ![0, 0] Cert.ReferenceIdeal.Facts₀.slices_S3x400000_S1x400000_0_0 (V (Proc.devRef .tc main_arg2))) := by
  dsimp only [hostOps0]
  after_results_simp
  rfl

set_option maxHeartbeats 4000000 in
theorem B0_sel : after (hostOps0_1 (F := Ideal)) V (Proc.devRef .tc main_v18)
    = select (V (Proc.devRef .tc main_v12)) (V (Proc.devRef .tc main_v17))
        (broadcastInDim S100000 ![] Cert.KernelIdeal.Facts₀.bcast_S_S100000 (V (Proc.devRef .tc main_cst_5))) := by
  dsimp only [hostOps0_1]
  after_results
  rfl

set_option maxHeartbeats 4000000 in
theorem C0_cmp : after (hostOps0_2 (F := Ideal)) V (Proc.devRef .tc main_v20) = cmpf .ogt (V (Proc.devRef .tc main_v10)) zerosN := by
  dsimp only [hostOps0_2]
  after_results_simp
  rfl

set_option maxHeartbeats 4000000 in
theorem C0_div : after (hostOps0_2 (F := Ideal)) V (Proc.devRef .tc main_v25)
    = Host.divf onesN (Host.sqrt (maximumf (V (Proc.devRef .tc main_v10)) onesN)) := by
  dsimp only [hostOps0_2]
  after_results_simp
  rfl

set_option maxHeartbeats 4000000 in
theorem C0_cst : after (hostOps0_2 (F := Ideal)) V (Proc.devRef .tc main_cst_9) = zeroScalar := by
  dsimp only [hostOps0_2]
  after_results_simp
  rfl

set_option maxHeartbeats 4000000 in
theorem D0_sel : after (hostOps0_3 (F := Ideal)) V (Proc.devRef .tc main_v26)
    = select (V (Proc.devRef .tc main_v20)) (V (Proc.devRef .tc main_v25))
        (broadcastInDim S100000 ![] Cert.KernelIdeal.Facts₀.bcast_S_S100000 (V (Proc.devRef .tc main_cst_9))) := by
  dsimp only [hostOps0_3]
  after_results
  rfl

/-- Relation 0's block leaves the norm of the relation's source row in the source norm's buffer. -/
theorem blk0_ns : blk0 V (Proc.devRef .tc main_v18) = nrm (edgeRow ![0, 0] Cert.ReferenceIdeal.Facts₀.slices_S3x400000_S1x400000_0_0 (V (Proc.devRef .tc main_arg1))) := by
  show after (hostOps0_3 (F := Ideal)) (after (hostOps0_2 (F := Ideal)) (after (hostOps0_1 (F := Ideal)) (after (hostOps0 (F := Ideal)) V))) (Proc.devRef .tc main_v18) = _
  rw [keep_hostOps0_3 _ main_v18 (by decide), keep_hostOps0_2 _ main_v18 (by decide), B0_sel, A0_cmp, A0_div, A0_cst]
  rfl

/-- Relation 0's block leaves the norm of the relation's destination row in the destination norm's buffer. -/
theorem blk0_nd : blk0 V (Proc.devRef .tc main_v26) = nrm (edgeRow ![0, 0] Cert.ReferenceIdeal.Facts₀.slices_S3x400000_S1x400000_0_0 (V (Proc.devRef .tc main_arg2))) := by
  show after (hostOps0_3 (F := Ideal)) (after (hostOps0_2 (F := Ideal)) (after (hostOps0_1 (F := Ideal)) (after (hostOps0 (F := Ideal)) V))) (Proc.devRef .tc main_v26) = _
  rw [D0_sel, C0_cmp, C0_div, C0_cst, keep_hostOps0_1 _ main_v10 (by decide), A0_degin]
  rfl

/-- Relation 0's block leaves alone every buffer that is none of its results. -/
theorem blk0_keep (b : Ref sig .tc) (hA : b.idx.val ∉ slots_hostOps0) (hB : b.idx.val ∉ slots_hostOps0_1)
    (hC : b.idx.val ∉ slots_hostOps0_2) (hD : b.idx.val ∉ slots_hostOps0_3) :
    blk0 V (Proc.devRef .tc b) = V (Proc.devRef .tc b) := by
  show after (hostOps0_3 (F := Ideal)) (after (hostOps0_2 (F := Ideal)) (after (hostOps0_1 (F := Ideal)) (after (hostOps0 (F := Ideal)) V))) (Proc.devRef .tc b) = _
  rw [keep_hostOps0_3 _ b hD, keep_hostOps0_2 _ b hC, keep_hostOps0_1 _ b hB, keep_hostOps0 _ b hA]

/-! ## Relation 1 -/

/-- The four stretches of relation 1, one after the other. -/
abbrev blk1 (V : Valuation τ sig (Elt Ideal)) : Valuation τ sig (Elt Ideal) :=
  after (hostOps0_7 (F := Ideal)) (after (hostOps0_6 (F := Ideal)) (after (hostOps0_5 (F := Ideal)) (after (hostOps0_4 (F := Ideal)) V)))

set_option maxHeartbeats 4000000 in
theorem A1_cmp : after (hostOps0_4 (F := Ideal)) V (Proc.devRef .tc main_v39)
    = cmpf .ogt (deg (edgeRow ![1, 0] Cert.ReferenceIdeal.Facts₀.slices_S3x400000_S1x400000_1_0 (V (Proc.devRef .tc main_arg1)))) zerosN := by
  dsimp only [hostOps0_4]
  after_results_simp
  rfl

set_option maxHeartbeats 4000000 in
theorem A1_div : after (hostOps0_4 (F := Ideal)) V (Proc.devRef .tc main_v44)
    = Host.divf onesN (Host.sqrt (maximumf (deg (edgeRow ![1, 0] Cert.ReferenceIdeal.Facts₀.slices_S3x400000_S1x400000_1_0 (V (Proc.devRef .tc main_arg1)))) onesN)) := by
  dsimp only [hostOps0_4]
  after_results_simp
  rfl

set_option maxHeartbeats 4000000 in
theorem A1_cst : after (hostOps0_4 (F := Ideal)) V (Proc.devRef .tc main_cst_16) = zeroScalar := by
  dsimp only [hostOps0_4]
  after_results_simp
  rfl

set_option maxHeartbeats 4000000 in
theorem A1_degin : after (hostOps0_4 (F := Ideal)) V (Proc.devRef .tc main_v37)
    = deg (edgeRow ![1, 0] Cert.ReferenceIdeal.Facts₀.slices_S3x400000_S1x400000_1_0 (V (Proc.devRef .tc main_arg2))) := by
  dsimp only [hostOps0_4]
  after_results_simp
  rfl

set_option maxHeartbeats 4000000 in
theorem B1_sel : after (hostOps0_5 (F := Ideal)) V (Proc.devRef .tc main_v45)
    = select (V (Proc.devRef .tc main_v39)) (V (Proc.devRef .tc main_v44))
        (broadcastInDim S100000 ![] Cert.KernelIdeal.Facts₀.bcast_S_S100000 (V (Proc.devRef .tc main_cst_16))) := by
  dsimp only [hostOps0_5]
  after_results
  rfl

set_option maxHeartbeats 4000000 in
theorem C1_cmp : after (hostOps0_6 (F := Ideal)) V (Proc.devRef .tc main_v47) = cmpf .ogt (V (Proc.devRef .tc main_v37)) zerosN := by
  dsimp only [hostOps0_6]
  after_results_simp
  rfl

set_option maxHeartbeats 4000000 in
theorem C1_div : after (hostOps0_6 (F := Ideal)) V (Proc.devRef .tc main_v52)
    = Host.divf onesN (Host.sqrt (maximumf (V (Proc.devRef .tc main_v37)) onesN)) := by
  dsimp only [hostOps0_6]
  after_results_simp
  rfl

set_option maxHeartbeats 4000000 in
theorem C1_cst : after (hostOps0_6 (F := Ideal)) V (Proc.devRef .tc main_cst_20) = zeroScalar := by
  dsimp only [hostOps0_6]
  after_results_simp
  rfl

set_option maxHeartbeats 4000000 in
theorem D1_sel : after (hostOps0_7 (F := Ideal)) V (Proc.devRef .tc main_v53)
    = select (V (Proc.devRef .tc main_v47)) (V (Proc.devRef .tc main_v52))
        (broadcastInDim S100000 ![] Cert.KernelIdeal.Facts₀.bcast_S_S100000 (V (Proc.devRef .tc main_cst_20))) := by
  dsimp only [hostOps0_7]
  after_results
  rfl

/-- Relation 1's block leaves the norm of the relation's source row in the source norm's buffer. -/
theorem blk1_ns : blk1 V (Proc.devRef .tc main_v45) = nrm (edgeRow ![1, 0] Cert.ReferenceIdeal.Facts₀.slices_S3x400000_S1x400000_1_0 (V (Proc.devRef .tc main_arg1))) := by
  show after (hostOps0_7 (F := Ideal)) (after (hostOps0_6 (F := Ideal)) (after (hostOps0_5 (F := Ideal)) (after (hostOps0_4 (F := Ideal)) V))) (Proc.devRef .tc main_v45) = _
  rw [keep_hostOps0_7 _ main_v45 (by decide), keep_hostOps0_6 _ main_v45 (by decide), B1_sel, A1_cmp, A1_div, A1_cst]
  rfl

/-- Relation 1's block leaves the norm of the relation's destination row in the destination norm's buffer. -/
theorem blk1_nd : blk1 V (Proc.devRef .tc main_v53) = nrm (edgeRow ![1, 0] Cert.ReferenceIdeal.Facts₀.slices_S3x400000_S1x400000_1_0 (V (Proc.devRef .tc main_arg2))) := by
  show after (hostOps0_7 (F := Ideal)) (after (hostOps0_6 (F := Ideal)) (after (hostOps0_5 (F := Ideal)) (after (hostOps0_4 (F := Ideal)) V))) (Proc.devRef .tc main_v53) = _
  rw [D1_sel, C1_cmp, C1_div, C1_cst, keep_hostOps0_5 _ main_v37 (by decide), A1_degin]
  rfl

/-- Relation 1's block leaves alone every buffer that is none of its results. -/
theorem blk1_keep (b : Ref sig .tc) (hA : b.idx.val ∉ slots_hostOps0_4) (hB : b.idx.val ∉ slots_hostOps0_5)
    (hC : b.idx.val ∉ slots_hostOps0_6) (hD : b.idx.val ∉ slots_hostOps0_7) :
    blk1 V (Proc.devRef .tc b) = V (Proc.devRef .tc b) := by
  show after (hostOps0_7 (F := Ideal)) (after (hostOps0_6 (F := Ideal)) (after (hostOps0_5 (F := Ideal)) (after (hostOps0_4 (F := Ideal)) V))) (Proc.devRef .tc b) = _
  rw [keep_hostOps0_7 _ b hD, keep_hostOps0_6 _ b hC, keep_hostOps0_5 _ b hB, keep_hostOps0_4 _ b hA]

/-! ## Relation 2 -/

/-- The four stretches of relation 2, one after the other. -/
abbrev blk2 (V : Valuation τ sig (Elt Ideal)) : Valuation τ sig (Elt Ideal) :=
  after (hostOps0_11 (F := Ideal)) (after (hostOps0_10 (F := Ideal)) (after (hostOps0_9 (F := Ideal)) (after (hostOps0_8 (F := Ideal)) V)))

set_option maxHeartbeats 4000000 in
theorem A2_cmp : after (hostOps0_8 (F := Ideal)) V (Proc.devRef .tc main_v66)
    = cmpf .ogt (deg (edgeRow ![2, 0] Cert.ReferenceIdeal.Facts₀.slices_S3x400000_S1x400000_2_0 (V (Proc.devRef .tc main_arg1)))) zerosN := by
  dsimp only [hostOps0_8]
  after_results_simp
  rfl

set_option maxHeartbeats 4000000 in
theorem A2_div : after (hostOps0_8 (F := Ideal)) V (Proc.devRef .tc main_v71)
    = Host.divf onesN (Host.sqrt (maximumf (deg (edgeRow ![2, 0] Cert.ReferenceIdeal.Facts₀.slices_S3x400000_S1x400000_2_0 (V (Proc.devRef .tc main_arg1)))) onesN)) := by
  dsimp only [hostOps0_8]
  after_results_simp
  rfl

set_option maxHeartbeats 4000000 in
theorem A2_cst : after (hostOps0_8 (F := Ideal)) V (Proc.devRef .tc main_cst_27) = zeroScalar := by
  dsimp only [hostOps0_8]
  after_results_simp
  rfl

set_option maxHeartbeats 4000000 in
theorem A2_degin : after (hostOps0_8 (F := Ideal)) V (Proc.devRef .tc main_v64)
    = deg (edgeRow ![2, 0] Cert.ReferenceIdeal.Facts₀.slices_S3x400000_S1x400000_2_0 (V (Proc.devRef .tc main_arg2))) := by
  dsimp only [hostOps0_8]
  after_results_simp
  rfl

set_option maxHeartbeats 4000000 in
theorem B2_sel : after (hostOps0_9 (F := Ideal)) V (Proc.devRef .tc main_v72)
    = select (V (Proc.devRef .tc main_v66)) (V (Proc.devRef .tc main_v71))
        (broadcastInDim S100000 ![] Cert.KernelIdeal.Facts₀.bcast_S_S100000 (V (Proc.devRef .tc main_cst_27))) := by
  dsimp only [hostOps0_9]
  after_results
  rfl

set_option maxHeartbeats 4000000 in
theorem C2_cmp : after (hostOps0_10 (F := Ideal)) V (Proc.devRef .tc main_v74) = cmpf .ogt (V (Proc.devRef .tc main_v64)) zerosN := by
  dsimp only [hostOps0_10]
  after_results_simp
  rfl

set_option maxHeartbeats 4000000 in
theorem C2_div : after (hostOps0_10 (F := Ideal)) V (Proc.devRef .tc main_v79)
    = Host.divf onesN (Host.sqrt (maximumf (V (Proc.devRef .tc main_v64)) onesN)) := by
  dsimp only [hostOps0_10]
  after_results_simp
  rfl

set_option maxHeartbeats 4000000 in
theorem C2_cst : after (hostOps0_10 (F := Ideal)) V (Proc.devRef .tc main_cst_31) = zeroScalar := by
  dsimp only [hostOps0_10]
  after_results_simp
  rfl

set_option maxHeartbeats 4000000 in
theorem D2_sel : after (hostOps0_11 (F := Ideal)) V (Proc.devRef .tc main_v80)
    = select (V (Proc.devRef .tc main_v74)) (V (Proc.devRef .tc main_v79))
        (broadcastInDim S100000 ![] Cert.KernelIdeal.Facts₀.bcast_S_S100000 (V (Proc.devRef .tc main_cst_31))) := by
  dsimp only [hostOps0_11]
  after_results
  rfl

/-- Relation 2's block leaves the norm of the relation's source row in the source norm's buffer. -/
theorem blk2_ns : blk2 V (Proc.devRef .tc main_v72) = nrm (edgeRow ![2, 0] Cert.ReferenceIdeal.Facts₀.slices_S3x400000_S1x400000_2_0 (V (Proc.devRef .tc main_arg1))) := by
  show after (hostOps0_11 (F := Ideal)) (after (hostOps0_10 (F := Ideal)) (after (hostOps0_9 (F := Ideal)) (after (hostOps0_8 (F := Ideal)) V))) (Proc.devRef .tc main_v72) = _
  rw [keep_hostOps0_11 _ main_v72 (by decide), keep_hostOps0_10 _ main_v72 (by decide), B2_sel, A2_cmp, A2_div, A2_cst]
  rfl

/-- Relation 2's block leaves the norm of the relation's destination row in the destination norm's buffer. -/
theorem blk2_nd : blk2 V (Proc.devRef .tc main_v80) = nrm (edgeRow ![2, 0] Cert.ReferenceIdeal.Facts₀.slices_S3x400000_S1x400000_2_0 (V (Proc.devRef .tc main_arg2))) := by
  show after (hostOps0_11 (F := Ideal)) (after (hostOps0_10 (F := Ideal)) (after (hostOps0_9 (F := Ideal)) (after (hostOps0_8 (F := Ideal)) V))) (Proc.devRef .tc main_v80) = _
  rw [D2_sel, C2_cmp, C2_div, C2_cst, keep_hostOps0_9 _ main_v64 (by decide), A2_degin]
  rfl

/-- Relation 2's block leaves alone every buffer that is none of its results. -/
theorem blk2_keep (b : Ref sig .tc) (hA : b.idx.val ∉ slots_hostOps0_8) (hB : b.idx.val ∉ slots_hostOps0_9)
    (hC : b.idx.val ∉ slots_hostOps0_10) (hD : b.idx.val ∉ slots_hostOps0_11) :
    blk2 V (Proc.devRef .tc b) = V (Proc.devRef .tc b) := by
  show after (hostOps0_11 (F := Ideal)) (after (hostOps0_10 (F := Ideal)) (after (hostOps0_9 (F := Ideal)) (after (hostOps0_8 (F := Ideal)) V))) (Proc.devRef .tc b) = _
  rw [keep_hostOps0_11 _ b hD, keep_hostOps0_10 _ b hC, keep_hostOps0_9 _ b hB, keep_hostOps0_8 _ b hA]

end Cert.KernelIdeal.HostNorms

end
-- ==== Proof.HostWin0A.lean ====
/-
  The aggregates of the kernel's first dense stage, as the host stretch before it leaves them.

  Over an arbitrary valuation of the buffers, the stretch of host operations that precedes the first pipelined region leaves
  in each of the region's window arrays the specification's term of the buffers the stretch reads: per relation the
  scaled aggregate of the layer's input, the relation's weight matrix, and the relation's bias as a row.
-/
import proofs.«123699_j87308095193388_2_alg».proof.Proof.Gen.KernelIdeal.Frame
import proofs.«123699_j87308095193388_2_alg».proof.Proof.Spec
import proofs.«123699_j87308095193388_2_alg».proof.Proof.SpecK

set_option maxRecDepth 16384

noncomputable section

namespace Cert.KernelIdeal.HostWin0A

open Cert.KernelIdeal Cert.KernelIdeal.Gen Cert.HeteroSpec Cert.HeteroSpecK
open Idealize.ShloMosaic Idealize.ShloMosaic.TcCoe Idealize.SL.Sem Idealize.ShloMosaic.StableHlo

variable [Cert.ReferenceIdeal.Facts]
variable (V : Valuation τ sig (Elt Ideal))

set_option maxHeartbeats 16000000 in
/-- Relation 0's aggregate, as the stretch leaves it in the relation's window array. -/
theorem agg0 : after (hostOps0_12 (F := Ideal)) V (Proc.devRef .tc main_v110)
    = aggK (V (Proc.devRef .tc main_arg0)) (V (Proc.devRef .tc main_v18)) (V (Proc.devRef .tc main_v26)) (edgeRow ![0, 0] Cert.ReferenceIdeal.Facts₀.slices_S3x400000_S1x400000_0_0 (V (Proc.devRef .tc main_arg1))) (edgeRow ![0, 0] Cert.ReferenceIdeal.Facts₀.slices_S3x400000_S1x400000_0_0 (V (Proc.devRef .tc main_arg2))) := by
  dsimp only [hostOps0_12]
  after_results_simp
  rfl

set_option maxHeartbeats 16000000 in
/-- Relation 1's aggregate, as the stretch leaves it in the relation's window array. -/
theorem agg1 : after (hostOps0_12 (F := Ideal)) V (Proc.devRef .tc main_v138)
    = aggK (V (Proc.devRef .tc main_arg0)) (V (Proc.devRef .tc main_v45)) (V (Proc.devRef .tc main_v53)) (edgeRow ![1, 0] Cert.ReferenceIdeal.Facts₀.slices_S3x400000_S1x400000_1_0 (V (Proc.devRef .tc main_arg1))) (edgeRow ![1, 0] Cert.ReferenceIdeal.Facts₀.slices_S3x400000_S1x400000_1_0 (V (Proc.devRef .tc main_arg2))) := by
  dsimp only [hostOps0_12]
  after_results_simp
  rfl

set_option maxHeartbeats 16000000 in
/-- Relation 2's aggregate, as the stretch leaves it in the relation's window array. -/
theorem agg2 : after (hostOps0_12 (F := Ideal)) V (Proc.devRef .tc main_v166)
    = aggK (V (Proc.devRef .tc main_arg0)) (V (Proc.devRef .tc main_v72)) (V (Proc.devRef .tc main_v80)) (edgeRow ![2, 0] Cert.ReferenceIdeal.Facts₀.slices_S3x400000_S1x400000_2_0 (V (Proc.devRef .tc main_arg1))) (edgeRow ![2, 0] Cert.ReferenceIdeal.Facts₀.slices_S3x400000_S1x400000_2_0 (V (Proc.devRef .tc main_arg2))) := by
  dsimp only [hostOps0_12]
  after_results_simp
  rfl

end Cert.KernelIdeal.HostWin0A

end
-- ==== Proof.HostWin0B.lean ====
/-
  The weights and biases of the kernel's first dense stage, as the host stretch before it leaves them.

  Over an arbitrary valuation of the buffers, the stretch of host operations that precedes the first pipelined region leaves
  in each of the region's window arrays the specification's term of the buffers the stretch reads: per relation the
  scaled aggregate of the layer's input, the relation's weight matrix, and the relation's bias as a row.
-/
import proofs.«123699_j87308095193388_2_alg».proof.Proof.Gen.KernelIdeal.Frame
import proofs.«123699_j87308095193388_2_alg».proof.Proof.Spec
import proofs.«123699_j87308095193388_2_alg».proof.Proof.SpecK

set_option maxRecDepth 16384

noncomputable section

namespace Cert.KernelIdeal.HostWin0B

open Cert.KernelIdeal Cert.KernelIdeal.Gen Cert.HeteroSpec Cert.HeteroSpecK
open Idealize.ShloMosaic Idealize.ShloMosaic.TcCoe Idealize.SL.Sem Idealize.ShloMosaic.StableHlo

variable [Cert.ReferenceIdeal.Facts]
variable (V : Valuation τ sig (Elt Ideal))

set_option maxHeartbeats 16000000 in
/-- Relation 0's weight matrix, as the stretch leaves it in the relation's window array. -/
theorem wmat0 : (after (hostOps0_12 (F := Ideal)) V (Proc.devRef .tc main_v168) : Cert.KernelIdeal.S256x256.Idx → EReal)
    = wMat ![0, 0, 0] Cert.ReferenceIdeal.Facts₀.slices_S3x256x256_S1x256x256_0_0_0 (V (Proc.devRef .tc main_arg4)) := by
  dsimp only [hostOps0_12]
  after_results_simp
  rfl

set_option maxHeartbeats 16000000 in
/-- Relation 0's bias row, as the stretch leaves it in the relation's window array. -/
theorem brow0 : after (hostOps0_12 (F := Ideal)) V (Proc.devRef .tc main_v175)
    = bRow (bVec ![0, 0] Cert.ReferenceIdeal.Facts₀.slices_S3x256_S1x256_0_0 (V (Proc.devRef .tc main_arg5))) := by
  dsimp only [hostOps0_12]
  after_results_simp
  rfl

set_option maxHeartbeats 16000000 in
/-- Relation 1's weight matrix, as the stretch leaves it in the relation's window array. -/
theorem wmat1 : (after (hostOps0_12 (F := Ideal)) V (Proc.devRef .tc main_v170) : Cert.KernelIdeal.S256x256.Idx → EReal)
    = wMat ![1, 0, 0] Cert.ReferenceIdeal.Facts₀.slices_S3x256x256_S1x256x256_1_0_0 (V (Proc.devRef .tc main_arg4)) := by
  dsimp only [hostOps0_12]
  after_results_simp
  rfl

set_option maxHeartbeats 16000000 in
/-- Relation 1's bias row, as the stretch leaves it in the relation's window array. -/
theorem brow1 : after (hostOps0_12 (F := Ideal)) V (Proc.devRef .tc main_v178)
    = bRow (bVec ![1, 0] Cert.ReferenceIdeal.Facts₀.slices_S3x256_S1x256_1_0 (V (Proc.devRef .tc main_arg5))) := by
  dsimp only [hostOps0_12]
  after_results_simp
  rfl

set_option maxHeartbeats 16000000 in
/-- Relation 2's weight matrix, as the stretch leaves it in the relation's window array. -/
theorem wmat2 : (after (hostOps0_12 (F := Ideal)) V (Proc.devRef .tc main_v172) : Cert.KernelIdeal.S256x256.Idx → EReal)
    = wMat ![2, 0, 0] Cert.ReferenceIdeal.Facts₀.slices_S3x256x256_S1x256x256_2_0_0 (V (Proc.devRef .tc main_arg4)) := by
  dsimp only [hostOps0_12]
  after_results_simp
  rfl

set_option maxHeartbeats 16000000 in
/-- Relation 2's bias row, as the stretch leaves it in the relation's window array. -/
theorem brow2 : after (hostOps0_12 (F := Ideal)) V (Proc.devRef .tc main_v181)
    = bRow (bVec ![2, 0] Cert.ReferenceIdeal.Facts₀.slices_S3x256_S1x256_2_0 (V (Proc.devRef .tc main_arg5))) := by
  dsimp only [hostOps0_12]
  after_results_simp
  rfl

set_option maxHeartbeats 16000000 in
/-- The second layer's weights in the narrower float format: the same array over the extended reals. -/
theorem w2cast : (after (hostOps0_12 (F := Ideal)) V (Proc.devRef .tc main_v82) : Cert.KernelIdeal.S3x256x256.Idx → EReal)
    = V (Proc.devRef .tc main_arg6) := by
  dsimp only [hostOps0_12]
  after_results_simp
  rfl

end Cert.KernelIdeal.HostWin0B

end
-- ==== Proof.HostWin1A.lean ====
/-
  The aggregates of the kernel's second dense stage, as the host stretch before it leaves them.

  Over an arbitrary valuation of the buffers, the stretch of host operations that precedes the second pipelined region leaves
  in each of the region's window arrays the specification's term of the buffers the stretch reads: per relation the
  scaled aggregate of the layer's input, the relation's weight matrix, and the relation's bias as a row.
-/
import proofs.«123699_j87308095193388_2_alg».proof.Proof.Gen.KernelIdeal.Frame
import proofs.«123699_j87308095193388_2_alg».proof.Proof.Spec
import proofs.«123699_j87308095193388_2_alg».proof.Proof.SpecK

set_option maxRecDepth 16384

noncomputable section

namespace Cert.KernelIdeal.HostWin1A

open Cert.KernelIdeal Cert.KernelIdeal.Gen Cert.HeteroSpec Cert.HeteroSpecK
open Idealize.ShloMosaic Idealize.ShloMosaic.TcCoe Idealize.SL.Sem Idealize.ShloMosaic.StableHlo

variable [Cert.ReferenceIdeal.Facts]
variable (V : Valuation τ sig (Elt Ideal))

set_option maxHeartbeats 16000000 in
/-- Relation 0's aggregate, as the stretch leaves it in the relation's window array. -/
theorem agg0 : after (hostOps1 (F := Ideal)) V (Proc.devRef .tc main_v210)
    = aggK (V (Proc.devRef .tc main_v182)) (V (Proc.devRef .tc main_v18)) (V (Proc.devRef .tc main_v26)) (edgeRow ![0, 0] Cert.ReferenceIdeal.Facts₀.slices_S3x400000_S1x400000_0_0 (V (Proc.devRef .tc main_arg1))) (edgeRow ![0, 0] Cert.ReferenceIdeal.Facts₀.slices_S3x400000_S1x400000_0_0 (V (Proc.devRef .tc main_arg2))) := by
  dsimp only [hostOps1]
  after_results_simp
  rfl

set_option maxHeartbeats 16000000 in
/-- Relation 1's aggregate, as the stretch leaves it in the relation's window array. -/
theorem agg1 : after (hostOps1 (F := Ideal)) V (Proc.devRef .tc main_v238)
    = aggK (V (Proc.devRef .tc main_v182)) (V (Proc.devRef .tc main_v45)) (V (Proc.devRef .tc main_v53)) (edgeRow ![1, 0] Cert.ReferenceIdeal.Facts₀.slices_S3x400000_S1x400000_1_0 (V (Proc.devRef .tc main_arg1))) (edgeRow ![1, 0] Cert.ReferenceIdeal.Facts₀.slices_S3x400000_S1x400000_1_0 (V (Proc.devRef .tc main_arg2))) := by
  dsimp only [hostOps1]
  after_results_simp
  rfl

set_option maxHeartbeats 16000000 in
/-- Relation 2's aggregate, as the stretch leaves it in the relation's window array. -/
theorem agg2 : after (hostOps1 (F := Ideal)) V (Proc.devRef .tc main_v266)
    = aggK (V (Proc.devRef .tc main_v182)) (V (Proc.devRef .tc main_v72)) (V (Proc.devRef .tc main_v80)) (edgeRow ![2, 0] Cert.ReferenceIdeal.Facts₀.slices_S3x400000_S1x400000_2_0 (V (Proc.devRef .tc main_arg1))) (edgeRow ![2, 0] Cert.ReferenceIdeal.Facts₀.slices_S3x400000_S1x400000_2_0 (V (Proc.devRef .tc main_arg2))) := by
  dsimp only [hostOps1]
  after_results_simp
  rfl

end Cert.KernelIdeal.HostWin1A

end
-- ==== Proof.HostWin1B.lean ====
/-
  The weights and biases of the kernel's second dense stage, as the host stretch before it leaves them.

  Over an arbitrary valuation of the buffers, the stretch of host operations that precedes the second pipelined region leaves
  in each of the region's window arrays the specification's term of the buffers the stretch reads: per relation the
  scaled aggregate of the layer's input, the relation's weight matrix, and the relation's bias as a row.
-/
import proofs.«123699_j87308095193388_2_alg».proof.Proof.Gen.KernelIdeal.Frame
import proofs.«123699_j87308095193388_2_alg».proof.Proof.Spec
import proofs.«123699_j87308095193388_2_alg».proof.Proof.SpecK

set_option maxRecDepth 16384

noncomputable section

namespace Cert.KernelIdeal.HostWin1B

open Cert.KernelIdeal Cert.KernelIdeal.Gen Cert.HeteroSpec Cert.HeteroSpecK
open Idealize.ShloMosaic Idealize.ShloMosaic.TcCoe Idealize.SL.Sem Idealize.ShloMosaic.StableHlo

variable [Cert.ReferenceIdeal.Facts]
variable (V : Valuation τ sig (Elt Ideal))

set_option maxHeartbeats 16000000 in
/-- Relation 0's weight matrix, as the stretch leaves it in the relation's window array. -/
theorem wmat0 : (after (hostOps1 (F := Ideal)) V (Proc.devRef .tc main_v268) : Cert.KernelIdeal.S256x256.Idx → EReal)
    = wMat ![0, 0, 0] Cert.ReferenceIdeal.Facts₀.slices_S3x256x256_S1x256x256_0_0_0 (V (Proc.devRef .tc main_v82)) := by
  dsimp only [hostOps1]
  after_results_simp
  rfl

set_option maxHeartbeats 16000000 in
/-- Relation 0's bias row, as the stretch leaves it in the relation's window array. -/
theorem brow0 : after (hostOps1 (F := Ideal)) V (Proc.devRef .tc main_v275)
    = bRow (bVec ![0, 0] Cert.ReferenceIdeal.Facts₀.slices_S3x256_S1x256_0_0 (V (Proc.devRef .tc main_arg7))) := by
  dsimp only [hostOps1]
  after_results_simp
  rfl

set_option maxHeartbeats 16000000 in
/-- Relation 1's weight matrix, as the stretch leaves it in the relation's window array. -/
theorem wmat1 : (after (hostOps1 (F := Ideal)) V (Proc.devRef .tc main_v270) : Cert.KernelIdeal.S256x256.Idx → EReal)
    = wMat ![1, 0, 0] Cert.ReferenceIdeal.Facts₀.slices_S3x256x256_S1x256x256_1_0_0 (V (Proc.devRef .tc main_v82)) := by
  dsimp only [hostOps1]
  after_results_simp
  rfl

set_option maxHeartbeats 16000000 in
/-- Relation 1's bias row, as the stretch leaves it in the relation's window array. -/
theorem brow1 : after (hostOps1 (F := Ideal)) V (Proc.devRef .tc main_v278)
    = bRow (bVec ![1, 0] Cert.ReferenceIdeal.Facts₀.slices_S3x256_S1x256_1_0 (V (Proc.devRef .tc main_arg7))) := by
  dsimp only [hostOps1]
  after_results_simp
  rfl

set_option maxHeartbeats 16000000 in
/-- Relation 2's weight matrix, as the stretch leaves it in the relation's window array. -/
theorem wmat2 : (after (hostOps1 (F := Ideal)) V (Proc.devRef .tc main_v272) : Cert.KernelIdeal.S256x256.Idx → EReal)
    = wMat ![2, 0, 0] Cert.ReferenceIdeal.Facts₀.slices_S3x256x256_S1x256x256_2_0_0 (V (Proc.devRef .tc main_v82)) := by
  dsimp only [hostOps1]
  after_results_simp
  rfl

set_option maxHeartbeats 16000000 in
/-- Relation 2's bias row, as the stretch leaves it in the relation's window array. -/
theorem brow2 : after (hostOps1 (F := Ideal)) V (Proc.devRef .tc main_v281)
    = bRow (bVec ![2, 0] Cert.ReferenceIdeal.Facts₀.slices_S3x256_S1x256_2_0 (V (Proc.devRef .tc main_arg7))) := by
  dsimp only [hostOps1]
  after_results_simp
  rfl

end Cert.KernelIdeal.HostWin1B

end
-- ==== Proof.HostTail.lean ====
/-
  The mean pooling at the end of the kernel program.

  Over an arbitrary valuation of the buffers, the last stretch of host operations leaves in the result buffer the
  specification's per-graph mean of the second dense stage's output array under the graph index vector.
-/
import proofs.«123699_j87308095193388_2_alg».proof.Proof.Gen.KernelIdeal.Frame
import proofs.«123699_j87308095193388_2_alg».proof.Proof.Spec
import proofs.«123699_j87308095193388_2_alg».proof.Proof.SpecK

set_option maxRecDepth 16384

noncomputable section

namespace Cert.KernelIdeal.HostTail

open Cert.KernelIdeal Cert.KernelIdeal.Gen Cert.HeteroSpec Cert.HeteroSpecK
open Idealize.ShloMosaic Idealize.ShloMosaic.TcCoe Idealize.SL.Sem Idealize.ShloMosaic.StableHlo

variable [Cert.ReferenceIdeal.Facts]
variable (V : Valuation τ sig (Elt Ideal))

set_option maxHeartbeats 16000000 in
theorem pool : after (hostOps2 (F := Ideal)) V (Proc.devRef .tc main_v294) = poolR (V (Proc.devRef .tc main_v282)) (V (Proc.devRef .tc main_arg3)) := by
  dsimp only [hostOps2]
  after_results_simp
  rfl

end Cert.KernelIdeal.HostTail

end
-- ==== Proof.KernelValue.lean ====
/-
  What the idealized kernel computes: the specification's network of its argument arrays.

  The program is a fold of segments over the launch memory.  Read in order: three blocks of host stretches leave the six
  degree norms; a long stretch leaves, per relation, the scaled aggregate of the input features, the weight matrix and
  the bias row in the first dense stage's window arrays; the first pipelined region leaves the dense stage of those
  arrays with its clamp, which is the clamp of the reference's first layer because the inputs are real numbers; a second
  long stretch and the second region do the same for the second layer over the first layer's output, which is again an
  array of reals; the last stretch takes the per-graph mean.  No segment writes an argument array, and the norms are read
  where they were left.
-/
import proofs.«123699_j87308095193388_2_alg».proof.Proof.Gen.KernelIdeal.Frame
import proofs.«123699_j87308095193388_2_alg».proof.Proof.Spec
import proofs.«123699_j87308095193388_2_alg».proof.Proof.SpecK
import proofs.«123699_j87308095193388_2_alg».proof.Proof.DenseSpec
import proofs.«123699_j87308095193388_2_alg».proof.Proof.LayerRead
import proofs.«123699_j87308095193388_2_alg».proof.Proof.Norms
import proofs.«123699_j87308095193388_2_alg».proof.Proof.RegionValue
import proofs.«123699_j87308095193388_2_alg».proof.Proof.HostKeep
import proofs.«123699_j87308095193388_2_alg».proof.Proof.HostNorms
import proofs.«123699_j87308095193388_2_alg».proof.Proof.HostWin0A
import proofs.«123699_j87308095193388_2_alg».proof.Proof.HostWin0B
import proofs.«123699_j87308095193388_2_alg».proof.Proof.HostWin1A
import proofs.«123699_j87308095193388_2_alg».proof.Proof.HostWin1B
import proofs.«123699_j87308095193388_2_alg».proof.Proof.HostTail

set_option maxRecDepth 16384

noncomputable section

namespace Cert.KernelIdeal.KernelValue

open Cert.KernelIdeal Cert.KernelIdeal.Gen Cert.HeteroSpec Cert.HeteroSpecK Cert.HeteroLayer Cert.HeteroBridge Cert.HeteroNorms
open Cert.GcnAlgebra (IsFin)
open Cert.KernelIdeal.HostKeep Cert.KernelIdeal.HostNorms
open Idealize.ShloMosaic Idealize.ShloMosaic.TcCoe Idealize.SL.Sem Idealize.ShloMosaic.StableHlo

variable [Cert.ReferenceIdeal.Facts]
variable (m : (ℓ : Loc nD τ sig) → Buf (Elt Ideal) ℓ) (ρ : Dev nD → PrngReg) (c : Dev nD)

/-! ## The launch contents and the three norm blocks -/

theorem W0_at (b : Ref sig .tc) : W0 m ρ c (Proc.devRef .tc b) = m ((c : Thread nD τ).loc b) := rfl

theorem W4_eq : W4 m ρ c = blk0 (W0 m ρ c) := rfl
theorem W8_eq : W8 m ρ c = blk1 (W4 m ρ c) := rfl
theorem W12_eq : W12 m ρ c = blk2 (W8 m ρ c) := rfl

/-- A buffer the first block does not write holds its launch contents after it. -/
theorem W4_keep (b : Ref sig .tc) (h0 : b.idx.val ∉ slots_hostOps0) (h1 : b.idx.val ∉ slots_hostOps0_1)
    (h2 : b.idx.val ∉ slots_hostOps0_2) (h3 : b.idx.val ∉ slots_hostOps0_3) :
    W4 m ρ c (Proc.devRef .tc b) = m ((c : Thread nD τ).loc b) := by
  rw [W4_eq, blk0_keep _ b h0 h1 h2 h3, W0_at]

/-- … and after the second block, if that does not write it either. -/
theorem W8_keep (b : Ref sig .tc) (h0 : b.idx.val ∉ slots_hostOps0) (h1 : b.idx.val ∉ slots_hostOps0_1)
    (h2 : b.idx.val ∉ slots_hostOps0_2) (h3 : b.idx.val ∉ slots_hostOps0_3)
    (h4 : b.idx.val ∉ slots_hostOps0_4) (h5 : b.idx.val ∉ slots_hostOps0_5)
    (h6 : b.idx.val ∉ slots_hostOps0_6) (h7 : b.idx.val ∉ slots_hostOps0_7) :
    W8 m ρ c (Proc.devRef .tc b) = m ((c : Thread nD τ).loc b) := by
  rw [W8_eq, blk1_keep _ b h4 h5 h6 h7, W4_keep m ρ c b h0 h1 h2 h3]

/-- … and after the third. -/
theorem W12_keep (b : Ref sig .tc) (h0 : b.idx.val ∉ slots_hostOps0) (h1 : b.idx.val ∉ slots_hostOps0_1)
    (h2 : b.idx.val ∉ slots_hostOps0_2) (h3 : b.idx.val ∉ slots_hostOps0_3)
    (h4 : b.idx.val ∉ slots_hostOps0_4) (h5 : b.idx.val ∉ slots_hostOps0_5)
    (h6 : b.idx.val ∉ slots_hostOps0_6) (h7 : b.idx.val ∉ slots_hostOps0_7)
    (h8 : b.idx.val ∉ slots_hostOps0_8) (h9 : b.idx.val ∉ slots_hostOps0_9)
    (h10 : b.idx.val ∉ slots_hostOps0_10) (h11 : b.idx.val ∉ slots_hostOps0_11) :
    W12 m ρ c (Proc.devRef .tc b) = m ((c : Thread nD τ).loc b) := by
  rw [W12_eq, blk2_keep _ b h8 h9 h10 h11, W8_keep m ρ c b h0 h1 h2 h3 h4 h5 h6 h7]

theorem W12_arg0 : W12 m ρ c (Proc.devRef .tc main_arg0) = m ((c : Thread nD τ).loc main_arg0) :=
  W12_keep m ρ c main_arg0 (by decide) (by decide) (by decide) (by decide) (by decide) (by decide) (by decide) (by decide) (by decide) (by decide) (by decide) (by decide)
theorem W12_arg1 : W12 m ρ c (Proc.devRef .tc main_arg1) = m ((c : Thread nD τ).loc main_arg1) :=
  W12_keep m ρ c main_arg1 (by decide) (by decide) (by decide) (by decide) (by decide) (by decide) (by decide) (by decide) (by decide) (by decide) (by decide) (by decide)
theorem W12_arg2 : W12 m ρ c (Proc.devRef .tc main_arg2) = m ((c : Thread nD τ).loc main_arg2) :=
  W12_keep m ρ c main_arg2 (by decide) (by decide) (by decide) (by decide) (by decide) (by decide) (by decide) (by decide) (by decide) (by decide) (by decide) (by decide)
theorem W12_arg3 : W12 m ρ c (Proc.devRef .tc main_arg3) = m ((c : Thread nD τ).loc main_arg3) :=
  W12_keep m ρ c main_arg3 (by decide) (by decide) (by decide) (by decide) (by decide) (by decide) (by decide) (by decide) (by decide) (by decide) (by decide) (by decide)
theorem W12_arg4 : W12 m ρ c (Proc.devRef .tc main_arg4) = m ((c : Thread nD τ).loc main_arg4) :=
  W12_keep m ρ c main_arg4 (by decide) (by decide) (by decide) (by decide) (by decide) (by decide) (by decide) (by decide) (by decide) (by decide) (by decide) (by decide)
theorem W12_arg5 : W12 m ρ c (Proc.devRef .tc main_arg5) = m ((c : Thread nD τ).loc main_arg5) :=
  W12_keep m ρ c main_arg5 (by decide) (by decide) (by decide) (by decide) (by decide) (by decide) (by decide) (by decide) (by decide) (by decide) (by decide) (by decide)
theorem W12_arg6 : W12 m ρ c (Proc.devRef .tc main_arg6) = m ((c : Thread nD τ).loc main_arg6) :=
  W12_keep m ρ c main_arg6 (by decide) (by decide) (by decide) (by decide) (by decide) (by decide) (by decide) (by decide) (by decide) (by decide) (by decide) (by decide)
theorem W12_arg7 : W12 m ρ c (Proc.devRef .tc main_arg7) = m ((c : Thread nD τ).loc main_arg7) :=
  W12_keep m ρ c main_arg7 (by decide) (by decide) (by decide) (by decide) (by decide) (by decide) (by decide) (by decide) (by decide) (by decide) (by decide) (by decide)

/-! ## The six norms after the third block -/

theorem W12_ns0 : W12 m ρ c (Proc.devRef .tc main_v18) = nrm (edgeRow ![0, 0] Cert.ReferenceIdeal.Facts₀.slices_S3x400000_S1x400000_0_0 (m ((c : Thread nD τ).loc main_arg1))) := by
  rw [W12_eq, blk2_keep _ main_v18 (by decide) (by decide) (by decide) (by decide), W8_eq, blk1_keep _ main_v18 (by decide) (by decide) (by decide) (by decide), W4_eq, blk0_ns, W0_at]
theorem W12_nd0 : W12 m ρ c (Proc.devRef .tc main_v26) = nrm (edgeRow ![0, 0] Cert.ReferenceIdeal.Facts₀.slices_S3x400000_S1x400000_0_0 (m ((c : Thread nD τ).loc main_arg2))) := by
  rw [W12_eq, blk2_keep _ main_v26 (by decide) (by decide) (by decide) (by decide), W8_eq, blk1_keep _ main_v26 (by decide) (by decide) (by decide) (by decide), W4_eq, blk0_nd, W0_at]
theorem W12_ns1 : W12 m ρ c (Proc.devRef .tc main_v45) = nrm (edgeRow ![1, 0] Cert.ReferenceIdeal.Facts₀.slices_S3x400000_S1x400000_1_0 (m ((c : Thread nD τ).loc main_arg1))) := by
  rw [W12_eq, blk2_keep _ main_v45 (by decide) (by decide) (by decide) (by decide), W8_eq, blk1_ns, W4_keep m ρ c main_arg1 (by decide) (by decide) (by decide) (by decide)]
theorem W12_nd1 : W12 m ρ c (Proc.devRef .tc main_v53) = nrm (edgeRow ![1, 0] Cert.ReferenceIdeal.Facts₀.slices_S3x400000_S1x400000_1_0 (m ((c : Thread nD τ).loc main_arg2))) := by
  rw [W12_eq, blk2_keep _ main_v53 (by decide) (by decide) (by decide) (by decide), W8_eq, blk1_nd, W4_keep m ρ c main_arg2 (by decide) (by decide) (by decide) (by decide)]
theorem W12_ns2 : W12 m ρ c (Proc.devRef .tc main_v72) = nrm (edgeRow ![2, 0] Cert.ReferenceIdeal.Facts₀.slices_S3x400000_S1x400000_2_0 (m ((c : Thread nD τ).loc main_arg1))) := by
  rw [W12_eq, blk2_ns, W8_keep m ρ c main_arg1 (by decide) (by decide) (by decide) (by decide) (by decide) (by decide) (by decide) (by decide)]
theorem W12_nd2 : W12 m ρ c (Proc.devRef .tc main_v80) = nrm (edgeRow ![2, 0] Cert.ReferenceIdeal.Facts₀.slices_S3x400000_S1x400000_2_0 (m ((c : Thread nD τ).loc main_arg2))) := by
  rw [W12_eq, blk2_nd, W8_keep m ρ c main_arg2 (by decide) (by decide) (by decide) (by decide) (by decide) (by decide) (by decide) (by decide)]

/-! ## The first dense stage's window arrays -/

theorem W13_eq : W13 m ρ c = after (hostOps0_12 (F := Ideal)) (W12 m ρ c) := rfl

theorem W13_agg0 : W13 m ρ c (Proc.devRef .tc main_v110) = aggK (m ((c : Thread nD τ).loc main_arg0)) (nrm (edgeRow ![0, 0] Cert.ReferenceIdeal.Facts₀.slices_S3x400000_S1x400000_0_0 (m ((c : Thread nD τ).loc main_arg1)))) (nrm (edgeRow ![0, 0] Cert.ReferenceIdeal.Facts₀.slices_S3x400000_S1x400000_0_0 (m ((c : Thread nD τ).loc main_arg2)))) (edgeRow ![0, 0] Cert.ReferenceIdeal.Facts₀.slices_S3x400000_S1x400000_0_0 (m ((c : Thread nD τ).loc main_arg1))) (edgeRow ![0, 0] Cert.ReferenceIdeal.Facts₀.slices_S3x400000_S1x400000_0_0 (m ((c : Thread nD τ).loc main_arg2))) := by
  rw [W13_eq, HostWin0A.agg0, W12_arg0, W12_ns0, W12_nd0, W12_arg1, W12_arg2]
theorem W13_wmat0 : (W13 m ρ c (Proc.devRef .tc main_v168) : Cert.KernelIdeal.S256x256.Idx → EReal) = wMat ![0, 0, 0] Cert.ReferenceIdeal.Facts₀.slices_S3x256x256_S1x256x256_0_0_0 (m ((c : Thread nD τ).loc main_arg4)) := by
  rw [W13_eq, HostWin0B.wmat0, W12_arg4]
theorem W13_brow0 : W13 m ρ c (Proc.devRef .tc main_v175) = bRow (bVec ![0, 0] Cert.ReferenceIdeal.Facts₀.slices_S3x256_S1x256_0_0 (m ((c : Thread nD τ).loc main_arg5))) := by
  rw [W13_eq, HostWin0B.brow0, W12_arg5]
theorem W13_agg1 : W13 m ρ c (Proc.devRef .tc main_v138) = aggK (m ((c : Thread nD τ).loc main_arg0)) (nrm (edgeRow ![1, 0] Cert.ReferenceIdeal.Facts₀.slices_S3x400000_S1x400000_1_0 (m ((c : Thread nD τ).loc main_arg1)))) (nrm (edgeRow ![1, 0] Cert.ReferenceIdeal.Facts₀.slices_S3x400000_S1x400000_1_0 (m ((c : Thread nD τ).loc main_arg2)))) (edgeRow ![1, 0] Cert.ReferenceIdeal.Facts₀.slices_S3x400000_S1x400000_1_0 (m ((c : Thread nD τ).loc main_arg1))) (edgeRow ![1, 0] Cert.ReferenceIdeal.Facts₀.slices_S3x400000_S1x400000_1_0 (m ((c : Thread nD τ).loc main_arg2))) := by
  rw [W13_eq, HostWin0A.agg1, W12_arg0, W12_ns1, W12_nd1, W12_arg1, W12_arg2]
theorem W13_wmat1 : (W13 m ρ c (Proc.devRef .tc main_v170) : Cert.KernelIdeal.S256x256.Idx → EReal) = wMat ![1, 0, 0] Cert.ReferenceIdeal.Facts₀.slices_S3x256x256_S1x256x256_1_0_0 (m ((c : Thread nD τ).loc main_arg4)) := by
  rw [W13_eq, HostWin0B.wmat1, W12_arg4]
theorem W13_brow1 : W13 m ρ c (Proc.devRef .tc main_v178) = bRow (bVec ![1, 0] Cert.ReferenceIdeal.Facts₀.slices_S3x256_S1x256_1_0 (m ((c : Thread nD τ).loc main_arg5))) := by
  rw [W13_eq, HostWin0B.brow1, W12_arg5]
theorem W13_agg2 : W13 m ρ c (Proc.devRef .tc main_v166) = aggK (m ((c : Thread nD τ).loc main_arg0)) (nrm (edgeRow ![2, 0] Cert.ReferenceIdeal.Facts₀.slices_S3x400000_S1x400000_2_0 (m ((c : Thread nD τ).loc main_arg1)))) (nrm (edgeRow ![2, 0] Cert.ReferenceIdeal.Facts₀.slices_S3x400000_S1x400000_2_0 (m ((c : Thread nD τ).loc main_arg2)))) (edgeRow ![2, 0] Cert.ReferenceIdeal.Facts₀.slices_S3x400000_S1x400000_2_0 (m ((c : Thread nD τ).loc main_arg1))) (edgeRow ![2, 0] Cert.ReferenceIdeal.Facts₀.slices_S3x400000_S1x400000_2_0 (m ((c : Thread nD τ).loc main_arg2))) := by
  rw [W13_eq, HostWin0A.agg2, W12_arg0, W12_ns2, W12_nd2, W12_arg1, W12_arg2]
theorem W13_wmat2 : (W13 m ρ c (Proc.devRef .tc main_v172) : Cert.KernelIdeal.S256x256.Idx → EReal) = wMat ![2, 0, 0] Cert.ReferenceIdeal.Facts₀.slices_S3x256x256_S1x256x256_2_0_0 (m ((c : Thread nD τ).loc main_arg4)) := by
  rw [W13_eq, HostWin0B.wmat2, W12_arg4]
theorem W13_brow2 : W13 m ρ c (Proc.devRef .tc main_v181) = bRow (bVec ![2, 0] Cert.ReferenceIdeal.Facts₀.slices_S3x256_S1x256_2_0 (m ((c : Thread nD τ).loc main_arg5))) := by
  rw [W13_eq, HostWin0B.brow2, W12_arg5]

/-- What the first stretch of window operations leaves alone holds what the norm blocks left. -/
theorem W13_keep (b : Ref sig .tc) (h : b.idx.val ∉ slots_hostOps0_12) :
    W13 m ρ c (Proc.devRef .tc b) = W12 m ρ c (Proc.devRef .tc b) := by
  rw [W13_eq, keep_hostOps0_12 _ b h]

/-! ## Slices of real arrays are real -/

theorem wMat_isFin (off : Fin Cert.ReferenceIdeal.S3x256x256.rank → Nat) (h) (W : FVec Ideal Cert.ReferenceIdeal.S3x256x256 .f32)
    (hW : ∀ i, IsFin (W i)) (j : Cert.ReferenceIdeal.S256x256.Idx) : IsFin (wMat off h W j) := by
  unfold wMat shapeCast extractStridedSlice
  exact hW _

theorem bVec_isFin (off : Fin Cert.ReferenceIdeal.S3x256.rank → Nat) (h) (b : FVec Ideal Cert.ReferenceIdeal.S3x256 .f32)
    (hb : ∀ i, IsFin (b i)) (j : Cert.ReferenceIdeal.S256.Idx) : IsFin (bVec off h b j) := by
  unfold bVec shapeCast extractStridedSlice
  exact hb _

/-! ## The first layer -/

/-- The first layer of the specification over the kernel's argument arrays, clamped. -/
abbrev X1 : FVec Ideal Cert.ReferenceIdeal.S100000x256 .f32 :=
  reluR (layerOf (m ((c : Thread nD τ).loc main_arg0)) (m ((c : Thread nD τ).loc main_arg1)) (m ((c : Thread nD τ).loc main_arg2)) (m ((c : Thread nD τ).loc main_arg4)) (m ((c : Thread nD τ).loc main_arg5)))

theorem layerOf_isFin (X : FVec Ideal Cert.ReferenceIdeal.S100000x256 .f32) (a1 a2 : IVec Cert.ReferenceIdeal.S3x400000 32)
    (W : FVec Ideal Cert.ReferenceIdeal.S3x256x256 .f32) (b : FVec Ideal Cert.ReferenceIdeal.S3x256 .f32)
    (hX : ∀ i, IsFin (X i)) (hW : ∀ i, IsFin (W i)) (hb : ∀ i, IsFin (b i)) (i : Cert.ReferenceIdeal.S100000x256.Idx) :
    IsFin (layerOf X a1 a2 W b i) := by
  unfold layerOf
  exact layerR_isFin X hX _ _ _ _ _ _ (nrm_isFin _) (nrm_isFin _) (nrm_isFin _) (nrm_isFin _) (nrm_isFin _) (nrm_isFin _)
    _ _ _ _ _ _ _ _ _ (wMat_isFin _ _ W hW) (wMat_isFin _ _ W hW) (wMat_isFin _ _ W hW)
    _ _ _ (bVec_isFin _ _ b hb) (bVec_isFin _ _ b hb) (bVec_isFin _ _ b hb) i

/-- The dense stage over the kernel's arrangement of a layer's inputs is the specification's layer, for real inputs. -/
theorem dense_layerOf (X : FVec Ideal Cert.ReferenceIdeal.S100000x256 .f32) (a1 a2 : IVec Cert.ReferenceIdeal.S3x400000 32)
    (W : FVec Ideal Cert.ReferenceIdeal.S3x256x256 .f32) (b : FVec Ideal Cert.ReferenceIdeal.S3x256 .f32)
    (hX : ∀ i, IsFin (X i)) (hW : ∀ i, IsFin (W i)) :
    dense false
      (aggK X (nrm (edgeRow ![0, 0] Cert.ReferenceIdeal.Facts₀.slices_S3x400000_S1x400000_0_0 a1)) (nrm (edgeRow ![0, 0] Cert.ReferenceIdeal.Facts₀.slices_S3x400000_S1x400000_0_0 a2)) (edgeRow ![0, 0] Cert.ReferenceIdeal.Facts₀.slices_S3x400000_S1x400000_0_0 a1) (edgeRow ![0, 0] Cert.ReferenceIdeal.Facts₀.slices_S3x400000_S1x400000_0_0 a2))
      (aggK X (nrm (edgeRow ![1, 0] Cert.ReferenceIdeal.Facts₀.slices_S3x400000_S1x400000_1_0 a1)) (nrm (edgeRow ![1, 0] Cert.ReferenceIdeal.Facts₀.slices_S3x400000_S1x400000_1_0 a2)) (edgeRow ![1, 0] Cert.ReferenceIdeal.Facts₀.slices_S3x400000_S1x400000_1_0 a1) (edgeRow ![1, 0] Cert.ReferenceIdeal.Facts₀.slices_S3x400000_S1x400000_1_0 a2))
      (aggK X (nrm (edgeRow ![2, 0] Cert.ReferenceIdeal.Facts₀.slices_S3x400000_S1x400000_2_0 a1)) (nrm (edgeRow ![2, 0] Cert.ReferenceIdeal.Facts₀.slices_S3x400000_S1x400000_2_0 a2)) (edgeRow ![2, 0] Cert.ReferenceIdeal.Facts₀.slices_S3x400000_S1x400000_2_0 a1) (edgeRow ![2, 0] Cert.ReferenceIdeal.Facts₀.slices_S3x400000_S1x400000_2_0 a2))
      (wMat ![0, 0, 0] Cert.ReferenceIdeal.Facts₀.slices_S3x256x256_S1x256x256_0_0_0 W) (wMat ![1, 0, 0] Cert.ReferenceIdeal.Facts₀.slices_S3x256x256_S1x256x256_1_0_0 W) (wMat ![2, 0, 0] Cert.ReferenceIdeal.Facts₀.slices_S3x256x256_S1x256x256_2_0_0 W)
      (bRow (bVec ![0, 0] Cert.ReferenceIdeal.Facts₀.slices_S3x256_S1x256_0_0 b)) (bRow (bVec ![1, 0] Cert.ReferenceIdeal.Facts₀.slices_S3x256_S1x256_1_0 b)) (bRow (bVec ![2, 0] Cert.ReferenceIdeal.Facts₀.slices_S3x256_S1x256_2_0 b))
      = layerOf X a1 a2 W b := by
  unfold layerOf
  exact layer_bridge X hX _ _ _ _ _ _ (nrm_isFin _) (nrm_isFin _) (nrm_isFin _) (nrm_isFin _) (nrm_isFin _) (nrm_isFin _)
    _ _ _ _ _ _ _ _ _ (wMat_isFin _ _ W hW) (wMat_isFin _ _ W hW) (wMat_isFin _ _ W hW) _ _ _

variable (h0 : ∀ i, IsFin ((m ((c : Thread nD τ).loc main_arg0)) i)) (h4 : ∀ i, IsFin ((m ((c : Thread nD τ).loc main_arg4)) i)) (h5 : ∀ i, IsFin ((m ((c : Thread nD τ).loc main_arg5)) i))
  (h6 : ∀ i, IsFin ((m ((c : Thread nD τ).loc main_arg6)) i)) (h7 : ∀ i, IsFin ((m ((c : Thread nD τ).loc main_arg7)) i))

include h0 h4 in
/-- The first pipelined region leaves the clamped first layer in its output array. -/
theorem W14_out : W14 m ρ c (Proc.devRef .tc main_v182) = X1 m c := by
  have e := W14_arr m ρ c (9 : Fin cfg0.W)
  refine (show W14 m ρ c (Proc.devRef .tc main_v182) = (dat0 (V13 m ρ) c).arrAt 9 cfg0.N from e).trans ?_
  rw [Cert.KernelIdeal.RegionValue.region0_value (V13 m ρ) c]
  show dense true (W13 m ρ c (Proc.devRef .tc main_v110)) (W13 m ρ c (Proc.devRef .tc main_v138)) (W13 m ρ c (Proc.devRef .tc main_v166))
      (W13 m ρ c (Proc.devRef .tc main_v168)) (W13 m ρ c (Proc.devRef .tc main_v170)) (W13 m ρ c (Proc.devRef .tc main_v172))
      (W13 m ρ c (Proc.devRef .tc main_v175)) (W13 m ρ c (Proc.devRef .tc main_v178)) (W13 m ρ c (Proc.devRef .tc main_v181)) = _
  rw [W13_agg0, W13_agg1, W13_agg2, W13_wmat0, W13_wmat1, W13_wmat2, W13_brow0, W13_brow1, W13_brow2, dense_true_eq,
    dense_layerOf (m ((c : Thread nD τ).loc main_arg0)) (m ((c : Thread nD τ).loc main_arg1)) (m ((c : Thread nD τ).loc main_arg2)) (m ((c : Thread nD τ).loc main_arg4)) (m ((c : Thread nD τ).loc main_arg5)) h0 h4]

include h0 h4 h5 in
theorem X1_isFin (i : Cert.ReferenceIdeal.S100000x256.Idx) : IsFin (X1 m c i) :=
  reluR_isFin _ (layerOf_isFin _ _ _ _ _ h0 h4 h5) i

/-! ## Between the regions -/

/-- A buffer that is none of the first region's window arrays holds after the region what it held before. -/
theorem W14_keep (b : Ref sig .tc) (hb : ∀ w, Pipeline.arrRef spec0 w ≠ b) (h : b.idx.val ∉ slots_hostOps0_12) :
    W14 m ρ c (Proc.devRef .tc b) = W12 m ρ c (Proc.devRef .tc b) := by
  rw [W14_of_ne m ρ c b hb, W13_keep m ρ c b h]

theorem W15_eq : W15 m ρ c = after (hostOps1 (F := Ideal)) (W14 m ρ c) := rfl

/-- The second layer's weights, stored in the narrower format, are the argument's. -/
theorem W14_w2 : (W14 m ρ c (Proc.devRef .tc main_v82) : Cert.KernelIdeal.S3x256x256.Idx → EReal) = (m ((c : Thread nD τ).loc main_arg6)) := by
  rw [W14_of_ne m ρ c main_v82 (by decide), W13_eq]
  exact (HostWin0B.w2cast (W12 m ρ c)).trans (W12_arg6 m ρ c)

include h0 h4 in
theorem W15_agg0 : W15 m ρ c (Proc.devRef .tc main_v210) = aggK (X1 m c) (nrm (edgeRow ![0, 0] Cert.ReferenceIdeal.Facts₀.slices_S3x400000_S1x400000_0_0 (m ((c : Thread nD τ).loc main_arg1)))) (nrm (edgeRow ![0, 0] Cert.ReferenceIdeal.Facts₀.slices_S3x400000_S1x400000_0_0 (m ((c : Thread nD τ).loc main_arg2)))) (edgeRow ![0, 0] Cert.ReferenceIdeal.Facts₀.slices_S3x400000_S1x400000_0_0 (m ((c : Thread nD τ).loc main_arg1))) (edgeRow ![0, 0] Cert.ReferenceIdeal.Facts₀.slices_S3x400000_S1x400000_0_0 (m ((c : Thread nD τ).loc main_arg2))) := by
  rw [W15_eq, HostWin1A.agg0, W14_out m ρ c h0 h4, W14_keep m ρ c main_v18 (by decide) (by decide), W14_keep m ρ c main_v26 (by decide) (by decide),
    W14_keep m ρ c main_arg1 (by decide) (by decide), W14_keep m ρ c main_arg2 (by decide) (by decide), W12_ns0, W12_nd0, W12_arg1, W12_arg2]
theorem W15_wmat0 : (W15 m ρ c (Proc.devRef .tc main_v268) : Cert.KernelIdeal.S256x256.Idx → EReal) = wMat ![0, 0, 0] Cert.ReferenceIdeal.Facts₀.slices_S3x256x256_S1x256x256_0_0_0 (m ((c : Thread nD τ).loc main_arg6)) := by
  rw [W15_eq, HostWin1B.wmat0, W14_w2]
theorem W15_brow0 : W15 m ρ c (Proc.devRef .tc main_v275) = bRow (bVec ![0, 0] Cert.ReferenceIdeal.Facts₀.slices_S3x256_S1x256_0_0 (m ((c : Thread nD τ).loc main_arg7))) := by
  rw [W15_eq, HostWin1B.brow0, W14_keep m ρ c main_arg7 (by decide) (by decide), W12_arg7]
include h0 h4 in
theorem W15_agg1 : W15 m ρ c (Proc.devRef .tc main_v238) = aggK (X1 m c) (nrm (edgeRow ![1, 0] Cert.ReferenceIdeal.Facts₀.slices_S3x400000_S1x400000_1_0 (m ((c : Thread nD τ).loc main_arg1)))) (nrm (edgeRow ![1, 0] Cert.ReferenceIdeal.Facts₀.slices_S3x400000_S1x400000_1_0 (m ((c : Thread nD τ).loc main_arg2)))) (edgeRow ![1, 0] Cert.ReferenceIdeal.Facts₀.slices_S3x400000_S1x400000_1_0 (m ((c : Thread nD τ).loc main_arg1))) (edgeRow ![1, 0] Cert.ReferenceIdeal.Facts₀.slices_S3x400000_S1x400000_1_0 (m ((c : Thread nD τ).loc main_arg2))) := by
  rw [W15_eq, HostWin1A.agg1, W14_out m ρ c h0 h4, W14_keep m ρ c main_v45 (by decide) (by decide), W14_keep m ρ c main_v53 (by decide) (by decide),
    W14_keep m ρ c main_arg1 (by decide) (by decide), W14_keep m ρ c main_arg2 (by decide) (by decide), W12_ns1, W12_nd1, W12_arg1, W12_arg2]
theorem W15_wmat1 : (W15 m ρ c (Proc.devRef .tc main_v270) : Cert.KernelIdeal.S256x256.Idx → EReal) = wMat ![1, 0, 0] Cert.ReferenceIdeal.Facts₀.slices_S3x256x256_S1x256x256_1_0_0 (m ((c : Thread nD τ).loc main_arg6)) := by
  rw [W15_eq, HostWin1B.wmat1, W14_w2]
theorem W15_brow1 : W15 m ρ c (Proc.devRef .tc main_v278) = bRow (bVec ![1, 0] Cert.ReferenceIdeal.Facts₀.slices_S3x256_S1x256_1_0 (m ((c : Thread nD τ).loc main_arg7))) := by
  rw [W15_eq, HostWin1B.brow1, W14_keep m ρ c main_arg7 (by decide) (by decide), W12_arg7]
include h0 h4 in
theorem W15_agg2 : W15 m ρ c (Proc.devRef .tc main_v266) = aggK (X1 m c) (nrm (edgeRow ![2, 0] Cert.ReferenceIdeal.Facts₀.slices_S3x400000_S1x400000_2_0 (m ((c : Thread nD τ).loc main_arg1)))) (nrm (edgeRow ![2, 0] Cert.ReferenceIdeal.Facts₀.slices_S3x400000_S1x400000_2_0 (m ((c : Thread nD τ).loc main_arg2)))) (edgeRow ![2, 0] Cert.ReferenceIdeal.Facts₀.slices_S3x400000_S1x400000_2_0 (m ((c : Thread nD τ).loc main_arg1))) (edgeRow ![2, 0] Cert.ReferenceIdeal.Facts₀.slices_S3x400000_S1x400000_2_0 (m ((c : Thread nD τ).loc main_arg2))) := by
  rw [W15_eq, HostWin1A.agg2, W14_out m ρ c h0 h4, W14_keep m ρ c main_v72 (by decide) (by decide), W14_keep m ρ c main_v80 (by decide) (by decide),
    W14_keep m ρ c main_arg1 (by decide) (by decide), W14_keep m ρ c main_arg2 (by decide) (by decide), W12_ns2, W12_nd2, W12_arg1, W12_arg2]
theorem W15_wmat2 : (W15 m ρ c (Proc.devRef .tc main_v272) : Cert.KernelIdeal.S256x256.Idx → EReal) = wMat ![2, 0, 0] Cert.ReferenceIdeal.Facts₀.slices_S3x256x256_S1x256x256_2_0_0 (m ((c : Thread nD τ).loc main_arg6)) := by
  rw [W15_eq, HostWin1B.wmat2, W14_w2]
theorem W15_brow2 : W15 m ρ c (Proc.devRef .tc main_v281) = bRow (bVec ![2, 0] Cert.ReferenceIdeal.Facts₀.slices_S3x256_S1x256_2_0 (m ((c : Thread nD τ).loc main_arg7))) := by
  rw [W15_eq, HostWin1B.brow2, W14_keep m ρ c main_arg7 (by decide) (by decide), W12_arg7]

/-! ## The second layer and the mean -/

include h0 h4 h5 h6 in
/-- The second pipelined region leaves the second layer of the clamped first layer in its output array. -/
theorem W16_out : W16 m ρ c (Proc.devRef .tc main_v282) = layerOf (X1 m c) (m ((c : Thread nD τ).loc main_arg1)) (m ((c : Thread nD τ).loc main_arg2)) (m ((c : Thread nD τ).loc main_arg6)) (m ((c : Thread nD τ).loc main_arg7)) := by
  have e := W16_arr m ρ c (9 : Fin cfg1.W)
  refine (show W16 m ρ c (Proc.devRef .tc main_v282) = (dat1 (V15 m ρ) c).arrAt 9 cfg1.N from e).trans ?_
  rw [Cert.KernelIdeal.RegionValue.region1_value (V15 m ρ) c]
  show dense false (W15 m ρ c (Proc.devRef .tc main_v210)) (W15 m ρ c (Proc.devRef .tc main_v238)) (W15 m ρ c (Proc.devRef .tc main_v266))
      (W15 m ρ c (Proc.devRef .tc main_v268)) (W15 m ρ c (Proc.devRef .tc main_v270)) (W15 m ρ c (Proc.devRef .tc main_v272))
      (W15 m ρ c (Proc.devRef .tc main_v275)) (W15 m ρ c (Proc.devRef .tc main_v278)) (W15 m ρ c (Proc.devRef .tc main_v281)) = _
  rw [W15_agg0 m ρ c h0 h4, W15_agg1 m ρ c h0 h4, W15_agg2 m ρ c h0 h4, W15_wmat0, W15_wmat1, W15_wmat2, W15_brow0, W15_brow1, W15_brow2,
    dense_layerOf (X1 m c) (m ((c : Thread nD τ).loc main_arg1)) (m ((c : Thread nD τ).loc main_arg2)) (m ((c : Thread nD τ).loc main_arg6)) (m ((c : Thread nD τ).loc main_arg7)) (X1_isFin m c h0 h4 h5) h6]

/-- The graph index vector reaches the last stretch as launched. -/
theorem W16_arg3 : W16 m ρ c (Proc.devRef .tc main_arg3) = m ((c : Thread nD τ).loc main_arg3) := by
  rw [W16_of_ne m ρ c main_arg3 (by decide), W15_eq, keep_hostOps1 _ main_arg3 (by decide),
    W14_keep m ρ c main_arg3 (by decide) (by decide), W12_arg3]

include h0 h4 h5 h6 in
/-- THE KERNEL'S VALUE: its result buffer ends at the specification's network of its argument arrays. -/
theorem result_eq_net :
    W17 m ρ c (Proc.devRef .tc main_v294)
      = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show after (hostOps2 (F := Ideal)) (W16 m ρ c) (Proc.devRef .tc main_v294) = _
  rw [HostTail.pool, W16_out m ρ c h0 h4 h5 h6, W16_arg3]
  unfold net
  rfl

end Cert.KernelIdeal.KernelValue

end
-- ==== Proof.FiniteInputs.lean ====
/-
  From the certificate's precondition to "every float input entry is a real number", over the extended reals.

  The precondition is the conjunction, over the five float arguments, of "every entry x has |x| < +∞": the absolute
  value is max x (-x), the bound is the extended real the pattern 0x7F800000 denotes, which is ⊤, the comparison is
  the linear order's, the conjunction over an array is a reduction by "and" from 1 into a result of one index, and the
  five results are joined by "and".  A conjunction of one-bit words that is 1 has every conjunct 1, so every entry of
  every float argument satisfies max x (-x) < ⊤.  On the extended reals that excludes exactly the two infinities:
  at ⊤ the maximum is ⊤ itself, at ⊥ it is -⊥ = ⊤; what is left is a coerced real, which is the witness.
-/
import proofs.«123699_j87308095193388_2_alg».proof.Defs
import proofs.«123699_j87308095193388_2_alg».proof.Proof.LibGcnLayer
import Idealize.ShloMosaic.Lib.ReduceAll
import Idealize.ShloMosaic.Lib.ValueIdx

noncomputable section

namespace Cert.FiniteInputs

open Idealize.ShloMosaic Idealize.SL.Sem
open Cert.GcnAlgebra (IsFin)

/-- The shape with no axes has one index. -/
instance : Subsingleton Cert.Pre_finite_inputs.S_.Idx := ⟨fun a b => funext fun d => d.elim0⟩

/-- The pattern 0x7F800000 (sign 0, exponent all ones, fraction 0) denotes +∞. -/
theorem inf_bits : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by cases b <;> decide

/-- An extended real whose absolute value is below +∞ is a real number: ⊤ and ⊥ both have absolute value ⊤. -/
theorem isFin_of_abs_lt (x : EReal)
    (h : Ideal.cmp .olt (max x (-x)) (Ideal.ofBits .f32 0x7F800000#32) = 1#1) : IsFin x := by
  rw [inf_bits] at h
  unfold Ideal.cmp at h
  rw [ofBool_eq_one] at h
  simp only [decide_eq_true_eq] at h
  induction x using EReal.rec with
  | bot => simp at h
  | top => simp at h
  | coe r => exact ⟨r, rfl⟩

variable [Cert.Pre_finite_inputs.Facts]

open Cert.Pre_finite_inputs in
/-- THE PRECONDITION DECODED: if the printed predicate is all ones, every entry of every float argument is a real. -/
theorem finite_of_pre (a0 : FVec Ideal S100000x256 .f32) (a1 a2 : IVec S3x400000 32) (a3 : IVec S100000 32)
    (a4 : FVec Ideal S3x256x256 .f32) (a5 : FVec Ideal S3x256 .f32) (a6 : FVec Ideal S3x256x256 .f32)
    (a7 : FVec Ideal S3x256 .f32)
    (h : Cert.Pre_finite_inputs.fn (F := Ideal) a0 a1 a2 a3 a4 a5 a6 a7 = (fun _ => 1#1)) :
    (∀ i, IsFin (a0 i)) ∧ (∀ i, IsFin (a4 i)) ∧ (∀ i, IsFin (a5 i)) ∧ (∀ i, IsFin (a6 i)) ∧ (∀ i, IsFin (a7 i)) := by
  have e := congrFun h ValueIdx.ix0
  unfold Cert.Pre_finite_inputs.fn Cert.Pre_finite_inputs.fn_part1 at e
  simp only [andi, IntOp.andi_eq_one] at e
  obtain ⟨⟨⟨⟨h0, h4⟩, h5⟩, h6⟩, h7⟩ := e
  refine ⟨fun i => ?_, fun i => ?_, fun i => ?_, fun i => ?_, fun i => ?_⟩
  · exact isFin_of_abs_lt _ (Host.reduce_andi_all _ _ _ _ _ h0 i)
  · exact isFin_of_abs_lt _ (Host.reduce_andi_all _ _ _ _ _ h4 i)
  · exact isFin_of_abs_lt _ (Host.reduce_andi_all _ _ _ _ _ h5 i)
  · exact isFin_of_abs_lt _ (Host.reduce_andi_all _ _ _ _ _ h6 i)
  · exact isFin_of_abs_lt _ (Host.reduce_andi_all _ _ _ _ _ h7 i)

/-- The claim's precondition hands over the predicate at the launch memory's argument buffers, on every device:
    every entry of the five float argument buffers is a real. -/
theorem finite_of_Pre_KernelIdeal
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsFin ((m ((c.tc : Thread Cert.KernelIdeal.nD Cert.KernelIdeal.τ).loc Cert.KernelIdeal.main_arg0)) i)) ∧
    (∀ i, IsFin ((m ((c.tc : Thread Cert.KernelIdeal.nD Cert.KernelIdeal.τ).loc Cert.KernelIdeal.main_arg4)) i)) ∧
    (∀ i, IsFin ((m ((c.tc : Thread Cert.KernelIdeal.nD Cert.KernelIdeal.τ).loc Cert.KernelIdeal.main_arg5)) i)) ∧
    (∀ i, IsFin ((m ((c.tc : Thread Cert.KernelIdeal.nD Cert.KernelIdeal.τ).loc Cert.KernelIdeal.main_arg6)) i)) ∧
    (∀ i, IsFin ((m ((c.tc : Thread Cert.KernelIdeal.nD Cert.KernelIdeal.τ).loc Cert.KernelIdeal.main_arg7)) i)) :=
  finite_of_pre _ _ _ _ _ _ _ _ (hpre c)

end Cert.FiniteInputs

end
-- ==== Proof.lean ====
/-
  The certificate of a two-layer heterogeneous graph network: the Pallas kernel against its jnp reference, over the
  extended reals.

  Both programs compute, for three relations given as edge lists, the degree norms of the sources and of the
  destinations; per relation and layer the source-scaled node features gathered along the edges and added up at the
  destinations, a dense product with the relation's weights, the destination norm and a bias; the three relations summed;
  a clamp below by zero between the two layers; and at the end the per-graph mean of the node rows.

  They arrange one layer differently.  The reference scales the features by the source norm, gathers, adds up, multiplies
  by the weights, scales the product by the destination norm, adds the bias, and adds the three finished relations to a
  zero matrix.  The kernel gathers features and norms separately and multiplies the gathered rows, scales the sum by the
  destination norm BEFORE the product, stores it in a narrower float format, and runs the three products and biases
  through one pipelined dense stage that adds them in a chain (and clamps, in the first layer).  Over the extended reals
  the format change is the identity and the chain regroups freely; the gathers agree because both read the row named by
  the same clamped index; and the destination norm moves across the product's sum because every quantity is a real
  number — the float inputs by the precondition, the norms as reciprocal square roots of reals at least one, and the
  first layer's output as sums and products of those.  So the two results are one function of the arguments.

  The three frames: the kernel's two (as printed and idealized) are the generated frame certificates; the reference's is
  its run with the result dropped.  The idealization rewrote nothing, so `preserves` is trivial.
-/
import proofs.«123699_j87308095193388_2_alg».proof.Defs
import proofs.«123699_j87308095193388_2_alg».proof.Proof.Gen.Kernel
import proofs.«123699_j87308095193388_2_alg».proof.Proof.Gen.Kernel.Skeleton
import proofs.«123699_j87308095193388_2_alg».proof.Proof.Gen.Kernel.Launch
import proofs.«123699_j87308095193388_2_alg».proof.Proof.Gen.Kernel.Points
import proofs.«123699_j87308095193388_2_alg».proof.Proof.Gen.Kernel.Frame
import proofs.«123699_j87308095193388_2_alg».proof.Proof.Gen.KernelIdeal
import proofs.«123699_j87308095193388_2_alg».proof.Proof.Gen.KernelIdeal.Skeleton
import proofs.«123699_j87308095193388_2_alg».proof.Proof.Gen.KernelIdeal.Launch
import proofs.«123699_j87308095193388_2_alg».proof.Proof.Gen.KernelIdeal.Points
import proofs.«123699_j87308095193388_2_alg».proof.Proof.Gen.KernelIdeal.Frame
import proofs.«123699_j87308095193388_2_alg».proof.Proof.Gen.ReferenceIdeal
import proofs.«123699_j87308095193388_2_alg».proof.Proof.Gen.Pre_finite_inputs
import proofs.«123699_j87308095193388_2_alg».proof.Proof.RefRunPatched
import proofs.«123699_j87308095193388_2_alg».proof.Proof.RefValue
import proofs.«123699_j87308095193388_2_alg».proof.Proof.KernelRun
import proofs.«123699_j87308095193388_2_alg».proof.Proof.KernelValue
import proofs.«123699_j87308095193388_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the network of the arguments in their result. -/
theorem algebraic : Cert.algebraic_KernelIdeal_ReferenceIdeal := by
  intro m ρ m' ρ' hpre hagree
  refine ⟨fun c => Cert.HeteroSpec.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.NamedRun.run_named (F := Ideal) m ρ)
    obtain ⟨h0, h4, h5, h6, _⟩ := Cert.FiniteInputs.finite_of_Pre_KernelIdeal m hpre c
    exact Cert.KernelIdeal.KernelValue.result_eq_net m ρ c h0 h4 h5 h6
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.res_eq_net]
    unfold Cert.ReferenceIdeal.RefValue.netOf
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
